-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x3 : Shape := ⟨3, ![4096, 64, 3]⟩
abbrev S4096x3 : Shape := ⟨2, ![4096, 3]⟩
abbrev S63x256 : Shape := ⟨2, ![63, 256]⟩
abbrev S256 : Shape := ⟨1, ![256]⟩
abbrev S256x256 : Shape := ⟨2, ![256, 256]⟩
abbrev S319x256 : Shape := ⟨2, ![319, 256]⟩
abbrev S283x128 : Shape := ⟨2, ![283, 128]⟩
abbrev S128 : Shape := ⟨1, ![128]⟩
abbrev S256x1 : Shape := ⟨2, ![256, 1]⟩
abbrev S1 : Shape := ⟨1, ![1]⟩
abbrev S128x3 : Shape := ⟨2, ![128, 3]⟩
abbrev S3 : Shape := ⟨1, ![3]⟩
abbrev S_ : Shape := ⟨0, ![]⟩

class Facts : Prop where
  bcast_S_S4096x64x3 : S_.BroadcastsInDim S4096x64x3 (![] : Fin 0 → Fin S4096x64x3.rank)
  reducesTo_S4096x64x3_S_d0_1_2 : S4096x64x3.ReducesTo [0, 1, 2] S_
  h_S_ : 0 < S_.numel
  bcast_S_S4096x3 : S_.BroadcastsInDim S4096x3 (![] : Fin 0 → Fin S4096x3.rank)
  reducesTo_S4096x3_S_d0_1 : S4096x3.ReducesTo [0, 1] S_
  bcast_S_S63x256 : S_.BroadcastsInDim S63x256 (![] : Fin 0 → Fin S63x256.rank)
  reducesTo_S63x256_S_d0_1 : S63x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S319x256 : S_.BroadcastsInDim S319x256 (![] : Fin 0 → Fin S319x256.rank)
  reducesTo_S319x256_S_d0_1 : S319x256.ReducesTo [0, 1] S_
  bcast_S_S283x128 : S_.BroadcastsInDim S283x128 (![] : Fin 0 → Fin S283x128.rank)
  reducesTo_S283x128_S_d0_1 : S283x128.ReducesTo [0, 1] S_
  bcast_S_S128 : S_.BroadcastsInDim S128 (![] : Fin 0 → Fin S128.rank)
  reducesTo_S128_S_d0 : S128.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part7 {F : FTy → Type} [FloatOps F] (main_arg25 : FVec F S3 .f32) (main_v118 : IVec S_ 1) (main_v119 : FVec F S128x3 .f32) : IVec S_ 1 :=
  let main_cst_46 : FVec F S_ .f32 := constant S_ .f32 0x7F800000#32
  let main_v120 : FVec F S128x3 .f32 := broadcastInDim S128x3 ![] bcast_S_S128x3 main_cst_46
  let main_v121 : IVec S128x3 1 := cmpf .olt main_v119 main_v120
  let main_c_47 : IVec S_ 1 := constantI S_ 1 1#1
  let main_v122 : IVec S_ 1 := (fun x v => Host.reduce IntOp.andi x v reducesTo_S128x3_S_d0_1 h_S_) main_v121 main_c_47
  let main_v123 : IVec S_ 1 := andi main_v118 main_v122
  let main_v124 : FVec F S3 .f32 := Host.absf main_arg25
  let main_cst_48 : FVec F S_ .f32 := constant S_ .f32 0x7F800000#32
  let main_v125 : FVec F S3 .f32 := broadcastInDim S3 ![] bcast_S_S3 main_cst_48
  let main_v126 : IVec S3 1 := cmpf .olt main_v124 main_v125
  let main_c_49 : IVec S_ 1 := constantI S_ 1 1#1
  let main_v127 : IVec S_ 1 := (fun x v => Host.reduce IntOp.andi x v reducesTo_S3_S_d0 h_S_) main_v126 main_c_49
  let main_v128 : IVec S_ 1 := andi main_v123 main_v127
  main_v128

def fn_part6 {F : FTy → Type} [FloatOps F] (main_arg21 : FVec F S256 .f32) (main_arg22 : FVec F S256x1 .f32) (main_arg23 : FVec F S1 .f32) (main_arg24 : FVec F S128x3 .f32) (main_arg25 : FVec F S3 .f32) (main_v98 : IVec S_ 1) (main_v101 : IVec S256x256 1) (main_c_39 : IVec S_ 1) : IVec S_ 1 :=
  let main_v102 : IVec S_ 1 := (fun x v => Host.reduce IntOp.andi x v reducesTo_S256x256_S_d0_1 h_S_) main_v101 main_c_39
  let main_v103 : IVec S_ 1 := andi main_v98 main_v102
  let main_v104 : FVec F S256 .f32 := Host.absf main_arg21
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256x1 .f32 := Host.absf main_arg22
  let main_cst_42 : FVec F S_ .f32 := constant S_ .f32 0x7F800000#32
  let main_v110 : FVec F S256x1 .f32 := broadcastInDim S256x1 ![] bcast_S_S256x1 main_cst_42
  let main_v111 : IVec S256x1 1 := cmpf .olt main_v109 main_v110
  let main_c_43 : IVec S_ 1 := constantI S_ 1 1#1
  let main_v112 : IVec S_ 1 := (fun x v => Host.reduce IntOp.andi x v reducesTo_S256x1_S_d0_1 h_S_) main_v111 main_c_43
  let main_v113 : IVec S_ 1 := andi main_v108 main_v112
  let main_v114 : FVec F S1 .f32 := Host.absf main_arg23
  let main_cst_44 : FVec F S_ .f32 := constant S_ .f32 0x7F800000#32
  let main_v115 : FVec F S1 .f32 := broadcastInDim S1 ![] bcast_S_S1 main_cst_44
  let main_v116 : IVec S1 1 := cmpf .olt main_v114 main_v115
  let main_c_45 : IVec S_ 1 := constantI S_ 1 1#1
  let main_v117 : IVec S_ 1 := (fun x v => Host.reduce IntOp.andi x v reducesTo_S1_S_d0 h_S_) main_v116 main_c_45
  let main_v118 : IVec S_ 1 := andi main_v113 main_v117
  let main_v119 : FVec F S128x3 .f32 := Host.absf main_arg24
  fn_part7 (F := F) main_arg25 main_v118 main_v119

def fn_part5 {F : FTy → Type} [FloatOps F] (main_arg18 : FVec F S283x128 .f32) (main_arg19 : FVec F S128 .f32) (main_arg20 : FVec F S256x256 .f32) (main_arg21 : FVec F S256 .f32) (main_arg22 : FVec F S256x1 .f32) (main_arg23 : FVec F S1 .f32) (main_arg24 : FVec F S128x3 .f32) (main_arg25 : FVec F S3 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S283x128 .f32 := Host.absf main_arg18
  let main_cst_34 : FVec F S_ .f32 := constant S_ .f32 0x7F800000#32
  let main_v90 : FVec F S283x128 .f32 := broadcastInDim S283x128 ![] bcast_S_S283x128 main_cst_34
  let main_v91 : IVec S283x128 1 := cmpf .olt main_v89 main_v90
  let main_c_35 : IVec S_ 1 := constantI S_ 1 1#1
  let main_v92 : IVec S_ 1 := (fun x v => Host.reduce IntOp.andi x v reducesTo_S283x128_S_d0_1 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S256x256 .f32 := Host.absf main_arg20
  let main_cst_38 : FVec F S_ .f32 := constant S_ .f32 0x7F800000#32
  let main_v100 : FVec F S256x256 .f32 := broadcastInDim S256x256 ![] bcast_S_S256x256 main_cst_38
  let main_v101 : IVec S256x256 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S256x256 .f32) (main_arg15 : FVec F S256 .f32) (main_arg16 : FVec F S256x256 .f32) (main_arg17 : FVec F S256 .f32) (main_arg18 : FVec F S283x128 .f32) (main_arg19 : FVec F S128 .f32) (main_arg20 : FVec F S256x256 .f32) (main_arg21 : FVec F S256 .f32) (main_arg22 : FVec F S256x1 .f32) (main_arg23 : FVec F S1 .f32) (main_arg24 : FVec F S128x3 .f32) (main_arg25 : FVec F S3 .f32) (main_v63 : IVec S_ 1) (main_v67 : IVec S_ 1) : IVec S_ 1 :=
  let main_v68 : IVec S_ 1 := andi main_v63 main_v67
  let main_v69 : FVec F S256x256 .f32 := Host.absf main_arg14
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg16
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S256 .f32) (main_arg12 : FVec F S319x256 .f32) (main_arg13 : FVec F S256 .f32) (main_arg14 : FVec F S256x256 .f32) (main_arg15 : FVec F S256 .f32) (main_arg16 : FVec F S256x256 .f32) (main_arg17 : FVec F S256 .f32) (main_arg18 : FVec F S283x128 .f32) (main_arg19 : FVec F S128 .f32) (main_arg20 : FVec F S256x256 .f32) (main_arg21 : FVec F S256 .f32) (main_arg22 : FVec F S256x1 .f32) (main_arg23 : FVec F S1 .f32) (main_arg24 : FVec F S128x3 .f32) (main_arg25 : FVec F S3 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S319x256 .f32 := Host.absf main_arg12
  let main_cst_22 : FVec F S_ .f32 := constant S_ .f32 0x7F800000#32
  let main_v60 : FVec F S319x256 .f32 := broadcastInDim S319x256 ![] bcast_S_S319x256 main_cst_22
  let main_v61 : IVec S319x256 1 := cmpf .olt main_v59 main_v60
  let main_c_23 : IVec S_ 1 := constantI S_ 1 1#1
  let main_v62 : IVec S_ 1 := (fun x v => Host.reduce IntOp.andi x v reducesTo_S319x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S256 .f32) (main_arg8 : FVec F S256x256 .f32) (main_arg9 : FVec F S256 .f32) (main_arg10 : FVec F S256x256 .f32) (main_arg11 : FVec F S256 .f32) (main_arg12 : FVec F S319x256 .f32) (main_arg13 : FVec F S256 .f32) (main_arg14 : FVec F S256x256 .f32) (main_arg15 : FVec F S256 .f32) (main_arg16 : FVec F S256x256 .f32) (main_arg17 : FVec F S256 .f32) (main_arg18 : FVec F S283x128 .f32) (main_arg19 : FVec F S128 .f32) (main_arg20 : FVec F S256x256 .f32) (main_arg21 : FVec F S256 .f32) (main_arg22 : FVec F S256x1 .f32) (main_arg23 : FVec F S1 .f32) (main_arg24 : FVec F S128x3 .f32) (main_arg25 : FVec F S3 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S319x256 .f32) (main_arg13 : FVec F S256 .f32) (main_arg14 : FVec F S256x256 .f32) (main_arg15 : FVec F S256 .f32) (main_arg16 : FVec F S256x256 .f32) (main_arg17 : FVec F S256 .f32) (main_arg18 : FVec F S283x128 .f32) (main_arg19 : FVec F S128 .f32) (main_arg20 : FVec F S256x256 .f32) (main_arg21 : FVec F S256 .f32) (main_arg22 : FVec F S256x1 .f32) (main_arg23 : FVec F S1 .f32) (main_arg24 : FVec F S128x3 .f32) (main_arg25 : FVec F S3 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S4096x64x3 .f32) (main_arg1 : FVec F S4096x3 .f32) (main_arg2 : FVec F S63x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S319x256 .f32) (main_arg13 : FVec F S256 .f32) (main_arg14 : FVec F S256x256 .f32) (main_arg15 : FVec F S256 .f32) (main_arg16 : FVec F S256x256 .f32) (main_arg17 : FVec F S256 .f32) (main_arg18 : FVec F S283x128 .f32) (main_arg19 : FVec F S128 .f32) (main_arg20 : FVec F S256x256 .f32) (main_arg21 : FVec F S256 .f32) (main_arg22 : FVec F S256x1 .f32) (main_arg23 : FVec F S1 .f32) (main_arg24 : FVec F S128x3 .f32) (main_arg25 : FVec F S3 .f32) : IVec S_ 1 :=
  let main_v0 : FVec F S4096x64x3 .f32 := Host.absf main_arg0
  let main_cst : FVec F S_ .f32 := constant S_ .f32 0x7F800000#32
  let main_v1 : FVec F S4096x64x3 .f32 := broadcastInDim S4096x64x3 ![] bcast_S_S4096x64x3 main_cst
  let main_v2 : IVec S4096x64x3 1 := cmpf .olt main_v0 main_v1
  let main_c : IVec S_ 1 := constantI S_ 1 1#1
  let main_v3 : IVec S_ 1 := (fun x v => Host.reduce IntOp.andi x v reducesTo_S4096x64x3_S_d0_1_2 h_S_) main_v2 main_c
  let main_v4 : FVec F S4096x3 .f32 := Host.absf main_arg1
  let main_cst_0 : FVec F S_ .f32 := constant S_ .f32 0x7F800000#32
  let main_v5 : FVec F S4096x3 .f32 := broadcastInDim S4096x3 ![] bcast_S_S4096x3 main_cst_0
  let main_v6 : IVec S4096x3 1 := cmpf .olt main_v4 main_v5
  let main_c_1 : IVec S_ 1 := constantI S_ 1 1#1
  let main_v7 : IVec S_ 1 := (fun x v => Host.reduce IntOp.andi x v reducesTo_S4096x3_S_d0_1 h_S_) main_v6 main_c_1
  let main_v8 : IVec S_ 1 := andi main_v3 main_v7
  let main_v9 : FVec F S63x256 .f32 := Host.absf main_arg2
  let main_cst_2 : FVec F S_ .f32 := constant S_ .f32 0x7F800000#32
  let main_v10 : FVec F S63x256 .f32 := broadcastInDim S63x256 ![] bcast_S_S63x256 main_cst_2
  let main_v11 : IVec S63x256 1 := cmpf .olt main_v9 main_v10
  let main_c_3 : IVec S_ 1 := constantI S_ 1 1#1
  let main_v12 : IVec S_ 1 := (fun x v => Host.reduce IntOp.andi x v reducesTo_S63x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S4096x64x3 : Shape := ⟨3, ![4096, 64, 3]⟩
abbrev S4096x3 : Shape := ⟨2, ![4096, 3]⟩
abbrev S63x256 : Shape := ⟨2, ![63, 256]⟩
abbrev S256 : Shape := ⟨1, ![256]⟩
abbrev S256x256 : Shape := ⟨2, ![256, 256]⟩
abbrev S319x256 : Shape := ⟨2, ![319, 256]⟩
abbrev S283x128 : Shape := ⟨2, ![283, 128]⟩
abbrev S128 : Shape := ⟨1, ![128]⟩
abbrev S256x1 : Shape := ⟨2, ![256, 1]⟩
abbrev S1 : Shape := ⟨1, ![1]⟩
abbrev S128x3 : Shape := ⟨2, ![128, 3]⟩
abbrev S3 : Shape := ⟨1, ![3]⟩
abbrev S10 : Shape := ⟨1, ![10]⟩
abbrev S_ : Shape := ⟨0, ![]⟩
abbrev S4096x64x1x3 : Shape := ⟨4, ![4096, 64, 1, 3]⟩
abbrev S10x1 : Shape := ⟨2, ![10, 1]⟩
abbrev S1x1x10x1 : Shape := ⟨4, ![1, 1, 10, 1]⟩
abbrev S4096x64x10x3 : Shape := ⟨4, ![4096, 64, 10, 3]⟩
abbrev S4096x64x10x1x3 : Shape := ⟨5, ![4096, 64, 10, 1, 3]⟩
abbrev S4096x64x10x2x3 : Shape := ⟨5, ![4096, 64, 10, 2, 3]⟩
abbrev S4096x64x60 : Shape := ⟨3, ![4096, 64, 60]⟩
abbrev S4096x64x63 : Shape := ⟨3, ![4096, 64, 63]⟩
abbrev S262144x63 : Shape := ⟨2, ![262144, 63]⟩
abbrev S4 : Shape := ⟨1, ![4]⟩
abbrev S4096x1x3 : Shape := ⟨3, ![4096, 1, 3]⟩
abbrev S4x1 : Shape := ⟨2, ![4, 1]⟩
abbrev S1x4x1 : Shape := ⟨3, ![1, 4, 1]⟩
abbrev S4096x4x3 : Shape := ⟨3, ![4096, 4, 3]⟩
abbrev S4096x4x1x3 : Shape := ⟨4, ![4096, 4, 1, 3]⟩
abbrev S4096x4x2x3 : Shape := ⟨4, ![4096, 4, 2, 3]⟩
abbrev S4096x24 : Shape := ⟨2, ![4096, 24]⟩
abbrev S4096x27 : Shape := ⟨2, ![4096, 27]⟩
abbrev S4096x1x27 : Shape := ⟨3, ![4096, 1, 27]⟩
abbrev S4096x64x27 : Shape := ⟨3, ![4096, 64, 27]⟩
abbrev S262144x27 : Shape := ⟨2, ![262144, 27]⟩
abbrev S256x128 : Shape := ⟨2, ![256, 128]⟩
abbrev S27x128 : Shape := ⟨2, ![27, 128]⟩
abbrev S256x127 : Shape := ⟨2, ![256, 127]⟩
abbrev S256x384 : Shape := ⟨2, ![256, 384]⟩
abbrev S127 : Shape := ⟨1, ![127]⟩
abbrev S384 : Shape := ⟨1, ![384]⟩
abbrev S1x256 : Shape := ⟨2, ![1, 256]⟩
abbrev S1x128 : Shape := ⟨2, ![1, 128]⟩
abbrev S1x384 : Shape := ⟨2, ![1, 384]⟩
abbrev S1x3 : Shape := ⟨2, ![1, 3]⟩
abbrev S262144x4 : Shape := ⟨2, ![262144, 4]⟩
abbrev S4096x63 : Shape := ⟨2, ![4096, 63]⟩
abbrev S4096x4 : Shape := ⟨2, ![4096, 4]⟩
abbrev S4096x256 : Shape := ⟨2, ![4096, 256]⟩
abbrev S4096x384 : Shape := ⟨2, ![4096, 384]⟩
abbrev S4096x1 : Shape := ⟨2, ![4096, 1]⟩
abbrev S4096x128 : Shape := ⟨2, ![4096, 128]⟩
abbrev S4096x64x4 : Shape := ⟨3, ![4096, 64, 4]⟩

abbrev nBuf : Space → Nat
  | .hbm => 106
  | .vmem => 30
  | .smem => 0
  | _ => 0

abbrev bufTy : (tb : Table) → Fin (tcTables nBuf tb) → BufTy
  | .hbm, ⟨0, _⟩ => ⟨S4096x64x3, .f32⟩
  | .hbm, ⟨1, _⟩ => ⟨S4096x3, .f32⟩
  | .hbm, ⟨2, _⟩ => ⟨S63x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S319x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S283x128, .f32⟩
  | .hbm, ⟨19, _⟩ => ⟨S128, .f32⟩
  | .hbm, ⟨20, _⟩ => ⟨S256x256, .f32⟩
  | .hbm, ⟨21, _⟩ => ⟨S256, .f32⟩
  | .hbm, ⟨22, _⟩ => ⟨S256x1, .f32⟩
  | .hbm, ⟨23, _⟩ => ⟨S1, .f32⟩
  | .hbm, ⟨24, _⟩ => ⟨S128x3, .f32⟩
  | .hbm, ⟨25, _⟩ => ⟨S3, .f32⟩
  | .hbm, ⟨26, _⟩ => ⟨S10, .i32⟩
  | .hbm, ⟨27, _⟩ => ⟨S10, .f32⟩
  | .hbm, ⟨28, _⟩ => ⟨S_, .f32⟩
  | .hbm, ⟨29, _⟩ => ⟨S10, .f32⟩
  | .hbm, ⟨30, _⟩ => ⟨S10, .f32⟩
  | .hbm, ⟨31, _⟩ => ⟨S10, .f32⟩
  | .hbm, ⟨32, _⟩ => ⟨S4096x64x1x3, .f32⟩
  | .hbm, ⟨33, _⟩ => ⟨S10x1, .f32⟩
  | .hbm, ⟨34, _⟩ => ⟨S1x1x10x1, .f32⟩
  | .hbm, ⟨35, _⟩ => ⟨S4096x64x10x3, .f32⟩
  | .hbm, ⟨36, _⟩ => ⟨S4096x64x10x3, .f32⟩
  | .hbm, ⟨37, _⟩ => ⟨S4096x64x10x3, .f32⟩
  | .hbm, ⟨38, _⟩ => ⟨S4096x64x10x3, .f32⟩
  | .hbm, ⟨39, _⟩ => ⟨S4096x64x10x3, .f32⟩
  | .hbm, ⟨40, _⟩ => ⟨S4096x64x10x1x3, .f32⟩
  | .hbm, ⟨41, _⟩ => ⟨S4096x64x10x1x3, .f32⟩
  | .hbm, ⟨42, _⟩ => ⟨S4096x64x10x2x3, .f32⟩
  | .hbm, ⟨43, _⟩ => ⟨S4096x64x60, .f32⟩
  | .hbm, ⟨44, _⟩ => ⟨S4096x64x63, .f32⟩
  | .hbm, ⟨45, _⟩ => ⟨S262144x63, .f32⟩
  | .hbm, ⟨46, _⟩ => ⟨S4, .i32⟩
  | .hbm, ⟨47, _⟩ => ⟨S4, .f32⟩
  | .hbm, ⟨48, _⟩ => ⟨S_, .f32⟩
  | .hbm, ⟨49, _⟩ => ⟨S4, .f32⟩
  | .hbm, ⟨50, _⟩ => ⟨S4, .f32⟩
  | .hbm, ⟨51, _⟩ => ⟨S4, .f32⟩
  | .hbm, ⟨52, _⟩ => ⟨S4096x1x3, .f32⟩
  | .hbm, ⟨53, _⟩ => ⟨S4x1, .f32⟩
  | .hbm, ⟨54, _⟩ => ⟨S1x4x1, .f32⟩
  | .hbm, ⟨55, _⟩ => ⟨S4096x4x3, .f32⟩
  | .hbm, ⟨56, _⟩ => ⟨S4096x4x3, .f32⟩
  | .hbm, ⟨57, _⟩ => ⟨S4096x4x3, .f32⟩
  | .hbm, ⟨58, _⟩ => ⟨S4096x4x3, .f32⟩
  | .hbm, ⟨59, _⟩ => ⟨S4096x4x3, .f32⟩
  | .hbm, ⟨60, _⟩ => ⟨S4096x4x1x3, .f32⟩
  | .hbm, ⟨61, _⟩ => ⟨S4096x4x1x3, .f32⟩
  | .hbm, ⟨62, _⟩ => ⟨S4096x4x2x3, .f32⟩
  | .hbm, ⟨63, _⟩ => ⟨S4096x24, .f32⟩
  | .hbm, ⟨64, _⟩ => ⟨S4096x27, .f32⟩
  | .hbm, ⟨65, _⟩ => ⟨S4096x1x27, .f32⟩
  | .hbm, ⟨66, _⟩ => ⟨S4096x64x27, .f32⟩
  | .hbm, ⟨67, _⟩ => ⟨S262144x27, .f32⟩
  | .hbm, ⟨68, _⟩ => ⟨S262144x63, .bf16⟩
  | .hbm, ⟨69, _⟩ => ⟨S262144x27, .bf16⟩
  | .hbm, ⟨70, _⟩ => ⟨S63x256, .f32⟩
  | .hbm, ⟨71, _⟩ => ⟨S256x256, .f32⟩
  | .hbm, ⟨72, _⟩ => ⟨S256x128, .f32⟩
  | .hbm, ⟨73, _⟩ => ⟨S27x128, .f32⟩
  | .hbm, ⟨74, _⟩ => ⟨S_, .f32⟩
  | .hbm, ⟨75, _⟩ => ⟨S256x127, .f32⟩
  | .hbm, ⟨76, _⟩ => ⟨S256x384, .f32⟩
  | .hbm, ⟨77, _⟩ => ⟨S_, .f32⟩
  | .hbm, ⟨78, _⟩ => ⟨S127, .f32⟩
  | .hbm, ⟨79, _⟩ => ⟨S384, .f32⟩
  | .hbm, ⟨80, _⟩ => ⟨S63x256, .bf16⟩
  | .hbm, ⟨81, _⟩ => ⟨S256x256, .bf16⟩
  | .hbm, ⟨82, _⟩ => ⟨S256x256, .bf16⟩
  | .hbm, ⟨83, _⟩ => ⟨S256x256, .bf16⟩
  | .hbm, ⟨84, _⟩ => ⟨S256x256, .bf16⟩
  | .hbm, ⟨85, _⟩ => ⟨S256x256, .bf16⟩
  | .hbm, ⟨86, _⟩ => ⟨S256x256, .bf16⟩
  | .hbm, ⟨87, _⟩ => ⟨S1x256, .f32⟩
  | .hbm, ⟨88, _⟩ => ⟨S1x256, .f32⟩
  | .hbm, ⟨89, _⟩ => ⟨S1x256, .f32⟩
  | .hbm, ⟨90, _⟩ => ⟨S1x256, .f32⟩
  | .hbm, ⟨91, _⟩ => ⟨S1x256, .f32⟩
  | .hbm, ⟨92, _⟩ => ⟨S1x256, .f32⟩
  | .hbm, ⟨93, _⟩ => ⟨S1x256, .f32⟩
  | .hbm, ⟨94, _⟩ => ⟨S63x256, .bf16⟩
  | .hbm, ⟨95, _⟩ => ⟨S256x256, .bf16⟩
  | .hbm, ⟨96, _⟩ => ⟨S1x256, .f32⟩
  | .hbm, ⟨97, _⟩ => ⟨S256x128, .bf16⟩
  | .hbm, ⟨98, _⟩ => ⟨S27x128, .bf16⟩
  | .hbm, ⟨99, _⟩ => ⟨S1x128, .f32⟩
  | .hbm, ⟨100, _⟩ => ⟨S256x384, .bf16⟩
  | .hbm, ⟨101, _⟩ => ⟨S1x384, .f32⟩
  | .hbm, ⟨102, _⟩ => ⟨S128x3, .bf16⟩
  | .hbm, ⟨103, _⟩ => ⟨S1x3, .f32⟩
  | .hbm, ⟨104, _⟩ => ⟨S262144x4, .f32⟩
  | .hbm, ⟨105, _⟩ => ⟨S4096x64x4, .f32⟩
  | .local _ .vmem, ⟨0, _⟩ => ⟨S4096x63, .bf16⟩
  | .local _ .vmem, ⟨1, _⟩ => ⟨S4096x63, .bf16⟩
  | .local _ .vmem, ⟨2, _⟩ => ⟨S4096x27, .bf16⟩
  | .local _ .vmem, ⟨3, _⟩ => ⟨S4096x27, .bf16⟩
  | .local _ .vmem, ⟨4, _⟩ => ⟨S63x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S256x256, .bf16⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S256x256, .bf16⟩
  | .local _ .vmem, ⟨13, _⟩ => ⟨S1x256, .f32⟩
  | .local _ .vmem, ⟨14, _⟩ => ⟨S63x256, .bf16⟩
  | .local _ .vmem, ⟨15, _⟩ => ⟨S256x256, .bf16⟩
  | .local _ .vmem, ⟨16, _⟩ => ⟨S1x256, .f32⟩
  | .local _ .vmem, ⟨17, _⟩ => ⟨S256x256, .bf16⟩
  | .local _ .vmem, ⟨18, _⟩ => ⟨S1x256, .f32⟩
  | .local _ .vmem, ⟨19, _⟩ => ⟨S256x256, .bf16⟩
  | .local _ .vmem, ⟨20, _⟩ => ⟨S1x256, .f32⟩
  | .local _ .vmem, ⟨21, _⟩ => ⟨S256x128, .bf16⟩
  | .local _ .vmem, ⟨22, _⟩ => ⟨S27x128, .bf16⟩
  | .local _ .vmem, ⟨23, _⟩ => ⟨S1x128, .f32⟩
  | .local _ .vmem, ⟨24, _⟩ => ⟨S256x384, .bf16⟩
  | .local _ .vmem, ⟨25, _⟩ => ⟨S1x384, .f32⟩
  | .local _ .vmem, ⟨26, _⟩ => ⟨S128x3, .bf16⟩
  | .local _ .vmem, ⟨27, _⟩ => ⟨S1x3, .f32⟩
  | .local _ .vmem, ⟨28, _⟩ => ⟨S4096x4, .f32⟩
  | .local _ .vmem, ⟨29, _⟩ => ⟨S4096x4, .f32⟩
  | _, _ => ⟨S4096x64x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_cst : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_0 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_1 : Ref sig .tc := ⟨.hbm, 74, rfl⟩
abbrev main_v46 : Ref sig .tc := ⟨.hbm, 75, rfl⟩
abbrev main_v47 : Ref sig .tc := ⟨.hbm, 76, rfl⟩
abbrev main_cst_2 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg26_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem26_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x63 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x27 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S63x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S63x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S27x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256x384 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x384 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S128x3 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x3 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S4096x4 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

class Facts₀ : Prop where
  bcast_S_S10 : S_.BroadcastsInDim S10 (![] : Fin 0 → Fin S10.rank)
  bcast_S4096x64x3_S4096x64x1x3_0_1_3 : S4096x64x3.BroadcastsInDim S4096x64x1x3 (![0, 1, 3] : Fin 3 → Fin S4096x64x1x3.rank)
  bcast_S10_S10x1_0 : S10.BroadcastsInDim S10x1 (![0] : Fin 1 → Fin S10x1.rank)
  bcast_S10x1_S1x1x10x1_2_3 : S10x1.BroadcastsInDim S1x1x10x1 (![2, 3] : Fin 2 → Fin S1x1x10x1.rank)
  bcast_S4096x64x1x3_S4096x64x10x3_0_1_2_3 : S4096x64x1x3.BroadcastsInDim S4096x64x10x3 (![0, 1, 2, 3] : Fin 4 → Fin S4096x64x10x3.rank)
  bcast_S1x1x10x1_S4096x64x10x3_0_1_2_3 : S1x1x10x1.BroadcastsInDim S4096x64x10x3 (![0, 1, 2, 3] : Fin 4 → Fin S4096x64x10x3.rank)
  bcast_S4096x64x10x3_S4096x64x10x1x3_0_1_2_4 : S4096x64x10x3.BroadcastsInDim S4096x64x10x1x3 (![0, 1, 2, 4] : Fin 4 → Fin S4096x64x10x1x3.rank)
  concatenates_S4096x64x10x1x3_S4096x64x10x1x3_S4096x64x10x2x3_d3 : Shape.Concatenates [S4096x64x10x1x3, S4096x64x10x1x3] S4096x64x10x2x3 3
  shapeCasts_S4096x64x10x2x3_S4096x64x60 : S4096x64x10x2x3.ShapeCasts S4096x64x60
  concatenates_S4096x64x3_S4096x64x60_S4096x64x63_d2 : Shape.Concatenates [S4096x64x3, S4096x64x60] S4096x64x63 2
  shapeCasts_S4096x64x63_S262144x63 : S4096x64x63.ShapeCasts S262144x63
  bcast_S_S4 : S_.BroadcastsInDim S4 (![] : Fin 0 → Fin S4.rank)
  bcast_S4096x3_S4096x1x3_0_2 : S4096x3.BroadcastsInDim S4096x1x3 (![0, 2] : Fin 2 → Fin S4096x1x3.rank)
  bcast_S4_S4x1_0 : S4.BroadcastsInDim S4x1 (![0] : Fin 1 → Fin S4x1.rank)
  bcast_S4x1_S1x4x1_1_2 : S4x1.BroadcastsInDim S1x4x1 (![1, 2] : Fin 2 → Fin S1x4x1.rank)
  bcast_S4096x1x3_S4096x4x3_0_1_2 : S4096x1x3.BroadcastsInDim S4096x4x3 (![0, 1, 2] : Fin 3 → Fin S4096x4x3.rank)
  bcast_S1x4x1_S4096x4x3_0_1_2 : S1x4x1.BroadcastsInDim S4096x4x3 (![0, 1, 2] : Fin 3 → Fin S4096x4x3.rank)
  bcast_S4096x4x3_S4096x4x1x3_0_1_3 : S4096x4x3.BroadcastsInDim S4096x4x1x3 (![0, 1, 3] : Fin 3 → Fin S4096x4x1x3.rank)
  concatenates_S4096x4x1x3_S4096x4x1x3_S4096x4x2x3_d2 : Shape.Concatenates [S4096x4x1x3, S4096x4x1x3] S4096x4x2x3 2
  shapeCasts_S4096x4x2x3_S4096x24 : S4096x4x2x3.ShapeCasts S4096x24
  concatenates_S4096x3_S4096x24_S4096x27_d1 : Shape.Concatenates [S4096x3, S4096x24] S4096x27 1
  bcast_S4096x27_S4096x1x27_0_2 : S4096x27.BroadcastsInDim S4096x1x27 (![0, 2] : Fin 2 → Fin S4096x1x27.rank)
  bcast_S4096x1x27_S4096x64x27_0_1_2 : S4096x1x27.BroadcastsInDim S4096x64x27 (![0, 1, 2] : Fin 3 → Fin S4096x64x27.rank)
  shapeCasts_S4096x64x27_S262144x27 : S4096x64x27.ShapeCasts S262144x27
  bitsLt_bf16_f32 : FTy.bits .bf16 < FTy.bits .f32
  slices_S319x256_S63x256_0_0 : S319x256.Slices ![0, 0] S63x256
  slices_S319x256_S256x256_63_0 : S319x256.Slices ![63, 0] S256x256
  slices_S283x128_S256x128_0_0 : S283x128.Slices ![0, 0] S256x128
  slices_S283x128_S27x128_256_0 : S283x128.Slices ![256, 0] S27x128
  bcast_S_S256x127 : S_.BroadcastsInDim S256x127 (![] : Fin 0 → Fin S256x127.rank)
  concatenates_S256x256_S256x1_S256x127_S256x384_d1 : Shape.Concatenates [S256x256, S256x1, S256x127] S256x384 1
  bcast_S_S127 : S_.BroadcastsInDim S127 (![] : Fin 0 → Fin S127.rank)
  concatenates_S256_S1_S127_S384_d0 : Shape.Concatenates [S256, S1, S127] S384 0
  shapeCasts_S256_S1x256 : S256.ShapeCasts S1x256
  shapeCasts_S128_S1x128 : S128.ShapeCasts S1x128
  shapeCasts_S384_S1x384 : S384.ShapeCasts S1x384
  shapeCasts_S3_S1x3 : S3.ShapeCasts S1x3
  inb_S4096x63_S4096x63_0_0 : ∀ a, (![0, 0] : Fin 2 → Nat) a + S4096x63.size a ≤ S4096x63.size a
  h_S4096x63 : 0 < S4096x63.numel
  shapeCasts_S4096x63_S4096x63 : S4096x63.ShapeCasts S4096x63
  inb_S4096x27_S4096x27_0_0 : ∀ a, (![0, 0] : Fin 2 → Nat) a + S4096x27.size a ≤ S4096x27.size a
  h_S4096x27 : 0 < S4096x27.numel
  shapeCasts_S4096x27_S4096x27 : S4096x27.ShapeCasts S4096x27
  inb_S63x256_S63x256_0_0 : ∀ a, (![0, 0] : Fin 2 → Nat) a + S63x256.size a ≤ S63x256.size a
  h_S63x256 : 0 < S63x256.numel
  shapeCasts_S63x256_S63x256 : S63x256.ShapeCasts S63x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x384_S256x384_0_0 : ∀ a, (![0, 0] : Fin 2 → Nat) a + S256x384.size a ≤ S256x384.size a
  h_S256x384 : 0 < S256x384.numel
  shapeCasts_S256x384_S256x384 : S256x384.ShapeCasts S256x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S4096x384 : S1x384.Broadcasts S4096x384
  slices_S4096x384_o0_0_S4096x256 : S4096x384.Slices ![0, 0] S4096x256
  slices_S4096x384_o0_256_S4096x1 : S4096x384.Slices ![0, 256] S4096x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S27x128_S27x128_0_0 : ∀ a, (![0, 0] : Fin 2 → Nat) a + S27x128.size a ≤ S27x128.size a
  h_S27x128 : 0 < S27x128.numel
  shapeCasts_S27x128_S27x128 : S27x128.ShapeCasts S27x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S4096x3 : S1x3.Broadcasts S4096x3
  concatenates_S4096x3_S4096x1_S4096x4_d1 : Shape.Concatenates [S4096x3, S4096x1] S4096x4 1
  inb_S4096x4_S4096x4_0_0 : ∀ a, (![0, 0] : Fin 2 → Nat) a + S4096x4.size a ≤ S4096x4.size a
  h_S4096x4 : 0 < S4096x4.numel
  shapeCasts_S262144x4_S4096x64x4 : S262144x4.ShapeCasts S4096x64x4
  dot_S4096x63_S63x256_S4096x256_1_0_0_1_n_n_wf : DotDims.WF S4096x63 S63x256 S4096x256 [1] [0] [0] [1] [] []
  dot_S4096x256_S256x256_S4096x256_1_0_0_1_n_n_wf : DotDims.WF S4096x256 S256x256 S4096x256 [1] [0] [0] [1] [] []
  dot_S4096x256_S256x384_S4096x384_1_0_0_1_n_n_wf : DotDims.WF S4096x256 S256x384 S4096x384 [1] [0] [0] [1] [] []
  dot_S4096x256_S256x128_S4096x128_1_0_0_1_n_n_wf : DotDims.WF S4096x256 S256x128 S4096x128 [1] [0] [0] [1] [] []
  dot_S4096x27_S27x128_S4096x128_1_0_0_1_n_n_wf : DotDims.WF S4096x27 S27x128 S4096x128 [1] [0] [0] [1] [] []
  dot_S4096x128_S128x3_S4096x3_1_0_0_1_n_n_wf : DotDims.WF S4096x128 S128x3 S4096x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x63.size a ≤ S262144x63.size a
  hwx0_0 : ∀ i : grid0.Coords, EltTy.bits .bf16 = 32 ∨ (Rect.block (s := S262144x63) S4096x63.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x27.size a ≤ S262144x27.size a
  hwx0_1 : ∀ i : grid0.Coords, EltTy.bits .bf16 = 32 ∨ (Rect.block (s := S262144x27) S4096x27.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S63x256.size a ≤ S63x256.size a
  hwx0_2 : ∀ i : grid0.Coords, EltTy.bits .bf16 = 32 ∨ (Rect.block (s := S63x256) S63x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .bf16 = 32 ∨ (Rect.block (s := S256x256) S256x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S63x256.size a ≤ S63x256.size a
  hwx0_12 : ∀ i : grid0.Coords, EltTy.bits .bf16 = 32 ∨ (Rect.block (s := S63x256) S63x256.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S256x256.size a
  hwx0_13 : ∀ i : grid0.Coords, EltTy.bits .bf16 = 32 ∨ (Rect.block (s := S256x256) S256x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x256.size a ≤ S256x256.size a
  hwx0_15 : ∀ i : grid0.Coords, EltTy.bits .bf16 = 32 ∨ (Rect.block (s := S256x256) S256x256.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x256.size a ≤ S1x256.size a
  hwx0_16 : ∀ i : grid0.Coords, EltTy.bits .f32 = 32 ∨ (Rect.block (s := S1x256) S1x256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256x256.size a ≤ S256x256.size a
  hwx0_17 : ∀ i : grid0.Coords, EltTy.bits .bf16 = 32 ∨ (Rect.block (s := S256x256) S256x256.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x256.size a ≤ S1x256.size a
  hwx0_18 : ∀ i : grid0.Coords, EltTy.bits .f32 = 32 ∨ (Rect.block (s := S1x256) S1x256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256x128.size a ≤ S256x128.size a
  hwx0_19 : ∀ i : grid0.Coords, EltTy.bits .bf16 = 32 ∨ (Rect.block (s := S256x128) S256x128.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S27x128.size a ≤ S27x128.size a
  hwx0_20 : ∀ i : grid0.Coords, EltTy.bits .bf16 = 32 ∨ (Rect.block (s := S27x128) S27x128.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x128.size a ≤ S1x128.size a
  hwx0_21 : ∀ i : grid0.Coords, EltTy.bits .f32 = 32 ∨ (Rect.block (s := S1x128) S1x128.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S256x384.size a ≤ S256x384.size a
  hwx0_22 : ∀ i : grid0.Coords, EltTy.bits .bf16 = 32 ∨ (Rect.block (s := S256x384) S256x384.size (cc0_transform_22 i) (hinb0_22 i)).WholeWords (EltTy.packing .bf16)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1x384.size a ≤ S1x384.size a
  hwx0_23 : ∀ i : grid0.Coords, EltTy.bits .f32 = 32 ∨ (Rect.block (s := S1x384) S1x384.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S128x3.size a ≤ S128x3.size a
  hwx0_24 : ∀ i : grid0.Coords, EltTy.bits .bf16 = 32 ∨ (Rect.block (s := S128x3) S128x3.size (cc0_transform_24 i) (hinb0_24 i)).WholeWords (EltTy.packing .bf16)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S1x3.size a ≤ S1x3.size a
  hwx0_25 : ∀ i : grid0.Coords, EltTy.bits .f32 = 32 ∨ (Rect.block (s := S1x3) S1x3.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S4096x4.size a ≤ S262144x4.size a
  hwx0_26 : ∀ i : grid0.Coords, EltTy.bits .f32 = 32 ∨ (Rect.block (s := S262144x4) S4096x4.size (cc0_transform_26 i) (hinb0_26 i)).WholeWords (EltTy.packing .f32)

variable [Facts₀]

def dot_S4096x63_S63x256_S4096x256_1_0_0_1_n_n : DotDims S4096x63 S63x256 S4096x256 where
  lhsContracting := [1]
  rhsContracting := [0]
  lhsNonContracting := [0]
  rhsNonContracting := [1]
  lhsBatch := []
  rhsBatch := []
  wf := dot_S4096x63_S63x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x384_S4096x384_1_0_0_1_n_n : DotDims S4096x256 S256x384 S4096x384 where
  lhsContracting := [1]
  rhsContracting := [0]
  lhsNonContracting := [0]
  rhsNonContracting := [1]
  lhsBatch := []
  rhsBatch := []
  wf := dot_S4096x256_S256x384_S4096x384_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x27_S27x128_S4096x128_1_0_0_1_n_n : DotDims S4096x27 S27x128 S4096x128 where
  lhsContracting := [1]
  rhsContracting := [0]
  lhsNonContracting := [0]
  rhsNonContracting := [1]
  lhsBatch := []
  rhsBatch := []
  wf := dot_S4096x27_S27x128_S4096x128_1_0_0_1_n_n_wf
def dot_S4096x128_S128x3_S4096x3_1_0_0_1_n_n : DotDims S4096x128 S128x3 S4096x3 where
  lhsContracting := [1]
  rhsContracting := [0]
  lhsNonContracting := [0]
  rhsNonContracting := [1]
  lhsBatch := []
  rhsBatch := []
  wf := dot_S4096x128_S128x3_S4096x3_1_0_0_1_n_n_wf

abbrev win0_0 : Pipeline.Window sig grid0 :=
  Pipeline.Window.ofSpec (Memref.whole main_v40) S4096x63.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S4096x27.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v50) S63x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v57) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v51) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v58) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v52) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v59) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v53) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v60) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v54) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v61) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v64) S63x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v65) S256x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v66) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v55) S256x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v62) S1x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v56) S256x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v63) S1x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v67) S256x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v68) S27x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v69) S1x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v70) S256x384.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v71) S1x384.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v72) S128x3.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v73) S1x3.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v74) S4096x4.size cc0_transform_26 reads0_26 true false 2 stage0_26 sem0_26
    hrank0 hreads0_26 hinb0_26 nbuf0_26 (Memref.isWhole_whole _) hwx0_26 hstage0_26

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

class Facts : Prop extends Facts₀ where

variable [Facts]
-- ==== ReferenceIdeal.lean ====
abbrev S4096x64x3 : Shape := ⟨3, ![4096, 64, 3]⟩
abbrev S4096x3 : Shape := ⟨2, ![4096, 3]⟩
abbrev S63x256 : Shape := ⟨2, ![63, 256]⟩
abbrev S256 : Shape := ⟨1, ![256]⟩
abbrev S256x256 : Shape := ⟨2, ![256, 256]⟩
abbrev S319x256 : Shape := ⟨2, ![319, 256]⟩
abbrev S283x128 : Shape := ⟨2, ![283, 128]⟩
abbrev S128 : Shape := ⟨1, ![128]⟩
abbrev S256x1 : Shape := ⟨2, ![256, 1]⟩
abbrev S1 : Shape := ⟨1, ![1]⟩
abbrev S128x3 : Shape := ⟨2, ![128, 3]⟩
abbrev S3 : Shape := ⟨1, ![3]⟩
abbrev S10 : Shape := ⟨1, ![10]⟩
abbrev S_ : Shape := ⟨0, ![]⟩
abbrev S4096x64x1x3 : Shape := ⟨4, ![4096, 64, 1, 3]⟩
abbrev S10x1 : Shape := ⟨2, ![10, 1]⟩
abbrev S1x1x10x1 : Shape := ⟨4, ![1, 1, 10, 1]⟩
abbrev S4096x64x10x3 : Shape := ⟨4, ![4096, 64, 10, 3]⟩
abbrev S4096x64x10x1x3 : Shape := ⟨5, ![4096, 64, 10, 1, 3]⟩
abbrev S4096x64x10x2x3 : Shape := ⟨5, ![4096, 64, 10, 2, 3]⟩
abbrev S4096x64x60 : Shape := ⟨3, ![4096, 64, 60]⟩
abbrev S4096x64x63 : Shape := ⟨3, ![4096, 64, 63]⟩
abbrev S262144x63 : Shape := ⟨2, ![262144, 63]⟩
abbrev S4 : Shape := ⟨1, ![4]⟩
abbrev S4096x1x3 : Shape := ⟨3, ![4096, 1, 3]⟩
abbrev S4x1 : Shape := ⟨2, ![4, 1]⟩
abbrev S1x4x1 : Shape := ⟨3, ![1, 4, 1]⟩
abbrev S4096x4x3 : Shape := ⟨3, ![4096, 4, 3]⟩
abbrev S4096x4x1x3 : Shape := ⟨4, ![4096, 4, 1, 3]⟩
abbrev S4096x4x2x3 : Shape := ⟨4, ![4096, 4, 2, 3]⟩
abbrev S4096x24 : Shape := ⟨2, ![4096, 24]⟩
abbrev S4096x27 : Shape := ⟨2, ![4096, 27]⟩
abbrev S4096x1x27 : Shape := ⟨3, ![4096, 1, 27]⟩
abbrev S4096x64x27 : Shape := ⟨3, ![4096, 64, 27]⟩
abbrev S262144x27 : Shape := ⟨2, ![262144, 27]⟩
abbrev S262144x256 : Shape := ⟨2, ![262144, 256]⟩
abbrev S1x256 : Shape := ⟨2, ![1, 256]⟩
abbrev S262144x319 : Shape := ⟨2, ![262144, 319]⟩
abbrev S262144x1 : Shape := ⟨2, ![262144, 1]⟩
abbrev S1x1 : Shape := ⟨2, ![1, 1]⟩
abbrev S262144x283 : Shape := ⟨2, ![262144, 283]⟩
abbrev S262144x128 : Shape := ⟨2, ![262144, 128]⟩
abbrev S1x128 : Shape := ⟨2, ![1, 128]⟩
abbrev S262144x3 : Shape := ⟨2, ![262144, 3]⟩
abbrev S1x3 : Shape := ⟨2, ![1, 3]⟩
abbrev S262144x4 : Shape := ⟨2, ![262144, 4]⟩
abbrev S4096x64x4 : Shape := ⟨3, ![4096, 64, 4]⟩

abbrev nBuf : Space → Nat
  | .hbm => 147
  | .vmem => 0
  | .smem => 0
  | _ => 0

abbrev hbmTy0_0 (i : Nat) : BufTy := match i % 128 with
  | 0 => ⟨S4096x64x3, .f32⟩
  | 1 => ⟨S4096x3, .f32⟩
  | 2 => ⟨S63x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x256, .f32⟩
  | 11 => ⟨S256, .f32⟩
  | 12 => ⟨S319x256, .f32⟩
  | 13 => ⟨S256, .f32⟩
  | 14 => ⟨S256x256, .f32⟩
  | 15 => ⟨S256, .f32⟩
  | 16 => ⟨S256x256, .f32⟩
  | 17 => ⟨S256, .f32⟩
  | 18 => ⟨S283x128, .f32⟩
  | 19 => ⟨S128, .f32⟩
  | 20 => ⟨S256x256, .f32⟩
  | 21 => ⟨S256, .f32⟩
  | 22 => ⟨S256x1, .f32⟩
  | 23 => ⟨S1, .f32⟩
  | 24 => ⟨S128x3, .f32⟩
  | 25 => ⟨S3, .f32⟩
  | 26 => ⟨S10, .i32⟩
  | 27 => ⟨S10, .f32⟩
  | 28 => ⟨S_, .f32⟩
  | 29 => ⟨S10, .f32⟩
  | 30 => ⟨S10, .f32⟩
  | 31 => ⟨S10, .f32⟩
  | 32 => ⟨S4096x64x1x3, .f32⟩
  | 33 => ⟨S10x1, .f32⟩
  | 34 => ⟨S1x1x10x1, .f32⟩
  | 35 => ⟨S4096x64x10x3, .f32⟩
  | 36 => ⟨S4096x64x10x3, .f32⟩
  | 37 => ⟨S4096x64x10x3, .f32⟩
  | 38 => ⟨S4096x64x10x3, .f32⟩
  | 39 => ⟨S4096x64x10x3, .f32⟩
  | 40 => ⟨S4096x64x10x1x3, .f32⟩
  | 41 => ⟨S4096x64x10x1x3, .f32⟩
  | 42 => ⟨S4096x64x10x2x3, .f32⟩
  | 43 => ⟨S4096x64x60, .f32⟩
  | 44 => ⟨S4096x64x63, .f32⟩
  | 45 => ⟨S262144x63, .f32⟩
  | 46 => ⟨S4, .i32⟩
  | 47 => ⟨S4, .f32⟩
  | 48 => ⟨S_, .f32⟩
  | 49 => ⟨S4, .f32⟩
  | 50 => ⟨S4, .f32⟩
  | 51 => ⟨S4, .f32⟩
  | 52 => ⟨S4096x1x3, .f32⟩
  | 53 => ⟨S4x1, .f32⟩
  | 54 => ⟨S1x4x1, .f32⟩
  | 55 => ⟨S4096x4x3, .f32⟩
  | 56 => ⟨S4096x4x3, .f32⟩
  | 57 => ⟨S4096x4x3, .f32⟩
  | 58 => ⟨S4096x4x3, .f32⟩
  | 59 => ⟨S4096x4x3, .f32⟩
  | 60 => ⟨S4096x4x1x3, .f32⟩
  | 61 => ⟨S4096x4x1x3, .f32⟩
  | 62 => ⟨S4096x4x2x3, .f32⟩
  | 63 => ⟨S4096x24, .f32⟩
  | 64 => ⟨S4096x27, .f32⟩
  | 65 => ⟨S4096x1x27, .f32⟩
  | 66 => ⟨S4096x64x27, .f32⟩
  | 67 => ⟨S262144x27, .f32⟩
  | 68 => ⟨S262144x256, .f32⟩
  | 69 => ⟨S1x256, .f32⟩
  | 70 => ⟨S262144x256, .f32⟩
  | 71 => ⟨S262144x256, .f32⟩
  | 72 => ⟨S_, .f32⟩
  | 73 => ⟨S262144x256, .f32⟩
  | 74 => ⟨S262144x256, .f32⟩
  | 75 => ⟨S262144x256, .f32⟩
  | 76 => ⟨S1x256, .f32⟩
  | 77 => ⟨S262144x256, .f32⟩
  | 78 => ⟨S262144x256, .f32⟩
  | 79 => ⟨S_, .f32⟩
  | 80 => ⟨S262144x256, .f32⟩
  | 81 => ⟨S262144x256, .f32⟩
  | 82 => ⟨S262144x256, .f32⟩
  | 83 => ⟨S1x256, .f32⟩
  | 84 => ⟨S262144x256, .f32⟩
  | 85 => ⟨S262144x256, .f32⟩
  | 86 => ⟨S_, .f32⟩
  | 87 => ⟨S262144x256, .f32⟩
  | 88 => ⟨S262144x256, .f32⟩
  | 89 => ⟨S262144x256, .f32⟩
  | 90 => ⟨S1x256, .f32⟩
  | 91 => ⟨S262144x256, .f32⟩
  | 92 => ⟨S262144x256, .f32⟩
  | 93 => ⟨S_, .f32⟩
  | 94 => ⟨S262144x256, .f32⟩
  | 95 => ⟨S262144x256, .f32⟩
  | 96 => ⟨S262144x256, .f32⟩
  | 97 => ⟨S1x256, .f32⟩
  | 98 => ⟨S262144x256, .f32⟩
  | 99 => ⟨S262144x256, .f32⟩
  | 100 => ⟨S_, .f32⟩
  | 101 => ⟨S262144x256, .f32⟩
  | 102 => ⟨S262144x256, .f32⟩
  | 103 => ⟨S262144x319, .f32⟩
  | 104 => ⟨S262144x256, .f32⟩
  | 105 => ⟨S1x256, .f32⟩
  | 106 => ⟨S262144x256, .f32⟩
  | 107 => ⟨S262144x256, .f32⟩
  | 108 => ⟨S_, .f32⟩
  | 109 => ⟨S262144x256, .f32⟩
  | 110 => ⟨S262144x256, .f32⟩
  | 111 => ⟨S262144x256, .f32⟩
  | 112 => ⟨S1x256, .f32⟩
  | 113 => ⟨S262144x256, .f32⟩
  | 114 => ⟨S262144x256, .f32⟩
  | 115 => ⟨S_, .f32⟩
  | 116 => ⟨S262144x256, .f32⟩
  | 117 => ⟨S262144x256, .f32⟩
  | 118 => ⟨S262144x256, .f32⟩
  | 119 => ⟨S1x256, .f32⟩
  | 120 => ⟨S262144x256, .f32⟩
  | 121 => ⟨S262144x256, .f32⟩
  | 122 => ⟨S_, .f32⟩
  | 123 => ⟨S262144x256, .f32⟩
  | 124 => ⟨S262144x256, .f32⟩
  | 125 => ⟨S262144x1, .f32⟩
  | 126 => ⟨S1x1, .f32⟩
  | 127 => ⟨S262144x1, .f32⟩
  | _ => ⟨S4096x64x3, .f32⟩

abbrev hbmTy0_1 (i : Nat) : BufTy := match i % 128 with
  | 0 => ⟨S262144x1, .f32⟩
  | 1 => ⟨S262144x256, .f32⟩
  | 2 => ⟨S1x256, .f32⟩
  | 3 => ⟨S262144x256, .f32⟩
  | 4 => ⟨S262144x256, .f32⟩
  | 5 => ⟨S262144x283, .f32⟩
  | 6 => ⟨S262144x128, .f32⟩
  | 7 => ⟨S1x128, .f32⟩
  | 8 => ⟨S262144x128, .f32⟩
  | 9 => ⟨S262144x128, .f32⟩
  | 10 => ⟨S_, .f32⟩
  | 11 => ⟨S262144x128, .f32⟩
  | 12 => ⟨S262144x128, .f32⟩
  | 13 => ⟨S262144x3, .f32⟩
  | 14 => ⟨S1x3, .f32⟩
  | 15 => ⟨S262144x3, .f32⟩
  | 16 => ⟨S262144x3, .f32⟩
  | 17 => ⟨S262144x4, .f32⟩
  | 18 => ⟨S4096x64x4, .f32⟩
  | _ => ⟨S4096x64x3, .f32⟩

abbrev hbmTy (i : Nat) : BufTy := match i / 128 with
  | 0 => hbmTy0_0 i
  | 1 => hbmTy0_1 i
  | _ => ⟨S4096x64x3, .f32⟩

abbrev bufTy : (tb : Table) → Fin (tcTables nBuf tb) → BufTy
  | .hbm, ⟨i, _⟩ => hbmTy i
  | _, _ => ⟨S4096x64x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_cst : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_0 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_call0_cst : Ref sig .tc := ⟨.hbm, 72, rfl⟩
abbrev main_call0_v0 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_call1_cst : Ref sig .tc := ⟨.hbm, 79, rfl⟩
abbrev main_call1_v0 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_call2_cst : Ref sig .tc := ⟨.hbm, 86, rfl⟩
abbrev main_call2_v0 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_call3_cst : Ref sig .tc := ⟨.hbm, 93, rfl⟩
abbrev main_call3_v0 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_call4_cst : Ref sig .tc := ⟨.hbm, 100, rfl⟩
abbrev main_call4_v0 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_call5_cst : Ref sig .tc := ⟨.hbm, 108, rfl⟩
abbrev main_call5_v0 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_call6_cst : Ref sig .tc := ⟨.hbm, 115, rfl⟩
abbrev main_call6_v0 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_call7_cst : Ref sig .tc := ⟨.hbm, 122, rfl⟩
abbrev main_call7_v0 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_call8_cst : Ref sig .tc := ⟨.hbm, 138, rfl⟩
abbrev main_call8_v0 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩

abbrev nD : Nat := 1
abbrev τ : Topo := Topo.v7x

variable {F : FTy → Type} [FloatOps F]

class Facts₀ : Prop where
  bcast_S_S10 : S_.BroadcastsInDim S10 (![] : Fin 0 → Fin S10.rank)
  bcast_S4096x64x3_S4096x64x1x3_0_1_3 : S4096x64x3.BroadcastsInDim S4096x64x1x3 (![0, 1, 3] : Fin 3 → Fin S4096x64x1x3.rank)
  bcast_S10_S10x1_0 : S10.BroadcastsInDim S10x1 (![0] : Fin 1 → Fin S10x1.rank)
  bcast_S10x1_S1x1x10x1_2_3 : S10x1.BroadcastsInDim S1x1x10x1 (![2, 3] : Fin 2 → Fin S1x1x10x1.rank)
  bcast_S4096x64x1x3_S4096x64x10x3_0_1_2_3 : S4096x64x1x3.BroadcastsInDim S4096x64x10x3 (![0, 1, 2, 3] : Fin 4 → Fin S4096x64x10x3.rank)
  bcast_S1x1x10x1_S4096x64x10x3_0_1_2_3 : S1x1x10x1.BroadcastsInDim S4096x64x10x3 (![0, 1, 2, 3] : Fin 4 → Fin S4096x64x10x3.rank)
  bcast_S4096x64x10x3_S4096x64x10x1x3_0_1_2_4 : S4096x64x10x3.BroadcastsInDim S4096x64x10x1x3 (![0, 1, 2, 4] : Fin 4 → Fin S4096x64x10x1x3.rank)
  concatenates_S4096x64x10x1x3_S4096x64x10x1x3_S4096x64x10x2x3_d3 : Shape.Concatenates [S4096x64x10x1x3, S4096x64x10x1x3] S4096x64x10x2x3 3
  shapeCasts_S4096x64x10x2x3_S4096x64x60 : S4096x64x10x2x3.ShapeCasts S4096x64x60
  concatenates_S4096x64x3_S4096x64x60_S4096x64x63_d2 : Shape.Concatenates [S4096x64x3, S4096x64x60] S4096x64x63 2
  shapeCasts_S4096x64x63_S262144x63 : S4096x64x63.ShapeCasts S262144x63
  bcast_S_S4 : S_.BroadcastsInDim S4 (![] : Fin 0 → Fin S4.rank)
  bcast_S4096x3_S4096x1x3_0_2 : S4096x3.BroadcastsInDim S4096x1x3 (![0, 2] : Fin 2 → Fin S4096x1x3.rank)
  bcast_S4_S4x1_0 : S4.BroadcastsInDim S4x1 (![0] : Fin 1 → Fin S4x1.rank)
  bcast_S4x1_S1x4x1_1_2 : S4x1.BroadcastsInDim S1x4x1 (![1, 2] : Fin 2 → Fin S1x4x1.rank)
  bcast_S4096x1x3_S4096x4x3_0_1_2 : S4096x1x3.BroadcastsInDim S4096x4x3 (![0, 1, 2] : Fin 3 → Fin S4096x4x3.rank)
  bcast_S1x4x1_S4096x4x3_0_1_2 : S1x4x1.BroadcastsInDim S4096x4x3 (![0, 1, 2] : Fin 3 → Fin S4096x4x3.rank)
  bcast_S4096x4x3_S4096x4x1x3_0_1_3 : S4096x4x3.BroadcastsInDim S4096x4x1x3 (![0, 1, 3] : Fin 3 → Fin S4096x4x1x3.rank)
  concatenates_S4096x4x1x3_S4096x4x1x3_S4096x4x2x3_d2 : Shape.Concatenates [S4096x4x1x3, S4096x4x1x3] S4096x4x2x3 2
  shapeCasts_S4096x4x2x3_S4096x24 : S4096x4x2x3.ShapeCasts S4096x24
  concatenates_S4096x3_S4096x24_S4096x27_d1 : Shape.Concatenates [S4096x3, S4096x24] S4096x27 1
  bcast_S4096x27_S4096x1x27_0_2 : S4096x27.BroadcastsInDim S4096x1x27 (![0, 2] : Fin 2 → Fin S4096x1x27.rank)
  bcast_S4096x1x27_S4096x64x27_0_1_2 : S4096x1x27.BroadcastsInDim S4096x64x27 (![0, 1, 2] : Fin 3 → Fin S4096x64x27.rank)
  shapeCasts_S4096x64x27_S262144x27 : S4096x64x27.ShapeCasts S262144x27
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  concatenates_S262144x63_S262144x256_S262144x319_d1 : Shape.Concatenates [S262144x63, S262144x256] S262144x319 1
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  concatenates_S262144x256_S262144x27_S262144x283_d1 : Shape.Concatenates [S262144x256, S262144x27] S262144x283 1
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S3_S1x3_1 : S3.BroadcastsInDim S1x3 (![1] : Fin 1 → Fin S1x3.rank)
  bcast_S1x3_S262144x3_0_1 : S1x3.BroadcastsInDim S262144x3 (![0, 1] : Fin 2 → Fin S262144x3.rank)
  concatenates_S262144x3_S262144x1_S262144x4_d1 : Shape.Concatenates [S262144x3, S262144x1] S262144x4 1
  shapeCasts_S262144x4_S4096x64x4 : S262144x4.ShapeCasts S4096x64x4
  dot_S262144x63_S63x256_S262144x256_1_0_0_1_n_n_wf : DotDims.WF S262144x63 S63x256 S262144x256 [1] [0] [0] [1] [] []
  dot_S262144x256_S256x256_S262144x256_1_0_0_1_n_n_wf : DotDims.WF S262144x256 S256x256 S262144x256 [1] [0] [0] [1] [] []
  dot_S262144x319_S319x256_S262144x256_1_0_0_1_n_n_wf : DotDims.WF S262144x319 S319x256 S262144x256 [1] [0] [0] [1] [] []
  dot_S262144x256_S256x1_S262144x1_1_0_0_1_n_n_wf : DotDims.WF S262144x256 S256x1 S262144x1 [1] [0] [0] [1] [] []
  dot_S262144x283_S283x128_S262144x128_1_0_0_1_n_n_wf : DotDims.WF S262144x283 S283x128 S262144x128 [1] [0] [0] [1] [] []
  dot_S262144x128_S128x3_S262144x3_1_0_0_1_n_n_wf : DotDims.WF S262144x128 S128x3 S262144x3 [1] [0] [0] [1] [] []

variable [Facts₀]

def dot_S262144x63_S63x256_S262144x256_1_0_0_1_n_n : DotDims S262144x63 S63x256 S262144x256 where
  lhsContracting := [1]
  rhsContracting := [0]
  lhsNonContracting := [0]
  rhsNonContracting := [1]
  lhsBatch := []
  rhsBatch := []
  wf := dot_S262144x63_S63x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x319_S319x256_S262144x256_1_0_0_1_n_n : DotDims S262144x319 S319x256 S262144x256 where
  lhsContracting := [1]
  rhsContracting := [0]
  lhsNonContracting := [0]
  rhsNonContracting := [1]
  lhsBatch := []
  rhsBatch := []
  wf := dot_S262144x319_S319x256_S262144x256_1_0_0_1_n_n_wf
def dot_S262144x256_S256x1_S262144x1_1_0_0_1_n_n : DotDims S262144x256 S256x1 S262144x1 where
  lhsContracting := [1]
  rhsContracting := [0]
  lhsNonContracting := [0]
  rhsNonContracting := [1]
  lhsBatch := []
  rhsBatch := []
  wf := dot_S262144x256_S256x1_S262144x1_1_0_0_1_n_n_wf
def dot_S262144x283_S283x128_S262144x128_1_0_0_1_n_n : DotDims S262144x283 S283x128 S262144x128 where
  lhsContracting := [1]
  rhsContracting := [0]
  lhsNonContracting := [0]
  rhsNonContracting := [1]
  lhsBatch := []
  rhsBatch := []
  wf := dot_S262144x283_S283x128_S262144x128_1_0_0_1_n_n_wf
def dot_S262144x128_S128x3_S262144x3_1_0_0_1_n_n : DotDims S262144x128 S128x3 S262144x3 where
  lhsContracting := [1]
  rhsContracting := [0]
  lhsNonContracting := [0]
  rhsNonContracting := [1]
  lhsBatch := []
  rhsBatch := []
  wf := dot_S262144x128_S128x3_S262144x3_1_0_0_1_n_n_wf

class Facts : Prop extends Facts₀ where

variable [Facts]
-- ==== Proof.BitsHost.lean ====
/-
  The host side of the tiled program's run: what its arrays hold when the row-tiled call is entered, and that the
  host operations around the call never write an argument array.

  The program computes, on the host, the positional embedding of the sample points and of the view directions,
  rounds the weights, splits two weight matrices at a row and joins two heads into one matrix; then it launches
  the call over 64 row tiles; then it re-lays the result. Every host operation writes only its own fresh result
  buffer, so each of the 26 argument arrays is found by the call as launched and ends as launched.
-/
import proofs.«140130_j7078106103925_2_alg».proof.Proof.Gen.Kernel.Launch
import proofs.«140130_j7078106103925_2_alg».proof.Proof.Gen.Kernel.Points
import Idealize.ShloMosaic.Lib.Pipeline.FrameBody
import Idealize.ShloMosaic.Lib.Pipeline.FrameSuffix

set_option maxRecDepth 16384

noncomputable section

namespace Cert.Kernel.Frm

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- A core's buffers when the call is entered: the launch memory after the host operations before the call. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The whole program is: the host operations before the call, the call, the re-laying after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The re-laying after the call touches only the call's arrays and the buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the call's 27 arrays (it writes the program's result, which is none of them). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No host operation before the call writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the call writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the call writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the call writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the call writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the call writes argument 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the call writes argument 6: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the call writes argument 7: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the call writes argument 8: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 8 ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg8 (by exact (by decide : ∀ w, Pipeline.arrRef spec0 w ≠ main_arg8))]
  exact V_main_arg8 m c

/-- No host operation before the call writes argument 9: the call finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 9 ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg9 (by exact (by decide : ∀ w, Pipeline.arrRef spec0 w ≠ main_arg9))]
  exact V_main_arg9 m c

/-- No host operation before the call writes argument 10: the call finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 10 ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg10 (by exact (by decide : ∀ w, Pipeline.arrRef spec0 w ≠ main_arg10))]
  exact V_main_arg10 m c

/-- No host operation before the call writes argument 11: the call finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 11 ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg11 (by exact (by decide : ∀ w, Pipeline.arrRef spec0 w ≠ main_arg11))]
  exact V_main_arg11 m c

/-- No host operation before the call writes argument 12: the call finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 12 ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg12 (by exact (by decide : ∀ w, Pipeline.arrRef spec0 w ≠ main_arg12))]
  exact V_main_arg12 m c

/-- No host operation before the call writes argument 13: the call finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 13 ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg13 (by exact (by decide : ∀ w, Pipeline.arrRef spec0 w ≠ main_arg13))]
  exact V_main_arg13 m c

/-- No host operation before the call writes argument 14: the call finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 14 ends as launched. -/
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg14 (by exact (by decide : ∀ w, Pipeline.arrRef spec0 w ≠ main_arg14))]
  exact V_main_arg14 m c

/-- No host operation before the call writes argument 15: the call finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 15 ends as launched. -/
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg15 (by exact (by decide : ∀ w, Pipeline.arrRef spec0 w ≠ main_arg15))]
  exact V_main_arg15 m c

/-- No host operation before the call writes argument 16: the call finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 16 ends as launched. -/
theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg16 (by exact (by decide : ∀ w, Pipeline.arrRef spec0 w ≠ main_arg16))]
  exact V_main_arg16 m c

/-- No host operation before the call writes argument 17: the call finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 17 ends as launched. -/
theorem W_main_arg17 (dats : (p : Fin _) → (c : Dev nD) → Dat τ (Elt F) Unit ℕ (UR sig nD τ) ℕ (cfgs p) c) (c : Dev nD) :
    Pipeline.afterTail₀ cfgs dats 0 (V0 m) [hostOps1] c main_arg17 = m ((c : Thread nD τ).loc main_arg17) := by
  unfold Pipeline.afterTail₀
  rw [StableHlo.after_of_forall_not_mem (b := Proc.devRef .tc main_arg17) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg17 (by exact (by decide : ∀ w, Pipeline.arrRef spec0 w ≠ main_arg17))]
  exact V_main_arg17 m c

/-- No host operation before the call writes argument 18: the call finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 18 ends as launched. -/
theorem W_main_arg18 (dats : (p : Fin _) → (c : Dev nD) → Dat τ (Elt F) Unit ℕ (UR sig nD τ) ℕ (cfgs p) c) (c : Dev nD) :
    Pipeline.afterTail₀ cfgs dats 0 (V0 m) [hostOps1] c main_arg18 = m ((c : Thread nD τ).loc main_arg18) := by
  unfold Pipeline.afterTail₀
  rw [StableHlo.after_of_forall_not_mem (b := Proc.devRef .tc main_arg18) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg18 (by exact (by decide : ∀ w, Pipeline.arrRef spec0 w ≠ main_arg18))]
  exact V_main_arg18 m c

/-- No host operation before the call writes argument 19: the call finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 19 ends as launched. -/
theorem W_main_arg19 (dats : (p : Fin _) → (c : Dev nD) → Dat τ (Elt F) Unit ℕ (UR sig nD τ) ℕ (cfgs p) c) (c : Dev nD) :
    Pipeline.afterTail₀ cfgs dats 0 (V0 m) [hostOps1] c main_arg19 = m ((c : Thread nD τ).loc main_arg19) := by
  unfold Pipeline.afterTail₀
  rw [StableHlo.after_of_forall_not_mem (b := Proc.devRef .tc main_arg19) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg19 (by exact (by decide : ∀ w, Pipeline.arrRef spec0 w ≠ main_arg19))]
  exact V_main_arg19 m c

/-- No host operation before the call writes argument 20: the call finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 20 ends as launched. -/
theorem W_main_arg20 (dats : (p : Fin _) → (c : Dev nD) → Dat τ (Elt F) Unit ℕ (UR sig nD τ) ℕ (cfgs p) c) (c : Dev nD) :
    Pipeline.afterTail₀ cfgs dats 0 (V0 m) [hostOps1] c main_arg20 = m ((c : Thread nD τ).loc main_arg20) := by
  unfold Pipeline.afterTail₀
  rw [StableHlo.after_of_forall_not_mem (b := Proc.devRef .tc main_arg20) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg20 (by exact (by decide : ∀ w, Pipeline.arrRef spec0 w ≠ main_arg20))]
  exact V_main_arg20 m c

/-- No host operation before the call writes argument 21: the call finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 21 ends as launched. -/
theorem W_main_arg21 (dats : (p : Fin _) → (c : Dev nD) → Dat τ (Elt F) Unit ℕ (UR sig nD τ) ℕ (cfgs p) c) (c : Dev nD) :
    Pipeline.afterTail₀ cfgs dats 0 (V0 m) [hostOps1] c main_arg21 = m ((c : Thread nD τ).loc main_arg21) := by
  unfold Pipeline.afterTail₀
  rw [StableHlo.after_of_forall_not_mem (b := Proc.devRef .tc main_arg21) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg21 (by exact (by decide : ∀ w, Pipeline.arrRef spec0 w ≠ main_arg21))]
  exact V_main_arg21 m c

/-- No host operation before the call writes argument 22: the call finds it as launched. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 22 ends as launched. -/
theorem W_main_arg22 (dats : (p : Fin _) → (c : Dev nD) → Dat τ (Elt F) Unit ℕ (UR sig nD τ) ℕ (cfgs p) c) (c : Dev nD) :
    Pipeline.afterTail₀ cfgs dats 0 (V0 m) [hostOps1] c main_arg22 = m ((c : Thread nD τ).loc main_arg22) := by
  unfold Pipeline.afterTail₀
  rw [StableHlo.after_of_forall_not_mem (b := Proc.devRef .tc main_arg22) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg22 (by exact (by decide : ∀ w, Pipeline.arrRef spec0 w ≠ main_arg22))]
  exact V_main_arg22 m c

/-- No host operation before the call writes argument 23: the call finds it as launched. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 23 ends as launched. -/
theorem W_main_arg23 (dats : (p : Fin _) → (c : Dev nD) → Dat τ (Elt F) Unit ℕ (UR sig nD τ) ℕ (cfgs p) c) (c : Dev nD) :
    Pipeline.afterTail₀ cfgs dats 0 (V0 m) [hostOps1] c main_arg23 = m ((c : Thread nD τ).loc main_arg23) := by
  unfold Pipeline.afterTail₀
  rw [StableHlo.after_of_forall_not_mem (b := Proc.devRef .tc main_arg23) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg23 (by exact (by decide : ∀ w, Pipeline.arrRef spec0 w ≠ main_arg23))]
  exact V_main_arg23 m c

/-- No host operation before the call writes argument 24: the call finds it as launched. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 24 ends as launched. -/
theorem W_main_arg24 (dats : (p : Fin _) → (c : Dev nD) → Dat τ (Elt F) Unit ℕ (UR sig nD τ) ℕ (cfgs p) c) (c : Dev nD) :
    Pipeline.afterTail₀ cfgs dats 0 (V0 m) [hostOps1] c main_arg24 = m ((c : Thread nD τ).loc main_arg24) := by
  unfold Pipeline.afterTail₀
  rw [StableHlo.after_of_forall_not_mem (b := Proc.devRef .tc main_arg24) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg24 (by exact (by decide : ∀ w, Pipeline.arrRef spec0 w ≠ main_arg24))]
  exact V_main_arg24 m c

/-- No host operation before the call writes argument 25: the call finds it as launched. -/
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 25 ends as launched. -/
theorem W_main_arg25 (dats : (p : Fin _) → (c : Dev nD) → Dat τ (Elt F) Unit ℕ (UR sig nD τ) ℕ (cfgs p) c) (c : Dev nD) :
    Pipeline.afterTail₀ cfgs dats 0 (V0 m) [hostOps1] c main_arg25 = m ((c : Thread nD τ).loc main_arg25) := by
  unfold Pipeline.afterTail₀
  rw [StableHlo.after_of_forall_not_mem (b := Proc.devRef .tc main_arg25) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg25 (by exact (by decide : ∀ w, Pipeline.arrRef spec0 w ≠ main_arg25))]
  exact V_main_arg25 m c

/-! ## The tiles -/

/-- Tile `t` of array `w` of the call: rows `4096 t … 4096 t + 4095` of the two embedded inputs and of the result,
    the whole array for the 24 weight and bias operands. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input 0's staging buffer holds its tile at every point, whether or not it was fetched there (an operand that is
    fetched once stays where it is: its tile index never moves). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input 1's staging buffer holds its tile at every point, whether or not it was fetched there (an operand that is
    fetched once stays where it is: its tile index never moves). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input 2's staging buffer holds its tile at every point, whether or not it was fetched there (an operand that is
    fetched once stays where it is: its tile index never moves). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input 3's staging buffer holds its tile at every point, whether or not it was fetched there (an operand that is
    fetched once stays where it is: its tile index never moves). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input 4's staging buffer holds its tile at every point, whether or not it was fetched there (an operand that is
    fetched once stays where it is: its tile index never moves). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input 5's staging buffer holds its tile at every point, whether or not it was fetched there (an operand that is
    fetched once stays where it is: its tile index never moves). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input 6's staging buffer holds its tile at every point, whether or not it was fetched there (an operand that is
    fetched once stays where it is: its tile index never moves). -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input 7's staging buffer holds its tile at every point, whether or not it was fetched there (an operand that is
    fetched once stays where it is: its tile index never moves). -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input 8's staging buffer holds its tile at every point, whether or not it was fetched there (an operand that is
    fetched once stays where it is: its tile index never moves). -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input 9's staging buffer holds its tile at every point, whether or not it was fetched there (an operand that is
    fetched once stays where it is: its tile index never moves). -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input 10's staging buffer holds its tile at every point, whether or not it was fetched there (an operand that is
    fetched once stays where it is: its tile index never moves). -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input 11's staging buffer holds its tile at every point, whether or not it was fetched there (an operand that is
    fetched once stays where it is: its tile index never moves). -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input 12's staging buffer holds its tile at every point, whether or not it was fetched there (an operand that is
    fetched once stays where it is: its tile index never moves). -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- Input 13's staging buffer holds its tile at every point, whether or not it was fetched there (an operand that is
    fetched once stays where it is: its tile index never moves). -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-- Input 14's staging buffer holds its tile at every point, whether or not it was fetched there (an operand that is
    fetched once stays where it is: its tile index never moves). -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-- Input 15's staging buffer holds its tile at every point, whether or not it was fetched there (an operand that is
    fetched once stays where it is: its tile index never moves). -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-- Input 16's staging buffer holds its tile at every point, whether or not it was fetched there (an operand that is
    fetched once stays where it is: its tile index never moves). -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-- Input 17's staging buffer holds its tile at every point, whether or not it was fetched there (an operand that is
    fetched once stays where it is: its tile index never moves). -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

/-- Input 18's staging buffer holds its tile at every point, whether or not it was fetched there (an operand that is
    fetched once stays where it is: its tile index never moves). -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)

/-- Input 19's staging buffer holds its tile at every point, whether or not it was fetched there (an operand that is
    fetched once stays where it is: its tile index never moves). -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)

/-- Input 20's staging buffer holds its tile at every point, whether or not it was fetched there (an operand that is
    fetched once stays where it is: its tile index never moves). -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)

/-- Input 21's staging buffer holds its tile at every point, whether or not it was fetched there (an operand that is
    fetched once stays where it is: its tile index never moves). -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)

/-- Input 22's staging buffer holds its tile at every point, whether or not it was fetched there (an operand that is
    fetched once stays where it is: its tile index never moves). -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)

/-- Input 23's staging buffer holds its tile at every point, whether or not it was fetched there (an operand that is
    fetched once stays where it is: its tile index never moves). -/
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)

/-- Input 24's staging buffer holds its tile at every point, whether or not it was fetched there (an operand that is
    fetched once stays where it is: its tile index never moves). -/
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)

/-- Input 25's staging buffer holds its tile at every point, whether or not it was fetched there (an operand that is
    fetched once stays where it is: its tile index never moves). -/
theorem before0_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end -/

/-- From a run of the whole program that ends with every buffer outside the call's arrays as the re-laying leaves it,
    each argument array ends as launched: none of them is an array of the call (the call stages rounded, split,
    joined or re-laid copies), so each is read off the run's second clause. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c),
    ((h c).2 main_arg13 (Pipeline.mem_restRefs_of main_arg13 (by decide) (by decide))).trans (W_main_arg13 m dats c),
    ((h c).2 main_arg14 (Pipeline.mem_restRefs_of main_arg14 (by decide) (by decide))).trans (W_main_arg14 m dats c),
    ((h c).2 main_arg15 (Pipeline.mem_restRefs_of main_arg15 (by decide) (by decide))).trans (W_main_arg15 m dats c),
    ((h c).2 main_arg16 (Pipeline.mem_restRefs_of main_arg16 (by decide) (by decide))).trans (W_main_arg16 m dats c),
    ((h c).2 main_arg17 (Pipeline.mem_restRefs_of main_arg17 (by decide) (by decide))).trans (W_main_arg17 m dats c),
    ((h c).2 main_arg18 (Pipeline.mem_restRefs_of main_arg18 (by decide) (by decide))).trans (W_main_arg18 m dats c),
    ((h c).2 main_arg19 (Pipeline.mem_restRefs_of main_arg19 (by decide) (by decide))).trans (W_main_arg19 m dats c),
    ((h c).2 main_arg20 (Pipeline.mem_restRefs_of main_arg20 (by decide) (by decide))).trans (W_main_arg20 m dats c),
    ((h c).2 main_arg21 (Pipeline.mem_restRefs_of main_arg21 (by decide) (by decide))).trans (W_main_arg21 m dats c),
    ((h c).2 main_arg22 (Pipeline.mem_restRefs_of main_arg22 (by decide) (by decide))).trans (W_main_arg22 m dats c),
    ((h c).2 main_arg23 (Pipeline.mem_restRefs_of main_arg23 (by decide) (by decide))).trans (W_main_arg23 m dats c),
    ((h c).2 main_arg24 (Pipeline.mem_restRefs_of main_arg24 (by decide) (by decide))).trans (W_main_arg24 m dats c),
    ((h c).2 main_arg25 (Pipeline.mem_restRefs_of main_arg25 (by decide) (by decide))).trans (W_main_arg25 m dats c)⟩) h

end Cert.Kernel.Frm

end
-- ==== Proof.BitsBody.lean ====
/-
  One row tile through the network: the body of the call, run once on whole staging buffers.

  The body loads its two input tiles (4096 embedded sample points, 4096 embedded view directions) and the 24 weight
  and bias operands, each whole; pushes the rows through eight dense layers with a rectifier after each (the sixth
  takes the embedded points again beside the fifth layer's output, as two products added), through the joint
  feature-and-density head, the view-dependent layer (again two products added) and the colour head; and stores,
  whole, the 4096 × 4 tile of colours and density. It keeps nothing between tiles and writes nothing else, so
  after it the output buffer holds that one store and every input buffer is as it was.
-/
import proofs.«140130_j7078106103925_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through: each a whole buffer -/

abbrev whole_S4096x63 : Rect S4096x63 := Rect.unit (s := S4096x63) ![0, 0] S4096x63.size inb_S4096x63_S4096x63_0_0
abbrev whole_S4096x27 : Rect S4096x27 := Rect.unit (s := S4096x27) ![0, 0] S4096x27.size inb_S4096x27_S4096x27_0_0
abbrev whole_S63x256 : Rect S63x256 := Rect.unit (s := S63x256) ![0, 0] S63x256.size inb_S63x256_S63x256_0_0
abbrev whole_S1x256 : Rect S1x256 := Rect.unit (s := S1x256) ![0, 0] S1x256.size inb_S1x256_S1x256_0_0
abbrev whole_S256x256 : Rect S256x256 := Rect.unit (s := S256x256) ![0, 0] S256x256.size inb_S256x256_S256x256_0_0
abbrev whole_S256x128 : Rect S256x128 := Rect.unit (s := S256x128) ![0, 0] S256x128.size inb_S256x128_S256x128_0_0
abbrev whole_S27x128 : Rect S27x128 := Rect.unit (s := S27x128) ![0, 0] S27x128.size inb_S27x128_S27x128_0_0
abbrev whole_S1x128 : Rect S1x128 := Rect.unit (s := S1x128) ![0, 0] S1x128.size inb_S1x128_S1x128_0_0
abbrev whole_S256x384 : Rect S256x384 := Rect.unit (s := S256x384) ![0, 0] S256x384.size inb_S256x384_S256x384_0_0
abbrev whole_S1x384 : Rect S1x384 := Rect.unit (s := S1x384) ![0, 0] S1x384.size inb_S1x384_S1x384_0_0
abbrev whole_S128x3 : Rect S128x3 := Rect.unit (s := S128x3) ![0, 0] S128x3.size inb_S128x3_S128x3_0_0
abbrev whole_S1x3 : Rect S1x3 := Rect.unit (s := S1x3) ![0, 0] S1x3.size inb_S1x3_S1x3_0_0
abbrev whole_S4096x4 : Rect S4096x4 := Rect.unit (s := S4096x4) ![0, 0] S4096x4.size inb_S4096x4_S4096x4_0_0

/-! ## What the body computes from the 26 loaded tiles -/

/-- The fifth hidden layer's rows, rounded for the next product: the embedded points through the first product, and four
    more square layers, a rectifier after each. (Inputs: the point tile and the weights and biases of layers 0–4; the
    fourth layer's weight `x8` is used by the next stage.) -/
def hidden3 (x0 : Vec F S4096x63 .bf16) (x2 : Vec F S63x256 .bf16) (x3 : Vec F S1x256 .f32) (x4 : Vec F S256x256 .bf16) (x5 : Vec F S1x256 .f32) (x6 : Vec F S256x256 .bf16) (x7 : Vec F S1x256 .f32) : FVec F S4096x256 .bf16 :=
  k0_pay4 (View.ld x0 whole_S4096x63) (View.ld x2 whole_S63x256) (View.ld x3 whole_S1x256) (View.ld x4 whole_S256x256) (View.ld x5 whole_S1x256) (View.ld x6 whole_S256x256) (View.ld x7 whole_S1x256)

/-- The eighth layer's product, before its bias: layers 3 and 4, the skip layer as two products added, layer 6 and the
    product of layer 7. -/
def pre8 (x0 : Vec F S4096x63 .bf16) (x2 : Vec F S63x256 .bf16) (x3 : Vec F S1x256 .f32) (x4 : Vec F S256x256 .bf16) (x5 : Vec F S1x256 .f32) (x6 : Vec F S256x256 .bf16) (x7 : Vec F S1x256 .f32)
    (x8 : Vec F S256x256 .bf16) (x9 : Vec F S1x256 .f32) (x10 : Vec F S256x256 .bf16) (x11 : Vec F S1x256 .f32) (x12 : Vec F S63x256 .bf16) (x13 : Vec F S256x256 .bf16) (x14 : Vec F S1x256 .f32) (x15 : Vec F S256x256 .bf16) : FVec F S4096x256 .f32 :=
  k0_pay5 (k0_pay2 (View.ld x0 whole_S4096x63)) (hidden3 x0 x2 x3 x4 x5 x6 x7) (View.ld x8 whole_S256x256) (View.ld x9 whole_S1x256) (View.ld x10 whole_S256x256) (View.ld x11 whole_S1x256) (View.ld x12 whole_S63x256) (View.ld x13 whole_S256x256) (View.ld x14 whole_S1x256) (View.ld x15 whole_S256x256)

/-- The stored tile: colours (three columns) beside density (one column). -/
def rowsOut (x0 : Vec F S4096x63 .bf16) (x1 : Vec F S4096x27 .bf16) (x2 : Vec F S63x256 .bf16) (x3 : Vec F S1x256 .f32) (x4 : Vec F S256x256 .bf16) (x5 : Vec F S1x256 .f32) (x6 : Vec F S256x256 .bf16) (x7 : Vec F S1x256 .f32) (x8 : Vec F S256x256 .bf16) (x9 : Vec F S1x256 .f32) (x10 : Vec F S256x256 .bf16) (x11 : Vec F S1x256 .f32) (x12 : Vec F S63x256 .bf16) (x13 : Vec F S256x256 .bf16) (x14 : Vec F S1x256 .f32) (x15 : Vec F S256x256 .bf16) (x16 : Vec F S1x256 .f32) (x17 : Vec F S256x256 .bf16) (x18 : Vec F S1x256 .f32) (x19 : Vec F S256x128 .bf16) (x20 : Vec F S27x128 .bf16) (x21 : Vec F S1x128 .f32) (x22 : Vec F S256x384 .bf16) (x23 : Vec F S1x384 .f32) (x24 : Vec F S128x3 .bf16) (x25 : Vec F S1x3 .f32) : FVec F S4096x4 .f32 :=
  k0_pay1
    (k0_pay7 (pre8 x0 x2 x3 x4 x5 x6 x7 x8 x9 x10 x11 x12 x13 x14 x15) (View.ld x16 whole_S1x256) (View.ld x17 whole_S256x256) (View.ld x18 whole_S1x256) (View.ld x22 whole_S256x384) (View.ld x23 whole_S1x384))
    (k0_pay8 (k0_pay3 (View.ld x1 whole_S4096x27)) (pre8 x0 x2 x3 x4 x5 x6 x7 x8 x9 x10 x11 x12 x13 x14 x15) (View.ld x16 whole_S1x256) (View.ld x17 whole_S256x256) (View.ld x18 whole_S1x256) (View.ld x22 whole_S256x384) (View.ld x23 whole_S1x384) (View.ld x19 whole_S256x128) (View.ld x20 whole_S27x128) (View.ld x21 whole_S1x128))
    (k0_pay9 (F := F)) (View.ld x24 whole_S128x3) (View.ld x25 whole_S1x3)

/-- The output buffer after the body: its one store, of the whole tile. -/
def tileOut (x0 : Vec F S4096x63 .bf16) (x1 : Vec F S4096x27 .bf16) (x2 : Vec F S63x256 .bf16) (x3 : Vec F S1x256 .f32) (x4 : Vec F S256x256 .bf16) (x5 : Vec F S1x256 .f32) (x6 : Vec F S256x256 .bf16) (x7 : Vec F S1x256 .f32) (x8 : Vec F S256x256 .bf16) (x9 : Vec F S1x256 .f32) (x10 : Vec F S256x256 .bf16) (x11 : Vec F S1x256 .f32) (x12 : Vec F S63x256 .bf16) (x13 : Vec F S256x256 .bf16) (x14 : Vec F S1x256 .f32) (x15 : Vec F S256x256 .bf16) (x16 : Vec F S1x256 .f32) (x17 : Vec F S256x256 .bf16) (x18 : Vec F S1x256 .f32) (x19 : Vec F S256x128 .bf16) (x20 : Vec F S27x128 .bf16) (x21 : Vec F S1x128 .f32) (x22 : Vec F S256x384 .bf16) (x23 : Vec F S1x384 .f32) (x24 : Vec F S128x3 .bf16) (x25 : Vec F S1x3 .f32) : Vec F S4096x4 .f32 :=
  View.canon [⟨whole_S4096x4, rowsOut x0 x1 x2 x3 x4 x5 x6 x7 x8 x9 x10 x11 x12 x13 x14 x15 x16 x17 x18 x19 x20 x21 x22 x23 x24 x25⟩]

/-- That store covers the buffer. -/
theorem coverOut (p0 : Vec F S4096x4 .f32) (y : S4096x4.Idx) :
    ∃ pc ∈ ([⟨whole_S4096x4, p0⟩] : List (View.Piece (Elt F) S4096x4 .f32)), y ∈ pc.1.set :=
  View.cover_of_tiled [⟨whole_S4096x4, p0⟩] S4096x4.size (by rfl) y

/-! ## The body's triple -/

set_option maxHeartbeats 4000000 in
/-- On whole staging buffers, the inputs at contents `x0 … x25` and the output at anything, the body runs to its end
    with the inputs as they were and the output at `tileOut` of them. -/
theorem sound_kernel (c : Dev nD) (E : Set ℕ) (i : grid0.Coords) (arg1 : Memref sig .tc .vmem S4096x63 .bf16) (harg1 : arg1.IsWhole) (arg2 : Memref sig .tc .vmem S4096x27 .bf16) (harg2 : arg2.IsWhole) (arg3 : Memref sig .tc .vmem S63x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S1x256 .f32) (harg12 : arg12.IsWhole) (arg13 : Memref sig .tc .vmem S63x256 .bf16) (harg13 : arg13.IsWhole) (arg14 : Memref sig .tc .vmem S256x256 .bf16) (harg14 : arg14.IsWhole) (arg15 : Memref sig .tc .vmem S1x256 .f32) (harg15 : arg15.IsWhole) (arg16 : Memref sig .tc .vmem S256x256 .bf16) (harg16 : arg16.IsWhole) (arg17 : Memref sig .tc .vmem S1x256 .f32) (harg17 : arg17.IsWhole) (arg18 : Memref sig .tc .vmem S256x256 .bf16) (harg18 : arg18.IsWhole) (arg19 : Memref sig .tc .vmem S1x256 .f32) (harg19 : arg19.IsWhole) (arg20 : Memref sig .tc .vmem S256x128 .bf16) (harg20 : arg20.IsWhole) (arg21 : Memref sig .tc .vmem S27x128 .bf16) (harg21 : arg21.IsWhole) (arg22 : Memref sig .tc .vmem S1x128 .f32) (harg22 : arg22.IsWhole) (arg23 : Memref sig .tc .vmem S256x384 .bf16) (harg23 : arg23.IsWhole) (arg24 : Memref sig .tc .vmem S1x384 .f32) (harg24 : arg24.IsWhole) (arg25 : Memref sig .tc .vmem S128x3 .bf16) (harg25 : arg25.IsWhole) (arg26 : Memref sig .tc .vmem S1x3 .f32) (harg26 : arg26.IsWhole) (arg27 : Memref sig .tc .vmem S4096x4 .f32) (harg27 : arg27.IsWhole)
    (x0 : Vec F S4096x63 .bf16) (x1 : Vec F S4096x27 .bf16) (x2 : Vec F S63x256 .bf16) (x3 : Vec F S1x256 .f32) (x4 : Vec F S256x256 .bf16) (x5 : Vec F S1x256 .f32) (x6 : Vec F S256x256 .bf16) (x7 : Vec F S1x256 .f32) (x8 : Vec F S256x256 .bf16) (x9 : Vec F S1x256 .f32) (x10 : Vec F S256x256 .bf16) (x11 : Vec F S1x256 .f32) (x12 : Vec F S63x256 .bf16) (x13 : Vec F S256x256 .bf16) (x14 : Vec F S1x256 .f32) (x15 : Vec F S256x256 .bf16) (x16 : Vec F S1x256 .f32) (x17 : Vec F S256x256 .bf16) (x18 : Vec F S1x256 .f32) (x19 : Vec F S256x128 .bf16) (x20 : Vec F S27x128 .bf16) (x21 : Vec F S1x128 .f32) (x22 : Vec F S256x384 .bf16) (x23 : Vec F S1x384 .f32) (x24 : Vec F S128x3 .bf16) (x25 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ d, owns (c : Thread nD τ) arg27 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare (tileOut x0 x1 x2 x3 x4 x5 x6 x7 x8 x9 x10 x11 x12 x13 x14 x15 x16 x17 x18 x19 x20 x21 x22 x23 x24 x25)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0__mlp_kernel_eq_skeleton]; unfold cc0__mlp_kernel_skel
  simp only [k0_part1_eq_skeleton]; unfold k0_part1_skel
  simp only [k0_part2_eq_skeleton]; unfold k0_part2_skel
  simp only [k0_part3_eq_skeleton]; unfold k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, Hk⟩
  subst hf0 hf1 hf2 hf3 hf4 hf5 hf6 hf7 hf8 hf9 hf10 hf11 hf12 hf13 hf14 hf15 hf16 hf17 hf18 hf19 hf20 hf21 hf22 hf23 hf24 hf25
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  iexists _; isplitr
  swap; · iexact H26
  ipureintro
  try dsimp only
  exact View.read_writes_eq_canon _ _ _ (coverOut _)

end Cert.Kernel.Frm

end
-- ==== Proof.BitsRun.lean ====
/-
  The whole run of the tiled program: 64 row tiles, one after the other, each through the body.

  The bookkeeping of the launch: every input's staging buffer holds the input's tile at every point (the two
  streamed inputs are fetched tile by tile, the 24 resident operands once), the output's staging buffer after the
  body holds the tile the body stored, and that is written back to rows `4096 t …` of the result. From this the
  library's launch theorem gives the run: it ends, faults nowhere, leaves every array of the call at what the tiles
  say and every other buffer as the host operations left it — in particular the 26 argument arrays as launched.
-/
import proofs.«140130_j7078106103925_2_alg».proof.Proof.BitsHost
import proofs.«140130_j7078106103925_2_alg».proof.Proof.BitsBody

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's bookkeeping on one core: the arrays as the call finds them; after the body at tile `t` each input's
    buffer at its tile and the output's at the stored tile; nothing else owned, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => tileOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)
    | ⟨n + 27, h⟩ => absurd h (Nat.not_lt.2 (Nat.le_add_left 27 n))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = tileOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t))

set_option maxHeartbeats 4000000 in
/-- The body at any tile: the inputs' buffers hold their tiles, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

set_option maxHeartbeats 4000000 in
/-- The library's body obligation, at every tile. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates without a fault, every array of the call ending at what
    the tiles say and every other buffer as the re-laying after the call leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to its end and its 26 argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  frame_of m ρ (dats m) (A_eq m) (run_main m ρ)

end Cert.Kernel.Frm

end
-- ==== Proof.IdealHost.lean ====
/-
  The host side of the tiled program's run: what its arrays hold when the row-tiled call is entered, and that the
  host operations around the call never write an argument array.

  The program computes, on the host, the positional embedding of the sample points and of the view directions,
  rounds the weights, splits two weight matrices at a row and joins two heads into one matrix; then it launches
  the call over 64 row tiles; then it re-lays the result. Every host operation writes only its own fresh result
  buffer, so each of the 26 argument arrays is found by the call as launched and ends as launched.
-/
import proofs.«140130_j7078106103925_2_alg».proof.Proof.Gen.KernelIdeal.Launch
import proofs.«140130_j7078106103925_2_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Frm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- A core's buffers when the call is entered: the launch memory after the host operations before the call. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The whole program is: the host operations before the call, the call, the re-laying after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The re-laying after the call touches only the call's arrays and the buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the call's 27 arrays (it writes the program's result, which is none of them). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No host operation before the call writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the call writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the call writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the call writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the call writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the call writes argument 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the call writes argument 6: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the call writes argument 7: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the call writes argument 8: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 8 ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg8 (by exact (by decide : ∀ w, Pipeline.arrRef spec0 w ≠ main_arg8))]
  exact V_main_arg8 m c

/-- No host operation before the call writes argument 9: the call finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 9 ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg9 (by exact (by decide : ∀ w, Pipeline.arrRef spec0 w ≠ main_arg9))]
  exact V_main_arg9 m c

/-- No host operation before the call writes argument 10: the call finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 10 ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg10 (by exact (by decide : ∀ w, Pipeline.arrRef spec0 w ≠ main_arg10))]
  exact V_main_arg10 m c

/-- No host operation before the call writes argument 11: the call finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 11 ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg11 (by exact (by decide : ∀ w, Pipeline.arrRef spec0 w ≠ main_arg11))]
  exact V_main_arg11 m c

/-- No host operation before the call writes argument 12: the call finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 12 ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg12 (by exact (by decide : ∀ w, Pipeline.arrRef spec0 w ≠ main_arg12))]
  exact V_main_arg12 m c

/-- No host operation before the call writes argument 13: the call finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 13 ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg13 (by exact (by decide : ∀ w, Pipeline.arrRef spec0 w ≠ main_arg13))]
  exact V_main_arg13 m c

/-- No host operation before the call writes argument 14: the call finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 14 ends as launched. -/
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg14 (by exact (by decide : ∀ w, Pipeline.arrRef spec0 w ≠ main_arg14))]
  exact V_main_arg14 m c

/-- No host operation before the call writes argument 15: the call finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 15 ends as launched. -/
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg15 (by exact (by decide : ∀ w, Pipeline.arrRef spec0 w ≠ main_arg15))]
  exact V_main_arg15 m c

/-- No host operation before the call writes argument 16: the call finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 16 ends as launched. -/
theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg16 (by exact (by decide : ∀ w, Pipeline.arrRef spec0 w ≠ main_arg16))]
  exact V_main_arg16 m c

/-- No host operation before the call writes argument 17: the call finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 17 ends as launched. -/
theorem W_main_arg17 (dats : (p : Fin _) → (c : Dev nD) → Dat τ (Elt F) Unit ℕ (UR sig nD τ) ℕ (cfgs p) c) (c : Dev nD) :
    Pipeline.afterTail₀ cfgs dats 0 (V0 m) [hostOps1] c main_arg17 = m ((c : Thread nD τ).loc main_arg17) := by
  unfold Pipeline.afterTail₀
  rw [StableHlo.after_of_forall_not_mem (b := Proc.devRef .tc main_arg17) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg17 (by exact (by decide : ∀ w, Pipeline.arrRef spec0 w ≠ main_arg17))]
  exact V_main_arg17 m c

/-- No host operation before the call writes argument 18: the call finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 18 ends as launched. -/
theorem W_main_arg18 (dats : (p : Fin _) → (c : Dev nD) → Dat τ (Elt F) Unit ℕ (UR sig nD τ) ℕ (cfgs p) c) (c : Dev nD) :
    Pipeline.afterTail₀ cfgs dats 0 (V0 m) [hostOps1] c main_arg18 = m ((c : Thread nD τ).loc main_arg18) := by
  unfold Pipeline.afterTail₀
  rw [StableHlo.after_of_forall_not_mem (b := Proc.devRef .tc main_arg18) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg18 (by exact (by decide : ∀ w, Pipeline.arrRef spec0 w ≠ main_arg18))]
  exact V_main_arg18 m c

/-- No host operation before the call writes argument 19: the call finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 19 ends as launched. -/
theorem W_main_arg19 (dats : (p : Fin _) → (c : Dev nD) → Dat τ (Elt F) Unit ℕ (UR sig nD τ) ℕ (cfgs p) c) (c : Dev nD) :
    Pipeline.afterTail₀ cfgs dats 0 (V0 m) [hostOps1] c main_arg19 = m ((c : Thread nD τ).loc main_arg19) := by
  unfold Pipeline.afterTail₀
  rw [StableHlo.after_of_forall_not_mem (b := Proc.devRef .tc main_arg19) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg19 (by exact (by decide : ∀ w, Pipeline.arrRef spec0 w ≠ main_arg19))]
  exact V_main_arg19 m c

/-- No host operation before the call writes argument 20: the call finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 20 ends as launched. -/
theorem W_main_arg20 (dats : (p : Fin _) → (c : Dev nD) → Dat τ (Elt F) Unit ℕ (UR sig nD τ) ℕ (cfgs p) c) (c : Dev nD) :
    Pipeline.afterTail₀ cfgs dats 0 (V0 m) [hostOps1] c main_arg20 = m ((c : Thread nD τ).loc main_arg20) := by
  unfold Pipeline.afterTail₀
  rw [StableHlo.after_of_forall_not_mem (b := Proc.devRef .tc main_arg20) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg20 (by exact (by decide : ∀ w, Pipeline.arrRef spec0 w ≠ main_arg20))]
  exact V_main_arg20 m c

/-- No host operation before the call writes argument 21: the call finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 21 ends as launched. -/
theorem W_main_arg21 (dats : (p : Fin _) → (c : Dev nD) → Dat τ (Elt F) Unit ℕ (UR sig nD τ) ℕ (cfgs p) c) (c : Dev nD) :
    Pipeline.afterTail₀ cfgs dats 0 (V0 m) [hostOps1] c main_arg21 = m ((c : Thread nD τ).loc main_arg21) := by
  unfold Pipeline.afterTail₀
  rw [StableHlo.after_of_forall_not_mem (b := Proc.devRef .tc main_arg21) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg21 (by exact (by decide : ∀ w, Pipeline.arrRef spec0 w ≠ main_arg21))]
  exact V_main_arg21 m c

/-- No host operation before the call writes argument 22: the call finds it as launched. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 22 ends as launched. -/
theorem W_main_arg22 (dats : (p : Fin _) → (c : Dev nD) → Dat τ (Elt F) Unit ℕ (UR sig nD τ) ℕ (cfgs p) c) (c : Dev nD) :
    Pipeline.afterTail₀ cfgs dats 0 (V0 m) [hostOps1] c main_arg22 = m ((c : Thread nD τ).loc main_arg22) := by
  unfold Pipeline.afterTail₀
  rw [StableHlo.after_of_forall_not_mem (b := Proc.devRef .tc main_arg22) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg22 (by exact (by decide : ∀ w, Pipeline.arrRef spec0 w ≠ main_arg22))]
  exact V_main_arg22 m c

/-- No host operation before the call writes argument 23: the call finds it as launched. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 23 ends as launched. -/
theorem W_main_arg23 (dats : (p : Fin _) → (c : Dev nD) → Dat τ (Elt F) Unit ℕ (UR sig nD τ) ℕ (cfgs p) c) (c : Dev nD) :
    Pipeline.afterTail₀ cfgs dats 0 (V0 m) [hostOps1] c main_arg23 = m ((c : Thread nD τ).loc main_arg23) := by
  unfold Pipeline.afterTail₀
  rw [StableHlo.after_of_forall_not_mem (b := Proc.devRef .tc main_arg23) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg23 (by exact (by decide : ∀ w, Pipeline.arrRef spec0 w ≠ main_arg23))]
  exact V_main_arg23 m c

/-- No host operation before the call writes argument 24: the call finds it as launched. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 24 ends as launched. -/
theorem W_main_arg24 (dats : (p : Fin _) → (c : Dev nD) → Dat τ (Elt F) Unit ℕ (UR sig nD τ) ℕ (cfgs p) c) (c : Dev nD) :
    Pipeline.afterTail₀ cfgs dats 0 (V0 m) [hostOps1] c main_arg24 = m ((c : Thread nD τ).loc main_arg24) := by
  unfold Pipeline.afterTail₀
  rw [StableHlo.after_of_forall_not_mem (b := Proc.devRef .tc main_arg24) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg24 (by exact (by decide : ∀ w, Pipeline.arrRef spec0 w ≠ main_arg24))]
  exact V_main_arg24 m c

/-- No host operation before the call writes argument 25: the call finds it as launched. -/
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the re-laying after it: argument 25 ends as launched. -/
theorem W_main_arg25 (dats : (p : Fin _) → (c : Dev nD) → Dat τ (Elt F) Unit ℕ (UR sig nD τ) ℕ (cfgs p) c) (c : Dev nD) :
    Pipeline.afterTail₀ cfgs dats 0 (V0 m) [hostOps1] c main_arg25 = m ((c : Thread nD τ).loc main_arg25) := by
  unfold Pipeline.afterTail₀
  rw [StableHlo.after_of_forall_not_mem (b := Proc.devRef .tc main_arg25) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg25 (by exact (by decide : ∀ w, Pipeline.arrRef spec0 w ≠ main_arg25))]
  exact V_main_arg25 m c

/-! ## The tiles -/

/-- Tile `t` of array `w` of the call: rows `4096 t … 4096 t + 4095` of the two embedded inputs and of the result,
    the whole array for the 24 weight and bias operands. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input 0's staging buffer holds its tile at every point, whether or not it was fetched there (an operand that is
    fetched once stays where it is: its tile index never moves). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input 1's staging buffer holds its tile at every point, whether or not it was fetched there (an operand that is
    fetched once stays where it is: its tile index never moves). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input 2's staging buffer holds its tile at every point, whether or not it was fetched there (an operand that is
    fetched once stays where it is: its tile index never moves). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input 3's staging buffer holds its tile at every point, whether or not it was fetched there (an operand that is
    fetched once stays where it is: its tile index never moves). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input 4's staging buffer holds its tile at every point, whether or not it was fetched there (an operand that is
    fetched once stays where it is: its tile index never moves). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input 5's staging buffer holds its tile at every point, whether or not it was fetched there (an operand that is
    fetched once stays where it is: its tile index never moves). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input 6's staging buffer holds its tile at every point, whether or not it was fetched there (an operand that is
    fetched once stays where it is: its tile index never moves). -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input 7's staging buffer holds its tile at every point, whether or not it was fetched there (an operand that is
    fetched once stays where it is: its tile index never moves). -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input 8's staging buffer holds its tile at every point, whether or not it was fetched there (an operand that is
    fetched once stays where it is: its tile index never moves). -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input 9's staging buffer holds its tile at every point, whether or not it was fetched there (an operand that is
    fetched once stays where it is: its tile index never moves). -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input 10's staging buffer holds its tile at every point, whether or not it was fetched there (an operand that is
    fetched once stays where it is: its tile index never moves). -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input 11's staging buffer holds its tile at every point, whether or not it was fetched there (an operand that is
    fetched once stays where it is: its tile index never moves). -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input 12's staging buffer holds its tile at every point, whether or not it was fetched there (an operand that is
    fetched once stays where it is: its tile index never moves). -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- Input 13's staging buffer holds its tile at every point, whether or not it was fetched there (an operand that is
    fetched once stays where it is: its tile index never moves). -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-- Input 14's staging buffer holds its tile at every point, whether or not it was fetched there (an operand that is
    fetched once stays where it is: its tile index never moves). -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-- Input 15's staging buffer holds its tile at every point, whether or not it was fetched there (an operand that is
    fetched once stays where it is: its tile index never moves). -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-- Input 16's staging buffer holds its tile at every point, whether or not it was fetched there (an operand that is
    fetched once stays where it is: its tile index never moves). -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-- Input 17's staging buffer holds its tile at every point, whether or not it was fetched there (an operand that is
    fetched once stays where it is: its tile index never moves). -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

/-- Input 18's staging buffer holds its tile at every point, whether or not it was fetched there (an operand that is
    fetched once stays where it is: its tile index never moves). -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)

/-- Input 19's staging buffer holds its tile at every point, whether or not it was fetched there (an operand that is
    fetched once stays where it is: its tile index never moves). -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)

/-- Input 20's staging buffer holds its tile at every point, whether or not it was fetched there (an operand that is
    fetched once stays where it is: its tile index never moves). -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)

/-- Input 21's staging buffer holds its tile at every point, whether or not it was fetched there (an operand that is
    fetched once stays where it is: its tile index never moves). -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)

/-- Input 22's staging buffer holds its tile at every point, whether or not it was fetched there (an operand that is
    fetched once stays where it is: its tile index never moves). -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)

/-- Input 23's staging buffer holds its tile at every point, whether or not it was fetched there (an operand that is
    fetched once stays where it is: its tile index never moves). -/
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)

/-- Input 24's staging buffer holds its tile at every point, whether or not it was fetched there (an operand that is
    fetched once stays where it is: its tile index never moves). -/
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)

/-- Input 25's staging buffer holds its tile at every point, whether or not it was fetched there (an operand that is
    fetched once stays where it is: its tile index never moves). -/
theorem before0_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end -/

/-- From a run of the whole program that ends with every buffer outside the call's arrays as the re-laying leaves it,
    each argument array ends as launched: none of them is an array of the call (the call stages rounded, split,
    joined or re-laid copies), so each is read off the run's second clause. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c),
    ((h c).2 main_arg13 (Pipeline.mem_restRefs_of main_arg13 (by decide) (by decide))).trans (W_main_arg13 m dats c),
    ((h c).2 main_arg14 (Pipeline.mem_restRefs_of main_arg14 (by decide) (by decide))).trans (W_main_arg14 m dats c),
    ((h c).2 main_arg15 (Pipeline.mem_restRefs_of main_arg15 (by decide) (by decide))).trans (W_main_arg15 m dats c),
    ((h c).2 main_arg16 (Pipeline.mem_restRefs_of main_arg16 (by decide) (by decide))).trans (W_main_arg16 m dats c),
    ((h c).2 main_arg17 (Pipeline.mem_restRefs_of main_arg17 (by decide) (by decide))).trans (W_main_arg17 m dats c),
    ((h c).2 main_arg18 (Pipeline.mem_restRefs_of main_arg18 (by decide) (by decide))).trans (W_main_arg18 m dats c),
    ((h c).2 main_arg19 (Pipeline.mem_restRefs_of main_arg19 (by decide) (by decide))).trans (W_main_arg19 m dats c),
    ((h c).2 main_arg20 (Pipeline.mem_restRefs_of main_arg20 (by decide) (by decide))).trans (W_main_arg20 m dats c),
    ((h c).2 main_arg21 (Pipeline.mem_restRefs_of main_arg21 (by decide) (by decide))).trans (W_main_arg21 m dats c),
    ((h c).2 main_arg22 (Pipeline.mem_restRefs_of main_arg22 (by decide) (by decide))).trans (W_main_arg22 m dats c),
    ((h c).2 main_arg23 (Pipeline.mem_restRefs_of main_arg23 (by decide) (by decide))).trans (W_main_arg23 m dats c),
    ((h c).2 main_arg24 (Pipeline.mem_restRefs_of main_arg24 (by decide) (by decide))).trans (W_main_arg24 m dats c),
    ((h c).2 main_arg25 (Pipeline.mem_restRefs_of main_arg25 (by decide) (by decide))).trans (W_main_arg25 m dats c)⟩) h

end Cert.KernelIdeal.Frm

end
-- ==== Proof.IdealBody.lean ====
/-
  One row tile through the network: the body of the call, run once on whole staging buffers.

  The body loads its two input tiles (4096 embedded sample points, 4096 embedded view directions) and the 24 weight
  and bias operands, each whole; pushes the rows through eight dense layers with a rectifier after each (the sixth
  takes the embedded points again beside the fifth layer's output, as two products added), through the joint
  feature-and-density head, the view-dependent layer (again two products added) and the colour head; and stores,
  whole, the 4096 × 4 tile of colours and density. It keeps nothing between tiles and writes nothing else, so
  after it the output buffer holds that one store and every input buffer is as it was.
-/
import proofs.«140130_j7078106103925_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through: each a whole buffer -/

abbrev whole_S4096x63 : Rect S4096x63 := Rect.unit (s := S4096x63) ![0, 0] S4096x63.size inb_S4096x63_S4096x63_0_0
abbrev whole_S4096x27 : Rect S4096x27 := Rect.unit (s := S4096x27) ![0, 0] S4096x27.size inb_S4096x27_S4096x27_0_0
abbrev whole_S63x256 : Rect S63x256 := Rect.unit (s := S63x256) ![0, 0] S63x256.size inb_S63x256_S63x256_0_0
abbrev whole_S1x256 : Rect S1x256 := Rect.unit (s := S1x256) ![0, 0] S1x256.size inb_S1x256_S1x256_0_0
abbrev whole_S256x256 : Rect S256x256 := Rect.unit (s := S256x256) ![0, 0] S256x256.size inb_S256x256_S256x256_0_0
abbrev whole_S256x128 : Rect S256x128 := Rect.unit (s := S256x128) ![0, 0] S256x128.size inb_S256x128_S256x128_0_0
abbrev whole_S27x128 : Rect S27x128 := Rect.unit (s := S27x128) ![0, 0] S27x128.size inb_S27x128_S27x128_0_0
abbrev whole_S1x128 : Rect S1x128 := Rect.unit (s := S1x128) ![0, 0] S1x128.size inb_S1x128_S1x128_0_0
abbrev whole_S256x384 : Rect S256x384 := Rect.unit (s := S256x384) ![0, 0] S256x384.size inb_S256x384_S256x384_0_0
abbrev whole_S1x384 : Rect S1x384 := Rect.unit (s := S1x384) ![0, 0] S1x384.size inb_S1x384_S1x384_0_0
abbrev whole_S128x3 : Rect S128x3 := Rect.unit (s := S128x3) ![0, 0] S128x3.size inb_S128x3_S128x3_0_0
abbrev whole_S1x3 : Rect S1x3 := Rect.unit (s := S1x3) ![0, 0] S1x3.size inb_S1x3_S1x3_0_0
abbrev whole_S4096x4 : Rect S4096x4 := Rect.unit (s := S4096x4) ![0, 0] S4096x4.size inb_S4096x4_S4096x4_0_0

/-! ## What the body computes from the 26 loaded tiles -/

/-- The fifth hidden layer's rows, rounded for the next product: the embedded points through the first product, and four
    more square layers, a rectifier after each. (Inputs: the point tile and the weights and biases of layers 0–4; the
    fourth layer's weight `x8` is used by the next stage.) -/
def hidden3 (x0 : Vec F S4096x63 .bf16) (x2 : Vec F S63x256 .bf16) (x3 : Vec F S1x256 .f32) (x4 : Vec F S256x256 .bf16) (x5 : Vec F S1x256 .f32) (x6 : Vec F S256x256 .bf16) (x7 : Vec F S1x256 .f32) : FVec F S4096x256 .bf16 :=
  k0_pay4 (View.ld x0 whole_S4096x63) (View.ld x2 whole_S63x256) (View.ld x3 whole_S1x256) (View.ld x4 whole_S256x256) (View.ld x5 whole_S1x256) (View.ld x6 whole_S256x256) (View.ld x7 whole_S1x256)

/-- The eighth layer's product, before its bias: layers 3 and 4, the skip layer as two products added, layer 6 and the
    product of layer 7. -/
def pre8 (x0 : Vec F S4096x63 .bf16) (x2 : Vec F S63x256 .bf16) (x3 : Vec F S1x256 .f32) (x4 : Vec F S256x256 .bf16) (x5 : Vec F S1x256 .f32) (x6 : Vec F S256x256 .bf16) (x7 : Vec F S1x256 .f32)
    (x8 : Vec F S256x256 .bf16) (x9 : Vec F S1x256 .f32) (x10 : Vec F S256x256 .bf16) (x11 : Vec F S1x256 .f32) (x12 : Vec F S63x256 .bf16) (x13 : Vec F S256x256 .bf16) (x14 : Vec F S1x256 .f32) (x15 : Vec F S256x256 .bf16) : FVec F S4096x256 .f32 :=
  k0_pay5 (k0_pay2 (View.ld x0 whole_S4096x63)) (hidden3 x0 x2 x3 x4 x5 x6 x7) (View.ld x8 whole_S256x256) (View.ld x9 whole_S1x256) (View.ld x10 whole_S256x256) (View.ld x11 whole_S1x256) (View.ld x12 whole_S63x256) (View.ld x13 whole_S256x256) (View.ld x14 whole_S1x256) (View.ld x15 whole_S256x256)

/-- The stored tile: colours (three columns) beside density (one column). -/
def rowsOut (x0 : Vec F S4096x63 .bf16) (x1 : Vec F S4096x27 .bf16) (x2 : Vec F S63x256 .bf16) (x3 : Vec F S1x256 .f32) (x4 : Vec F S256x256 .bf16) (x5 : Vec F S1x256 .f32) (x6 : Vec F S256x256 .bf16) (x7 : Vec F S1x256 .f32) (x8 : Vec F S256x256 .bf16) (x9 : Vec F S1x256 .f32) (x10 : Vec F S256x256 .bf16) (x11 : Vec F S1x256 .f32) (x12 : Vec F S63x256 .bf16) (x13 : Vec F S256x256 .bf16) (x14 : Vec F S1x256 .f32) (x15 : Vec F S256x256 .bf16) (x16 : Vec F S1x256 .f32) (x17 : Vec F S256x256 .bf16) (x18 : Vec F S1x256 .f32) (x19 : Vec F S256x128 .bf16) (x20 : Vec F S27x128 .bf16) (x21 : Vec F S1x128 .f32) (x22 : Vec F S256x384 .bf16) (x23 : Vec F S1x384 .f32) (x24 : Vec F S128x3 .bf16) (x25 : Vec F S1x3 .f32) : FVec F S4096x4 .f32 :=
  k0_pay1
    (k0_pay7 (pre8 x0 x2 x3 x4 x5 x6 x7 x8 x9 x10 x11 x12 x13 x14 x15) (View.ld x16 whole_S1x256) (View.ld x17 whole_S256x256) (View.ld x18 whole_S1x256) (View.ld x22 whole_S256x384) (View.ld x23 whole_S1x384))
    (k0_pay8 (k0_pay3 (View.ld x1 whole_S4096x27)) (pre8 x0 x2 x3 x4 x5 x6 x7 x8 x9 x10 x11 x12 x13 x14 x15) (View.ld x16 whole_S1x256) (View.ld x17 whole_S256x256) (View.ld x18 whole_S1x256) (View.ld x22 whole_S256x384) (View.ld x23 whole_S1x384) (View.ld x19 whole_S256x128) (View.ld x20 whole_S27x128) (View.ld x21 whole_S1x128))
    (k0_pay9 (F := F)) (View.ld x24 whole_S128x3) (View.ld x25 whole_S1x3)

/-- The output buffer after the body: its one store, of the whole tile. -/
def tileOut (x0 : Vec F S4096x63 .bf16) (x1 : Vec F S4096x27 .bf16) (x2 : Vec F S63x256 .bf16) (x3 : Vec F S1x256 .f32) (x4 : Vec F S256x256 .bf16) (x5 : Vec F S1x256 .f32) (x6 : Vec F S256x256 .bf16) (x7 : Vec F S1x256 .f32) (x8 : Vec F S256x256 .bf16) (x9 : Vec F S1x256 .f32) (x10 : Vec F S256x256 .bf16) (x11 : Vec F S1x256 .f32) (x12 : Vec F S63x256 .bf16) (x13 : Vec F S256x256 .bf16) (x14 : Vec F S1x256 .f32) (x15 : Vec F S256x256 .bf16) (x16 : Vec F S1x256 .f32) (x17 : Vec F S256x256 .bf16) (x18 : Vec F S1x256 .f32) (x19 : Vec F S256x128 .bf16) (x20 : Vec F S27x128 .bf16) (x21 : Vec F S1x128 .f32) (x22 : Vec F S256x384 .bf16) (x23 : Vec F S1x384 .f32) (x24 : Vec F S128x3 .bf16) (x25 : Vec F S1x3 .f32) : Vec F S4096x4 .f32 :=
  View.canon [⟨whole_S4096x4, rowsOut x0 x1 x2 x3 x4 x5 x6 x7 x8 x9 x10 x11 x12 x13 x14 x15 x16 x17 x18 x19 x20 x21 x22 x23 x24 x25⟩]

/-- That store covers the buffer. -/
theorem coverOut (p0 : Vec F S4096x4 .f32) (y : S4096x4.Idx) :
    ∃ pc ∈ ([⟨whole_S4096x4, p0⟩] : List (View.Piece (Elt F) S4096x4 .f32)), y ∈ pc.1.set :=
  View.cover_of_tiled [⟨whole_S4096x4, p0⟩] S4096x4.size (by rfl) y

/-! ## The body's triple -/

set_option maxHeartbeats 4000000 in
/-- On whole staging buffers, the inputs at contents `x0 … x25` and the output at anything, the body runs to its end
    with the inputs as they were and the output at `tileOut` of them. -/
theorem sound_kernel (c : Dev nD) (E : Set ℕ) (i : grid0.Coords) (arg1 : Memref sig .tc .vmem S4096x63 .bf16) (harg1 : arg1.IsWhole) (arg2 : Memref sig .tc .vmem S4096x27 .bf16) (harg2 : arg2.IsWhole) (arg3 : Memref sig .tc .vmem S63x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S1x256 .f32) (harg12 : arg12.IsWhole) (arg13 : Memref sig .tc .vmem S63x256 .bf16) (harg13 : arg13.IsWhole) (arg14 : Memref sig .tc .vmem S256x256 .bf16) (harg14 : arg14.IsWhole) (arg15 : Memref sig .tc .vmem S1x256 .f32) (harg15 : arg15.IsWhole) (arg16 : Memref sig .tc .vmem S256x256 .bf16) (harg16 : arg16.IsWhole) (arg17 : Memref sig .tc .vmem S1x256 .f32) (harg17 : arg17.IsWhole) (arg18 : Memref sig .tc .vmem S256x256 .bf16) (harg18 : arg18.IsWhole) (arg19 : Memref sig .tc .vmem S1x256 .f32) (harg19 : arg19.IsWhole) (arg20 : Memref sig .tc .vmem S256x128 .bf16) (harg20 : arg20.IsWhole) (arg21 : Memref sig .tc .vmem S27x128 .bf16) (harg21 : arg21.IsWhole) (arg22 : Memref sig .tc .vmem S1x128 .f32) (harg22 : arg22.IsWhole) (arg23 : Memref sig .tc .vmem S256x384 .bf16) (harg23 : arg23.IsWhole) (arg24 : Memref sig .tc .vmem S1x384 .f32) (harg24 : arg24.IsWhole) (arg25 : Memref sig .tc .vmem S128x3 .bf16) (harg25 : arg25.IsWhole) (arg26 : Memref sig .tc .vmem S1x3 .f32) (harg26 : arg26.IsWhole) (arg27 : Memref sig .tc .vmem S4096x4 .f32) (harg27 : arg27.IsWhole)
    (x0 : Vec F S4096x63 .bf16) (x1 : Vec F S4096x27 .bf16) (x2 : Vec F S63x256 .bf16) (x3 : Vec F S1x256 .f32) (x4 : Vec F S256x256 .bf16) (x5 : Vec F S1x256 .f32) (x6 : Vec F S256x256 .bf16) (x7 : Vec F S1x256 .f32) (x8 : Vec F S256x256 .bf16) (x9 : Vec F S1x256 .f32) (x10 : Vec F S256x256 .bf16) (x11 : Vec F S1x256 .f32) (x12 : Vec F S63x256 .bf16) (x13 : Vec F S256x256 .bf16) (x14 : Vec F S1x256 .f32) (x15 : Vec F S256x256 .bf16) (x16 : Vec F S1x256 .f32) (x17 : Vec F S256x256 .bf16) (x18 : Vec F S1x256 .f32) (x19 : Vec F S256x128 .bf16) (x20 : Vec F S27x128 .bf16) (x21 : Vec F S1x128 .f32) (x22 : Vec F S256x384 .bf16) (x23 : Vec F S1x384 .f32) (x24 : Vec F S128x3 .bf16) (x25 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ d, owns (c : Thread nD τ) arg27 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare (tileOut x0 x1 x2 x3 x4 x5 x6 x7 x8 x9 x10 x11 x12 x13 x14 x15 x16 x17 x18 x19 x20 x21 x22 x23 x24 x25)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0__mlp_kernel_eq_skeleton]; unfold cc0__mlp_kernel_skel
  simp only [k0_part1_eq_skeleton]; unfold k0_part1_skel
  simp only [k0_part2_eq_skeleton]; unfold k0_part2_skel
  simp only [k0_part3_eq_skeleton]; unfold k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, Hk⟩
  subst hf0 hf1 hf2 hf3 hf4 hf5 hf6 hf7 hf8 hf9 hf10 hf11 hf12 hf13 hf14 hf15 hf16 hf17 hf18 hf19 hf20 hf21 hf22 hf23 hf24 hf25
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  iexists _; isplitr
  swap; · iexact H26
  ipureintro
  try dsimp only
  exact View.read_writes_eq_canon _ _ _ (coverOut _)

end Cert.KernelIdeal.Frm

end
-- ==== Proof.IdealRun.lean ====
/-
  The whole run of the tiled program: 64 row tiles, one after the other, each through the body.

  The bookkeeping of the launch: every input's staging buffer holds the input's tile at every point (the two
  streamed inputs are fetched tile by tile, the 24 resident operands once), the output's staging buffer after the
  body holds the tile the body stored, and that is written back to rows `4096 t …` of the result. From this the
  library's launch theorem gives the run: it ends, faults nowhere, leaves every array of the call at what the tiles
  say and every other buffer as the host operations left it — in particular the 26 argument arrays as launched.
-/
import proofs.«140130_j7078106103925_2_alg».proof.Proof.IdealHost
import proofs.«140130_j7078106103925_2_alg».proof.Proof.IdealBody

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's bookkeeping on one core: the arrays as the call finds them; after the body at tile `t` each input's
    buffer at its tile and the output's at the stored tile; nothing else owned, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => tileOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)
    | ⟨n + 27, h⟩ => absurd h (Nat.not_lt.2 (Nat.le_add_left 27 n))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = tileOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t))

set_option maxHeartbeats 4000000 in
/-- The body at any tile: the inputs' buffers hold their tiles, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

set_option maxHeartbeats 4000000 in
/-- The library's body obligation, at every tile. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates without a fault, every array of the call ending at what
    the tiles say and every other buffer as the re-laying after the call leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to its end and its 26 argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  frame_of m ρ (dats m) (A_eq m) (run_main m ρ)

end Cert.KernelIdeal.Frm

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.LibTileRows.lean ====
/-
  Reading a tile of rows, operation by operation, at the extended reals.

  A two-axis array `X` of `M` rows is described by its rows: a family `xr p k` with `X (p, k) = xr p k`. Each lemma
  below takes such a description of an operation's operands and returns the description of its result, so that a
  chain of operations is read by composing the lemmas, never by rewriting inside a large term. Everything is stated
  for arbitrary extents, so a 4096-row tile and a 262144-row array are read by the same lemmas.

  At the extended reals a change of float format is the identity, a product into a zero accumulator is the plain
  sum of products, and the rectifier is the maximum with zero.
-/
import proofs.«140130_j7078106103925_2_alg».proof.Proof.LibPlainDot
import Idealize.ShloMosaic.Lib.ValueLayout
import Idealize.ShloMosaic.Lib.Pipeline.Value

noncomputable section

namespace Cert.TileRows

open Idealize.ShloMosaic Idealize.ShloMosaic.ValueIdx

variable {M K N : Nat}

/-- Row `p` of a two-axis array. -/
abbrev rowOf {M K : Nat} (X : (⟨2, ![M, K]⟩ : Shape).Idx → EReal) (p : Fin M) : Fin K → EReal := fun k => X (ix2 p k)
/-- A two-axis array as a matrix. -/
abbrev matOf {K N : Nat} (w : (⟨2, ![K, N]⟩ : Shape).Idx → EReal) : Fin K → Fin N → EReal := fun k q => w (ix2 k q)
/-- A one-row array as a row. -/
abbrev vecOf {N : Nat} (b : (⟨2, ![1, N]⟩ : Shape).Idx → EReal) : Fin N → EReal := fun q => b (ix2 (0 : Fin 1) q)
/-- A one-axis array as a row. -/
abbrev vec1 {N : Nat} (b : (⟨1, ![N]⟩ : Shape).Idx → EReal) : Fin N → EReal := fun q => b (ix1 q)

/-- A vector made a one-row matrix is, as a row, the vector. -/
theorem vecOf_cast {N : Nat} (a : (⟨1, ![N]⟩ : Shape).Idx → EReal) (h : (⟨1, ![N]⟩ : Shape).ShapeCasts ⟨2, ![1, N]⟩) :
    vecOf (shapeCast ⟨2, ![1, N]⟩ a h) = vec1 a := funext fun q => shapeCast_a_1a_apply a h 0 q

/-- A re-laying to the same shape changes nothing. -/
theorem cast_rows {φ : FTy} (X : FVec Ideal ⟨2, ![M, K]⟩ φ) (h : (⟨2, ![M, K]⟩ : Shape).ShapeCasts ⟨2, ![M, K]⟩)
    (xr : Fin M → Fin K → EReal) (hX : ∀ p k, X (ix2 p k) = xr p k) :
    ∀ p k, shapeCast ⟨2, ![M, K]⟩ X h (ix2 p k) = xr p k := fun p k => by
  rw [shapeCast_self]; exact hX p k

/-- A change of float format changes nothing. -/
theorem trunc_rows {φ ψ : FTy} (X : FVec Ideal ⟨2, ![M, K]⟩ φ) (h : ψ.bits < φ.bits)
    (xr : Fin M → Fin K → EReal) (hX : ∀ p k, X (ix2 p k) = xr p k) :
    ∀ p k, (truncf ψ X h : FVec Ideal ⟨2, ![M, K]⟩ ψ) (ix2 p k) = xr p k := fun p k => hX p k

/-- A plain product of a tile of rows with a re-laid `K × N` matrix, into the zero accumulator: row `p` of the result
    is the row `p` of the tile times the matrix. -/
theorem mm_rows {φ₁ φ₂ : FTy} (d : DotDims ⟨2, ![M, K]⟩ ⟨2, ![K, N]⟩ ⟨2, ![M, N]⟩) (hd : Cert.PlainDot.IsPlain d)
    (prec : Option ContractPrecision) (X : FVec Ideal ⟨2, ![M, K]⟩ φ₁) (w : FVec Ideal ⟨2, ![K, N]⟩ φ₂)
    (hw : (⟨2, ![K, N]⟩ : Shape).ShapeCasts ⟨2, ![K, N]⟩)
    (xr : Fin M → Fin K → EReal) (hX : ∀ p k, X (ix2 p k) = xr p k) :
    ∀ p q, matmul d prec X (shapeCast ⟨2, ![K, N]⟩ w hw) (constant ⟨2, ![M, N]⟩ .f32 0x00000000#32) (ix2 p q)
      = ∑ k : Fin K, xr p k * w (ix2 k q) := fun p q => by
  refine (Ideal.matmul_constant_zero_apply d prec X _ (ix2 p q)).trans ?_
  refine (Cert.PlainDot.sum_contr d hd X (shapeCast ⟨2, ![K, N]⟩ w hw) p q).trans ?_
  refine Finset.sum_congr rfl fun k _ => ?_
  rw [hX p k, shapeCast_self]

/-- Adding a one-row bias, re-laid and spread over the rows. -/
theorem bias_rows (Y : FVec Ideal ⟨2, ![M, N]⟩ .f32) (b : FVec Ideal ⟨2, ![1, N]⟩ .f32)
    (hb : (⟨2, ![1, N]⟩ : Shape).ShapeCasts ⟨2, ![1, N]⟩) (hbc : (⟨2, ![1, N]⟩ : Shape).Broadcasts ⟨2, ![M, N]⟩)
    (yr : Fin M → Fin N → EReal) (hY : ∀ p q, Y (ix2 p q) = yr p q) :
    ∀ p q, addf Y (broadcastTo ⟨2, ![M, N]⟩ (shapeCast ⟨2, ![1, N]⟩ b hb) hbc) (ix2 p q) = yr p q + b (ix2 (0 : Fin 1) q) := fun p q => by
  rw [addf_apply, hY p q, broadcastTo_1b_ab_apply, shapeCast_self]

/-- Adding two tiles. -/
theorem add_rows (Y Z : FVec Ideal ⟨2, ![M, N]⟩ .f32) (yr zr : Fin M → Fin N → EReal)
    (hY : ∀ p q, Y (ix2 p q) = yr p q) (hZ : ∀ p q, Z (ix2 p q) = zr p q) :
    ∀ p q, addf Y Z (ix2 p q) = yr p q + zr p q := fun p q => by
  rw [addf_apply, hY p q, hZ p q]

/-- The rectifier against a splat of the zero word. -/
theorem relu_rows (Y : FVec Ideal ⟨2, ![M, N]⟩ .f32) (yr : Fin M → Fin N → EReal) (hY : ∀ p q, Y (ix2 p q) = yr p q) :
    ∀ p q, maximumf Y (broadcast ⟨2, ![M, N]⟩ (Scalar.ofBits (F := Ideal) .f32 0x00000000#32)) (ix2 p q) = max (yr p q) 0 := fun p q => by
  rw [maximumf_apply, hY p q, broadcast_apply]
  show max (yr p q) (Ideal.ofBits .f32 0x00000000#32) = _
  rw [Ideal.ofBits_zero_f32]

/-- The rectifier against another tile known to be zero. -/
theorem relu_rows_of (Y Z : FVec Ideal ⟨2, ![M, N]⟩ .f32) (yr : Fin M → Fin N → EReal) (hY : ∀ p q, Y (ix2 p q) = yr p q)
    (hZ : ∀ p q, Z (ix2 p q) = 0) :
    ∀ p q, maximumf Y Z (ix2 p q) = max (yr p q) 0 := fun p q => by
  rw [maximumf_apply, hY p q, hZ p q]

/-- A splat of the zero word is zero everywhere. -/
theorem zero_rows : ∀ (p : Fin M) (q : Fin N), (broadcast ⟨2, ![M, N]⟩ (Scalar.ofBits (F := Ideal) .f32 0x00000000#32) : FVec Ideal ⟨2, ![M, N]⟩ .f32) (ix2 p q) = 0 := fun p q => by
  rw [broadcast_apply]
  show Ideal.ofBits .f32 0x00000000#32 = _
  rw [Ideal.ofBits_zero_f32]

/-- Columns `o … o + m − 1` cut out of a tile. -/
theorem cols_rows {m : Nat} (o : Nat) (Y : FVec Ideal ⟨2, ![M, N]⟩ .f32) (h : (⟨2, ![M, N]⟩ : Shape).Slices ![0, o] ⟨2, ![M, m]⟩)
    (hle : o + m ≤ N) (yr : Fin M → Fin N → EReal) (hY : ∀ p q, Y (ix2 p q) = yr p q) :
    ∀ (p : Fin M) (j : Fin m), extractStridedSlice ⟨2, ![M, m]⟩ ![0, o] Y h (ix2 p j) = yr p ⟨o + j.val, by omega⟩ := fun p j => by
  rw [slice2_axis1_apply o Y h p j ⟨o + j.val, by omega⟩ rfl]; exact hY p _

/-- Two tiles set side by side along the columns: row `p` of the result is row `p` of the first followed by row `p` of
    the second. -/
theorem concat_rows {A B C : Nat} (hC : A + B = C) (Y : (⟨2, ![M, A]⟩ : Shape).Idx → EReal) (Z : (⟨2, ![M, B]⟩ : Shape).Idx → EReal)
    (h : Shape.Concatenates [(⟨2, ![M, A]⟩ : Shape), ⟨2, ![M, B]⟩] ⟨2, ![M, C]⟩ (1 : Fin 2))
    (yr : Fin M → Fin A → EReal) (zr : Fin M → Fin B → EReal)
    (hY : ∀ p k, Y (ix2 p k) = yr p k) (hZ : ∀ p k, Z (ix2 p k) = zr p k) :
    ∀ (p : Fin M) (j : Fin C), concatenate ⟨2, ![M, C]⟩ (1 : Fin 2) [⟨⟨2, ![M, A]⟩, Y⟩, ⟨⟨2, ![M, B]⟩, Z⟩] h (ix2 p j)
      = Fin.append (yr p) (zr p) (Fin.cast hC.symm j) := by
  intro p j
  by_cases hj : j.val < A
  · have e1 := concatenate_pair_apply_left (1 : Fin 2) Y Z h (ix2 p j) rfl (ix2 p ⟨j.val, hj⟩)
      (fun b => by match b with | ⟨0, _⟩ => rfl | ⟨1, _⟩ => rfl)
    rw [e1, hY]
    have e : Fin.cast hC.symm j = Fin.castAdd B ⟨j.val, hj⟩ := Fin.ext rfl
    rw [e, Fin.append_left]
  · have hjB : j.val - A < B := by have := j.isLt; omega
    have e1 := concatenate_pair_apply_right (1 : Fin 2) Y Z h (ix2 p j) rfl rfl (ix2 p ⟨j.val - A, hjB⟩)
      (fun b hb => by match b with | ⟨0, _⟩ => rfl | ⟨1, _⟩ => exact absurd rfl hb)
      (by show (j.val - A) + A = j.val; omega)
    rw [e1, hZ]
    have e : Fin.cast hC.symm j = Fin.natAdd A ⟨j.val - A, hjB⟩ := Fin.ext (by show j.val = A + (j.val - A); omega)
    rw [e, Fin.append_right]

end Cert.TileRows

end
-- ==== Proof.RowNet.lean ====
/-
  The network on ONE row, over the extended reals.

  Every layer of the network acts on a row at a time: a dense layer sends a row `x` of `K` numbers to the row
  `q ↦ (∑ k, x k · w k q) + b q` of `N` numbers, a rectifier replaces each entry by its maximum with zero. Two
  arrangements of the same network are compared here.

  The plain arrangement joins rows before two of its layers: the embedded point beside the fifth hidden row
  (63 + 256 entries) before the sixth layer, and the feature row beside the embedded view direction (256 + 27
  entries) before the colour layer; density and feature are two separate heads of the eighth hidden row.

  The split arrangement never joins rows. Where the plain one multiplies a joined row by a weight matrix, it
  multiplies each part by the matching rows of that matrix and adds the two products; and it computes density and
  feature by ONE product with the two heads' matrices set side by side (feature in columns 0–255, density in
  column 256, zeros after), reading the two heads back off the columns.

  They agree entry by entry. The only law used is that a finite sum over `A + B` indices is the sum over the first
  `A` plus the sum over the last `B` — sums in the extended reals are commutative and associative, and nothing is
  distributed or cancelled, so no entry needs to be finite.
-/
import Idealize.ShloMosaic.PureOps.Ideal

noncomputable section

namespace Cert.RowNet

/-- A dense layer on one row: `q ↦ (∑ k, x k · w k q) + b q`. -/
def dense {K N : ℕ} (x : Fin K → EReal) (w : Fin K → Fin N → EReal) (b : Fin N → EReal) : Fin N → EReal :=
  fun q => (∑ k, x k * w k q) + b q

/-- The rectifier on one row. -/
def relu {N : ℕ} (y : Fin N → EReal) : Fin N → EReal := fun q => max (y q) 0

/-- A dense layer fed by two rows at once, each against its own block of weight rows: the two products added, then
    the bias. -/
def dense2 {A B N : ℕ} (x : Fin A → EReal) (y : Fin B → EReal) (wx : Fin A → Fin N → EReal) (wy : Fin B → Fin N → EReal)
    (b : Fin N → EReal) : Fin N → EReal :=
  fun q => ((∑ k, x k * wx k q) + (∑ k, y k * wy k q)) + b q

/-- A dense layer on a joined row is the two-row layer on its parts, the weight matrix cut at row `A`. -/
theorem dense_append {A B N : ℕ} (x : Fin A → EReal) (y : Fin B → EReal) (w : Fin (A + B) → Fin N → EReal) (b : Fin N → EReal) :
    dense (Fin.append x y) w b = dense2 x y (fun k => w (Fin.castAdd B k)) (fun k => w (Fin.natAdd A k)) b := by
  funext q
  unfold dense dense2
  rw [Fin.sum_univ_add]
  simp only [Fin.append_left, Fin.append_right]

/-! ## The eight hidden layers -/

/-- The first five hidden layers (both arrangements): five dense layers, a rectifier after each. -/
def hidden5 (ep : Fin 63 → EReal) (w0 : Fin 63 → Fin 256 → EReal) (b0 : Fin 256 → EReal)
    (w1 : Fin 256 → Fin 256 → EReal) (b1 : Fin 256 → EReal) (w2 : Fin 256 → Fin 256 → EReal) (b2 : Fin 256 → EReal)
    (w3 : Fin 256 → Fin 256 → EReal) (b3 : Fin 256 → EReal) (w4 : Fin 256 → Fin 256 → EReal) (b4 : Fin 256 → EReal) : Fin 256 → EReal :=
  relu (dense (relu (dense (relu (dense (relu (dense (relu (dense ep w0 b0)) w1 b1)) w2 b2)) w3 b3)) w4 b4)

/-- Layers six to eight after a given sixth pre-activation row. -/
def hidden8 (y6 : Fin 256 → EReal) (w6 : Fin 256 → Fin 256 → EReal) (b6 : Fin 256 → EReal)
    (w7 : Fin 256 → Fin 256 → EReal) (b7 : Fin 256 → EReal) : Fin 256 → EReal :=
  relu (dense (relu (dense (relu y6) w6 b6)) w7 b7)

/-- The last two layers after a given colour pre-activation row, and the output row: three colours, then density. -/
def outRow (y : Fin 128 → EReal) (rw : Fin 128 → Fin 3 → EReal) (rb : Fin 3 → EReal) (alpha : Fin 1 → EReal) : Fin 4 → EReal :=
  fun j => Fin.append (dense (relu y) rw rb) alpha (Fin.cast (rfl : 4 = 3 + 1) j)

/-- The split arrangement on one row: the sixth layer and the colour layer fed by two rows each, density and feature
    read off the columns of one joint head (feature in columns 0–255, density in column 256). -/
def splitRow (ep : Fin 63 → EReal) (ev : Fin 27 → EReal) (w0 : Fin 63 → Fin 256 → EReal) (b0 : Fin 256 → EReal)
    (w1 : Fin 256 → Fin 256 → EReal) (b1 : Fin 256 → EReal) (w2 : Fin 256 → Fin 256 → EReal) (b2 : Fin 256 → EReal)
    (w3 : Fin 256 → Fin 256 → EReal) (b3 : Fin 256 → EReal) (w4 : Fin 256 → Fin 256 → EReal) (b4 : Fin 256 → EReal)
    (w5a : Fin 63 → Fin 256 → EReal) (w5b : Fin 256 → Fin 256 → EReal) (b5 : Fin 256 → EReal)
    (w6 : Fin 256 → Fin 256 → EReal) (b6 : Fin 256 → EReal) (w7 : Fin 256 → Fin 256 → EReal) (b7 : Fin 256 → EReal)
    (vwt : Fin 256 → Fin 128 → EReal) (vwb : Fin 27 → Fin 128 → EReal) (vb : Fin 128 → EReal)
    (fa : Fin 256 → Fin 384 → EReal) (fab : Fin 384 → EReal) (rw : Fin 128 → Fin 3 → EReal) (rb : Fin 3 → EReal) : Fin 4 → EReal :=
  outRow
    (dense2 (fun q : Fin 256 => dense (hidden8 (dense2 ep (hidden5 ep w0 b0 w1 b1 w2 b2 w3 b3 w4 b4) w5a w5b b5) w6 b6 w7 b7) fa fab ⟨0 + q.val, by omega⟩)
      ev vwt vwb vb)
    rw rb
    (fun j : Fin 1 => dense (hidden8 (dense2 ep (hidden5 ep w0 b0 w1 b1 w2 b2 w3 b3 w4 b4) w5a w5b b5) w6 b6 w7 b7) fa fab ⟨256 + j.val, by omega⟩)

/-- The plain arrangement on one row: rows joined before the sixth layer and before the colour layer, density and feature
    two heads of the eighth hidden row. -/
def plainRow (ep : Fin 63 → EReal) (ev : Fin 27 → EReal) (w0 : Fin 63 → Fin 256 → EReal) (b0 : Fin 256 → EReal)
    (w1 : Fin 256 → Fin 256 → EReal) (b1 : Fin 256 → EReal) (w2 : Fin 256 → Fin 256 → EReal) (b2 : Fin 256 → EReal)
    (w3 : Fin 256 → Fin 256 → EReal) (b3 : Fin 256 → EReal) (w4 : Fin 256 → Fin 256 → EReal) (b4 : Fin 256 → EReal)
    (w5 : Fin (63 + 256) → Fin 256 → EReal) (b5 : Fin 256 → EReal)
    (w6 : Fin 256 → Fin 256 → EReal) (b6 : Fin 256 → EReal) (w7 : Fin 256 → Fin 256 → EReal) (b7 : Fin 256 → EReal)
    (vw : Fin (256 + 27) → Fin 128 → EReal) (vb : Fin 128 → EReal)
    (fw : Fin 256 → Fin 256 → EReal) (fb : Fin 256 → EReal) (aw : Fin 256 → Fin 1 → EReal) (ab : Fin 1 → EReal)
    (rw : Fin 128 → Fin 3 → EReal) (rb : Fin 3 → EReal) : Fin 4 → EReal :=
  outRow
    (dense (Fin.append (dense (hidden8 (dense (Fin.append ep (hidden5 ep w0 b0 w1 b1 w2 b2 w3 b3 w4 b4)) w5 b5) w6 b6 w7 b7) fw fb) ev) vw vb)
    rw rb
    (dense (hidden8 (dense (Fin.append ep (hidden5 ep w0 b0 w1 b1 w2 b2 w3 b3 w4 b4)) w5 b5) w6 b6 w7 b7) aw ab)

/-- The two arrangements agree, when the split one's weight blocks are the plain one's: the sixth layer's and the colour
    layer's matrices cut at rows 63 and 256, and the joint head's matrix and bias the feature head's in columns
    0–255 and the density head's in column 256. -/
theorem split_eq_plain (ep : Fin 63 → EReal) (ev : Fin 27 → EReal) (w0 : Fin 63 → Fin 256 → EReal) (b0 : Fin 256 → EReal)
    (w1 : Fin 256 → Fin 256 → EReal) (b1 : Fin 256 → EReal) (w2 : Fin 256 → Fin 256 → EReal) (b2 : Fin 256 → EReal)
    (w3 : Fin 256 → Fin 256 → EReal) (b3 : Fin 256 → EReal) (w4 : Fin 256 → Fin 256 → EReal) (b4 : Fin 256 → EReal)
    (w5 : Fin (63 + 256) → Fin 256 → EReal) (b5 : Fin 256 → EReal)
    (w6 : Fin 256 → Fin 256 → EReal) (b6 : Fin 256 → EReal) (w7 : Fin 256 → Fin 256 → EReal) (b7 : Fin 256 → EReal)
    (vw : Fin (256 + 27) → Fin 128 → EReal) (vb : Fin 128 → EReal)
    (fw : Fin 256 → Fin 256 → EReal) (fb : Fin 256 → EReal) (aw : Fin 256 → Fin 1 → EReal) (ab : Fin 1 → EReal)
    (rw : Fin 128 → Fin 3 → EReal) (rb : Fin 3 → EReal)
    (w5a : Fin 63 → Fin 256 → EReal) (w5b : Fin 256 → Fin 256 → EReal)
    (vwt : Fin 256 → Fin 128 → EReal) (vwb : Fin 27 → Fin 128 → EReal)
    (fa : Fin 256 → Fin 384 → EReal) (fab : Fin 384 → EReal)
    (h5a : ∀ k q, w5a k q = w5 (Fin.castAdd 256 k) q) (h5b : ∀ k q, w5b k q = w5 (Fin.natAdd 63 k) q)
    (hvt : ∀ k q, vwt k q = vw (Fin.castAdd 27 k) q) (hvb : ∀ k q, vwb k q = vw (Fin.natAdd 256 k) q)
    (hfaF : ∀ k (q : Fin 256), fa k ⟨0 + q.val, by omega⟩ = fw k q) (hfaA : ∀ k (j : Fin 1), fa k ⟨256 + j.val, by omega⟩ = aw k j)
    (hfbF : ∀ q : Fin 256, fab ⟨0 + q.val, by omega⟩ = fb q) (hfbA : ∀ j : Fin 1, fab ⟨256 + j.val, by omega⟩ = ab j) :
    splitRow ep ev w0 b0 w1 b1 w2 b2 w3 b3 w4 b4 w5a w5b b5 w6 b6 w7 b7 vwt vwb vb fa fab rw rb
      = plainRow ep ev w0 b0 w1 b1 w2 b2 w3 b3 w4 b4 w5 b5 w6 b6 w7 b7 vw vb fw fb aw ab rw rb := by
  have e5a : w5a = fun k => w5 (Fin.castAdd 256 k) := funext fun k => funext fun q => h5a k q
  have e5b : w5b = fun k => w5 (Fin.natAdd 63 k) := funext fun k => funext fun q => h5b k q
  have evt : vwt = fun k => vw (Fin.castAdd 27 k) := funext fun k => funext fun q => hvt k q
  have evb : vwb = fun k => vw (Fin.natAdd 256 k) := funext fun k => funext fun q => hvb k q
  subst e5a e5b evt evb
  unfold splitRow plainRow
  rw [dense_append, dense_append]
  have hfeat : ∀ h8 : Fin 256 → EReal, (fun q : Fin 256 => dense h8 fa fab ⟨0 + q.val, by omega⟩) = dense h8 fw fb := fun h8 =>
    funext fun q => by
      unfold dense
      rw [hfbF q]
      exact congrArg (· + fb q) (Finset.sum_congr rfl fun k _ => by rw [hfaF k q])
  have halpha : ∀ h8 : Fin 256 → EReal, (fun j : Fin 1 => dense h8 fa fab ⟨256 + j.val, by omega⟩) = dense h8 aw ab := fun h8 =>
    funext fun j => by
      unfold dense
      rw [hfbA j]
      exact congrArg (· + ab j) (Finset.sum_congr rfl fun k _ => by rw [hfaA k j])
  rw [hfeat, halpha]

end Cert.RowNet

end
-- ==== Proof.KernelRows.lean ====
/-
  The tiled call's body on one row.

  The body's arithmetic is six pure terms over the 26 loaded tiles. Read at row `p` of the 4096-row tile, each is the
  split arrangement of the network applied to row `p` of the two input tiles: every product is a row of the tile
  times a resident matrix, every bias is a one-row array spread over the rows, every rectifier and change of format
  acts entry by entry, and the last step sets the three colour columns beside the density column.
-/
import proofs.«140130_j7078106103925_2_alg».proof.Proof.Gen.KernelIdeal.Skeleton
import proofs.«140130_j7078106103925_2_alg».proof.Proof.LibTileRows
import proofs.«140130_j7078106103925_2_alg».proof.Proof.RowNet

noncomputable section

namespace Cert.KernelIdeal.Rows

open Cert.KernelIdeal Cert.KernelIdeal.Gen Idealize.ShloMosaic Idealize.ShloMosaic.ValueIdx Cert.RowNet Cert.TileRows

/-- Layers 0–2: the third hidden row. -/
def hid3 (ep : Fin 63 → EReal) (w0 : Fin 63 → Fin 256 → EReal) (b0 : Fin 256 → EReal)
    (w1 : Fin 256 → Fin 256 → EReal) (b1 : Fin 256 → EReal) (w2 : Fin 256 → Fin 256 → EReal) (b2 : Fin 256 → EReal) : Fin 256 → EReal :=
  relu (dense (relu (dense (relu (dense ep w0 b0)) w1 b1)) w2 b2)

theorem pay4_rows (v0 : Vec Ideal S4096x63 .bf16) (v4 : Vec Ideal S63x256 .bf16) (v7 : Vec Ideal S1x256 .f32) (v14 : Vec Ideal S256x256 .bf16) (v17 : Vec Ideal S1x256 .f32) (v24 : Vec Ideal S256x256 .bf16) (v27 : Vec Ideal S1x256 .f32) :
    ∀ (p : Fin 4096) (q : Fin 256), k0_pay4 v0 v4 v7 v14 v17 v24 v27 (ix2 p q)
      = hid3 (rowOf v0 p) (matOf v4) (vecOf v7) (matOf v14) (vecOf v17) (matOf v24) (vecOf v27) q := by
  have a0 := cast_rows (φ := .bf16) v0 shapeCasts_S4096x63_S4096x63 (fun p k => v0 (ix2 p k)) (fun _ _ => rfl)
  have a1 := mm_rows (φ₁ := .bf16) (φ₂ := .bf16) dot_S4096x63_S63x256_S4096x256_1_0_0_1_n_n ⟨rfl, rfl, rfl, rfl, rfl, rfl⟩ none _ v4 shapeCasts_S63x256_S63x256 _ a0
  have a2 := bias_rows _ v7 shapeCasts_S1x256_S1x256 broadcasts_S1x256_S4096x256 _ a1
  have a3 := relu_rows _ _ a2
  have a4 := trunc_rows (ψ := .bf16) _ bitsLt_bf16_f32 _ a3
  have b1 := mm_rows (φ₁ := .bf16) (φ₂ := .bf16) dot_S4096x256_S256x256_S4096x256_1_0_0_1_n_n ⟨rfl, rfl, rfl, rfl, rfl, rfl⟩ none _ v14 shapeCasts_S256x256_S256x256 _ a4
  have b2 := bias_rows _ v17 shapeCasts_S1x256_S1x256 broadcasts_S1x256_S4096x256 _ b1
  have b3 := relu_rows _ _ b2
  have b4 := trunc_rows (ψ := .bf16) _ bitsLt_bf16_f32 _ b3
  have c1 := mm_rows (φ₁ := .bf16) (φ₂ := .bf16) dot_S4096x256_S256x256_S4096x256_1_0_0_1_n_n ⟨rfl, rfl, rfl, rfl, rfl, rfl⟩ none _ v24 shapeCasts_S256x256_S256x256 _ b4
  have c2 := bias_rows _ v27 shapeCasts_S1x256_S1x256 broadcasts_S1x256_S4096x256 _ c1
  have c3 := relu_rows _ _ c2
  have c4 := trunc_rows (ψ := .bf16) _ bitsLt_bf16_f32 _ c3
  exact c4

/-- Layers 3–4 on the third hidden row, the sixth layer fed by the embedded point and the fifth hidden row, and the
    seventh layer's product (its bias is added by the next stage). -/
theorem pay5_rows (v1 : FVec Ideal S4096x63 .bf16) (v33 : FVec Ideal S4096x256 .bf16) (v34 : Vec Ideal S256x256 .bf16) (v37 : Vec Ideal S1x256 .f32) (v44 : Vec Ideal S256x256 .bf16) (v47 : Vec Ideal S1x256 .f32) (v53 : Vec Ideal S63x256 .bf16) (v57 : Vec Ideal S256x256 .bf16) (v61 : Vec Ideal S1x256 .f32) (v68 : Vec Ideal S256x256 .bf16)
    (e : Fin 4096 → Fin 63 → EReal) (h3 : Fin 4096 → Fin 256 → EReal) (h1 : ∀ p k, v1 (ix2 p k) = e p k) (h33 : ∀ p k, v33 (ix2 p k) = h3 p k) :
    ∀ (p : Fin 4096) (q : Fin 256), k0_pay5 v1 v33 v34 v37 v44 v47 v53 v57 v61 v68 (ix2 p q)
      = ∑ k : Fin 256, relu (dense2 (e p) (relu (dense (relu (dense (h3 p) (matOf v34) (vecOf v37))) (matOf v44) (vecOf v47))) (matOf v53) (matOf v57) (vecOf v61)) k * matOf v68 k q := by
  have a1 := mm_rows (φ₁ := .bf16) (φ₂ := .bf16) dot_S4096x256_S256x256_S4096x256_1_0_0_1_n_n ⟨rfl, rfl, rfl, rfl, rfl, rfl⟩ none v33 v34 shapeCasts_S256x256_S256x256 _ h33
  have a2 := bias_rows _ v37 shapeCasts_S1x256_S1x256 broadcasts_S1x256_S4096x256 _ a1
  have a3 := relu_rows _ _ a2
  have a4 := trunc_rows (ψ := .bf16) _ bitsLt_bf16_f32 _ a3
  have b1 := mm_rows (φ₁ := .bf16) (φ₂ := .bf16) dot_S4096x256_S256x256_S4096x256_1_0_0_1_n_n ⟨rfl, rfl, rfl, rfl, rfl, rfl⟩ none _ v44 shapeCasts_S256x256_S256x256 _ a4
  have b2 := bias_rows _ v47 shapeCasts_S1x256_S1x256 broadcasts_S1x256_S4096x256 _ b1
  have b3 := relu_rows _ _ b2
  have c1 := mm_rows (φ₁ := .bf16) (φ₂ := .bf16) dot_S4096x63_S63x256_S4096x256_1_0_0_1_n_n ⟨rfl, rfl, rfl, rfl, rfl, rfl⟩ none v1 v53 shapeCasts_S63x256_S63x256 _ h1
  have b4 := trunc_rows (ψ := .bf16) _ bitsLt_bf16_f32 _ b3
  have c2 := mm_rows (φ₁ := .bf16) (φ₂ := .bf16) dot_S4096x256_S256x256_S4096x256_1_0_0_1_n_n ⟨rfl, rfl, rfl, rfl, rfl, rfl⟩ none _ v57 shapeCasts_S256x256_S256x256 _ b4
  have c3 := add_rows _ _ _ _ c1 c2
  have c4 := bias_rows _ v61 shapeCasts_S1x256_S1x256 broadcasts_S1x256_S4096x256 _ c3
  have c5 := relu_rows _ _ c4
  have c6 := trunc_rows (ψ := .bf16) _ bitsLt_bf16_f32 _ c5
  have d1 := mm_rows (φ₁ := .bf16) (φ₂ := .bf16) dot_S4096x256_S256x256_S4096x256_1_0_0_1_n_n ⟨rfl, rfl, rfl, rfl, rfl, rfl⟩ none _ v68 shapeCasts_S256x256_S256x256 _ c6
  exact d1

/-- The seventh layer's bias and rectifier, the eighth layer, and the joint feature-and-density head. -/
theorem pay6_rows (v70 : FVec Ideal S4096x256 .f32) (v71 : Vec Ideal S1x256 .f32) (v78 : Vec Ideal S256x256 .bf16) (v81 : Vec Ideal S1x256 .f32) (v88 : Vec Ideal S256x384 .bf16) (v91 : Vec Ideal S1x384 .f32)
    (y : Fin 4096 → Fin 256 → EReal) (h70 : ∀ p q, v70 (ix2 p q) = y p q) :
    ∀ (p : Fin 4096) (q : Fin 384), k0_pay6 v70 v71 v78 v81 v88 v91 (ix2 p q)
      = dense (relu (dense (relu (fun q => y p q + vecOf v71 q)) (matOf v78) (vecOf v81))) (matOf v88) (vecOf v91) q := by
  have a1 := bias_rows _ v71 shapeCasts_S1x256_S1x256 broadcasts_S1x256_S4096x256 _ h70
  have a2 := relu_rows _ _ a1
  have a3 := trunc_rows (ψ := .bf16) _ bitsLt_bf16_f32 _ a2
  have b1 := mm_rows (φ₁ := .bf16) (φ₂ := .bf16) dot_S4096x256_S256x256_S4096x256_1_0_0_1_n_n ⟨rfl, rfl, rfl, rfl, rfl, rfl⟩ none _ v78 shapeCasts_S256x256_S256x256 _ a3
  have b2 := bias_rows _ v81 shapeCasts_S1x256_S1x256 broadcasts_S1x256_S4096x256 _ b1
  have b3 := relu_rows _ _ b2
  have b4 := trunc_rows (ψ := .bf16) _ bitsLt_bf16_f32 _ b3
  have c1 := mm_rows (φ₁ := .bf16) (φ₂ := .bf16) dot_S4096x256_S256x384_S4096x384_1_0_0_1_n_n ⟨rfl, rfl, rfl, rfl, rfl, rfl⟩ none _ v88 shapeCasts_S256x384_S256x384 _ b4
  have c2 := bias_rows _ v91 shapeCasts_S1x384_S1x384 broadcasts_S1x384_S4096x384 _ c1
  exact c2

/-- Density: column 256 of the joint head. -/
theorem pay7_rows (v70 : FVec Ideal S4096x256 .f32) (v71 : Vec Ideal S1x256 .f32) (v78 : Vec Ideal S256x256 .bf16) (v81 : Vec Ideal S1x256 .f32) (v88 : Vec Ideal S256x384 .bf16) (v91 : Vec Ideal S1x384 .f32)
    (y : Fin 4096 → Fin 256 → EReal) (h70 : ∀ p q, v70 (ix2 p q) = y p q) :
    ∀ (p : Fin 4096) (j : Fin 1), k0_pay7 v70 v71 v78 v81 v88 v91 (ix2 p j)
      = dense (relu (dense (relu (fun q => y p q + vecOf v71 q)) (matOf v78) (vecOf v81))) (matOf v88) (vecOf v91) ⟨256 + j.val, by omega⟩ :=
  cols_rows 256 (k0_pay6 v70 v71 v78 v81 v88 v91) slices_S4096x384_o0_256_S4096x1 (by decide) _ (pay6_rows v70 v71 v78 v81 v88 v91 y h70)

/-- The colour layer's pre-activation: the feature columns 0–255 of the joint head against the upper block of the
    colour layer's matrix, the embedded view direction against the lower block, the two products added, the bias. -/
theorem pay8_rows (v3 : FVec Ideal S4096x27 .bf16) (v70 : FVec Ideal S4096x256 .f32) (v71 : Vec Ideal S1x256 .f32) (v78 : Vec Ideal S256x256 .bf16) (v81 : Vec Ideal S1x256 .f32) (v88 : Vec Ideal S256x384 .bf16) (v91 : Vec Ideal S1x384 .f32) (v98 : Vec Ideal S256x128 .bf16) (v101 : Vec Ideal S27x128 .bf16) (v105 : Vec Ideal S1x128 .f32)
    (ev : Fin 4096 → Fin 27 → EReal) (y : Fin 4096 → Fin 256 → EReal) (h3 : ∀ p k, v3 (ix2 p k) = ev p k) (h70 : ∀ p q, v70 (ix2 p q) = y p q) :
    ∀ (p : Fin 4096) (q : Fin 128), k0_pay8 v3 v70 v71 v78 v81 v88 v91 v98 v101 v105 (ix2 p q)
      = dense2 (fun q : Fin 256 => dense (relu (dense (relu (fun q => y p q + vecOf v71 q)) (matOf v78) (vecOf v81))) (matOf v88) (vecOf v91) ⟨0 + q.val, by omega⟩)
          (ev p) (matOf v98) (matOf v101) (vecOf v105) q := by
  have a1 := cols_rows 0 (k0_pay6 v70 v71 v78 v81 v88 v91) slices_S4096x384_o0_0_S4096x256 (by decide) _ (pay6_rows v70 v71 v78 v81 v88 v91 y h70)
  have a2 := trunc_rows (φ := .f32) (ψ := .bf16) _ bitsLt_bf16_f32 _ a1
  have a3 := mm_rows (φ₁ := .bf16) (φ₂ := .bf16) dot_S4096x256_S256x128_S4096x128_1_0_0_1_n_n ⟨rfl, rfl, rfl, rfl, rfl, rfl⟩ none _ v98 shapeCasts_S256x128_S256x128 _ a2
  have b1 := mm_rows (φ₁ := .bf16) (φ₂ := .bf16) dot_S4096x27_S27x128_S4096x128_1_0_0_1_n_n ⟨rfl, rfl, rfl, rfl, rfl, rfl⟩ none v3 v101 shapeCasts_S27x128_S27x128 _ h3
  have a4 := add_rows _ _ _ _ a3 b1
  have a5 := bias_rows _ v105 shapeCasts_S1x128_S1x128 broadcasts_S1x128_S4096x128 _ a4
  exact a5

/-- The stored tile: the rectified colour pre-activation through the colour head, beside the density column. -/
theorem pay1_rows (v96 : FVec Ideal S4096x1 .f32) (v108 : FVec Ideal S4096x128 .f32) (v109 : FVec Ideal S4096x128 .f32) (v112 : Vec Ideal S128x3 .bf16) (v115 : Vec Ideal S1x3 .f32)
    (al : Fin 4096 → Fin 1 → EReal) (y : Fin 4096 → Fin 128 → EReal) (h96 : ∀ p j, v96 (ix2 p j) = al p j) (h108 : ∀ p q, v108 (ix2 p q) = y p q)
    (h109 : ∀ p q, v109 (ix2 p q) = 0) :
    ∀ (p : Fin 4096) (j : Fin 4), k0_pay1 v96 v108 v109 v112 v115 (ix2 p j) = outRow (y p) (matOf v112) (vecOf v115) (al p) j := by
  have a1 := relu_rows_of v108 v109 _ h108 h109
  have a2 := trunc_rows (ψ := .bf16) _ bitsLt_bf16_f32 _ a1
  have a3 := mm_rows (φ₁ := .bf16) (φ₂ := .bf16) dot_S4096x128_S128x3_S4096x3_1_0_0_1_n_n ⟨rfl, rfl, rfl, rfl, rfl, rfl⟩ none _ v112 shapeCasts_S128x3_S128x3 _ a2
  have a4 := bias_rows _ v115 shapeCasts_S1x3_S1x3 broadcasts_S1x3_S4096x3 _ a3
  have a5 := concat_rows (A := 3) (B := 1) (C := 4) rfl _ v96 concatenates_S4096x3_S4096x1_S4096x4_d1 _ al a4 h96
  exact a5

end Cert.KernelIdeal.Rows

end
-- ==== Proof.IdealTile.lean ====
/-
  The stored tile, row by row: row `p` of the tile the body stores is the split arrangement of the network applied to
  row `p` of the two input tiles, with the 24 resident operands as its weights and biases.
-/
import proofs.«140130_j7078106103925_2_alg».proof.Proof.IdealBody
import proofs.«140130_j7078106103925_2_alg».proof.Proof.KernelRows

noncomputable section

namespace Cert.KernelIdeal.Rows

open Cert.KernelIdeal Cert.KernelIdeal.Gen Cert.KernelIdeal.Frm Idealize.ShloMosaic Idealize.ShloMosaic.ValueIdx Cert.RowNet Cert.TileRows

/-- The offset of a whole-buffer rectangle is zero on both axes. -/
theorem off00 : (![0, 0] : Fin 2 → Nat) = fun _ => 0 := funext fun a => by
  match a with
  | ⟨0, _⟩ => rfl
  | ⟨1, _⟩ => rfl

theorem tileOut_rows (x0 : Vec Ideal S4096x63 .bf16) (x1 : Vec Ideal S4096x27 .bf16) (x2 : Vec Ideal S63x256 .bf16) (x3 : Vec Ideal S1x256 .f32) (x4 : Vec Ideal S256x256 .bf16) (x5 : Vec Ideal S1x256 .f32) (x6 : Vec Ideal S256x256 .bf16) (x7 : Vec Ideal S1x256 .f32) (x8 : Vec Ideal S256x256 .bf16) (x9 : Vec Ideal S1x256 .f32) (x10 : Vec Ideal S256x256 .bf16) (x11 : Vec Ideal S1x256 .f32) (x12 : Vec Ideal S63x256 .bf16) (x13 : Vec Ideal S256x256 .bf16) (x14 : Vec Ideal S1x256 .f32) (x15 : Vec Ideal S256x256 .bf16) (x16 : Vec Ideal S1x256 .f32) (x17 : Vec Ideal S256x256 .bf16) (x18 : Vec Ideal S1x256 .f32) (x19 : Vec Ideal S256x128 .bf16) (x20 : Vec Ideal S27x128 .bf16) (x21 : Vec Ideal S1x128 .f32) (x22 : Vec Ideal S256x384 .bf16) (x23 : Vec Ideal S1x384 .f32) (x24 : Vec Ideal S128x3 .bf16) (x25 : Vec Ideal S1x3 .f32) :
    ∀ (p : Fin 4096) (j : Fin 4), tileOut x0 x1 x2 x3 x4 x5 x6 x7 x8 x9 x10 x11 x12 x13 x14 x15 x16 x17 x18 x19 x20 x21 x22 x23 x24 x25 (ix2 p j)
      = splitRow (rowOf x0 p) (rowOf x1 p) (matOf x2) (vecOf x3) (matOf x4) (vecOf x5) (matOf x6) (vecOf x7) (matOf x8) (vecOf x9) (matOf x10) (vecOf x11) (matOf x12) (matOf x13) (vecOf x14) (matOf x15) (vecOf x16) (matOf x17) (vecOf x18) (matOf x19) (matOf x20) (vecOf x21) (matOf x22) (vecOf x23) (matOf x24) (vecOf x25) j := by
  unfold tileOut rowsOut pre8 hidden3
  rw [View.canon_unit_zero off00]
  simp only [View.ld_unit_zero (S := S4096x63) off00, View.ld_unit_zero (S := S4096x27) off00, View.ld_unit_zero (S := S63x256) off00, View.ld_unit_zero (S := S1x256) off00, View.ld_unit_zero (S := S256x256) off00, View.ld_unit_zero (S := S256x128) off00, View.ld_unit_zero (S := S27x128) off00, View.ld_unit_zero (S := S1x128) off00, View.ld_unit_zero (S := S256x384) off00, View.ld_unit_zero (S := S1x384) off00, View.ld_unit_zero (S := S128x3) off00, View.ld_unit_zero (S := S1x3) off00]
  have g2 := cast_rows (φ := .bf16) x0 shapeCasts_S4096x63_S4096x63 (fun p k => x0 (ix2 p k)) (fun _ _ => rfl)
  have g3 := cast_rows (φ := .bf16) x1 shapeCasts_S4096x27_S4096x27 (fun p k => x1 (ix2 p k)) (fun _ _ => rfl)
  have g4 := pay4_rows x0 x2 x3 x4 x5 x6 x7
  have g5 := pay5_rows (k0_pay2 x0) (k0_pay4 x0 x2 x3 x4 x5 x6 x7) x8 x9 x10 x11 x12 x13 x14 x15 _ _ g2 g4
  have g7 := pay7_rows _ x16 x17 x18 x22 x23 _ g5
  have g8 := pay8_rows (k0_pay3 x1) _ x16 x17 x18 x22 x23 x19 x20 x21 _ _ g3 g5
  have g9 : ∀ (p : Fin 4096) (q : Fin 128), (k0_pay9 (F := Ideal)) (ix2 p q) = 0 := zero_rows
  have g1 := pay1_rows _ _ _ x24 x25 _ _ g7 g8 g9
  exact g1

end Cert.KernelIdeal.Rows

end
-- ==== Proof.IdealBlocks.lean ====
/-
  The call's tiles, read off an array.

  Point `t` of the 64-point grid names block `t` of the two streamed inputs and of the result (rows `4096 t …`, all
  columns) and block 0 of each resident operand (the whole array). Reading such a block of any array `A` gives, for a
  resident operand, `A` itself, and for a streamed one, at row `p`, row `4096 t + p` of `A`.
-/
import proofs.«140130_j7078106103925_2_alg».proof.Proof.Gen.KernelIdeal.Points
import proofs.«140130_j7078106103925_2_alg».proof.Proof.Gen.KernelIdeal.Launch
import proofs.«140130_j7078106103925_2_alg».proof.Proof.LibTileRows
import proofs.«140130_j7078106103925_2_alg».proof.Proof.RowNet
import Idealize.ShloMosaic.PureOps.Ideal
import Idealize.ShloMosaic.Lib.Pipeline.Value

set_option maxRecDepth 16384

noncomputable section

namespace Cert.KernelIdeal.Arr

open Cert.KernelIdeal Cert.KernelIdeal.Gen
open Idealize.ShloMosaic Idealize.ShloMosaic.TcCoe Idealize.ShloMosaic.ValueIdx Idealize.SL.Sem Cert.RowNet Cert.TileRows
open Idealize.ShloMosaic.Pipeline (Dat Cfg Window)

/-! ## Which block each point names -/

theorem idxS_0 : ∀ t : Fin cfg0.N, win0_0.index t (0 : Fin 2) = t.val ∧ win0_0.index t (1 : Fin 2) = 0 :=
  (by decide +kernel : ∀ t : Fin grid0.N, _)
theorem idxS_1 : ∀ t : Fin cfg0.N, win0_1.index t (0 : Fin 2) = t.val ∧ win0_1.index t (1 : Fin 2) = 0 :=
  (by decide +kernel : ∀ t : Fin grid0.N, _)
theorem idxS_26 : ∀ t : Fin cfg0.N, win0_26.index t (0 : Fin 2) = t.val ∧ win0_26.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
theorem idx0_10 : ∀ t : Fin cfg0.N, win0_10.index t (0 : Fin 2) = 0 ∧ win0_10.index t (1 : Fin 2) = 0 :=
  (by decide +kernel : ∀ t : Fin grid0.N, _)
theorem idx0_11 : ∀ t : Fin cfg0.N, win0_11.index t (0 : Fin 2) = 0 ∧ win0_11.index t (1 : Fin 2) = 0 :=
  (by decide +kernel : ∀ t : Fin grid0.N, _)
theorem idx0_12 : ∀ t : Fin cfg0.N, win0_12.index t (0 : Fin 2) = 0 ∧ win0_12.index t (1 : Fin 2) = 0 :=
  (by decide +kernel : ∀ t : Fin grid0.N, _)
theorem idx0_13 : ∀ t : Fin cfg0.N, win0_13.index t (0 : Fin 2) = 0 ∧ win0_13.index t (1 : Fin 2) = 0 :=
  (by decide +kernel : ∀ t : Fin grid0.N, _)
theorem idx0_14 : ∀ t : Fin cfg0.N, win0_14.index t (0 : Fin 2) = 0 ∧ win0_14.index t (1 : Fin 2) = 0 :=
  (by decide +kernel : ∀ t : Fin grid0.N, _)
theorem idx0_15 : ∀ t : Fin cfg0.N, win0_15.index t (0 : Fin 2) = 0 ∧ win0_15.index t (1 : Fin 2) = 0 :=
  (by decide +kernel : ∀ t : Fin grid0.N, _)
theorem idx0_16 : ∀ t : Fin cfg0.N, win0_16.index t (0 : Fin 2) = 0 ∧ win0_16.index t (1 : Fin 2) = 0 :=
  (by decide +kernel : ∀ t : Fin grid0.N, _)
theorem idx0_17 : ∀ t : Fin cfg0.N, win0_17.index t (0 : Fin 2) = 0 ∧ win0_17.index t (1 : Fin 2) = 0 :=
  (by decide +kernel : ∀ t : Fin grid0.N, _)
theorem idx0_18 : ∀ t : Fin cfg0.N, win0_18.index t (0 : Fin 2) = 0 ∧ win0_18.index t (1 : Fin 2) = 0 :=
  (by decide +kernel : ∀ t : Fin grid0.N, _)
theorem idx0_19 : ∀ t : Fin cfg0.N, win0_19.index t (0 : Fin 2) = 0 ∧ win0_19.index t (1 : Fin 2) = 0 :=
  (by decide +kernel : ∀ t : Fin grid0.N, _)
theorem idx0_20 : ∀ t : Fin cfg0.N, win0_20.index t (0 : Fin 2) = 0 ∧ win0_20.index t (1 : Fin 2) = 0 :=
  (by decide +kernel : ∀ t : Fin grid0.N, _)
theorem idx0_21 : ∀ t : Fin cfg0.N, win0_21.index t (0 : Fin 2) = 0 ∧ win0_21.index t (1 : Fin 2) = 0 :=
  (by decide +kernel : ∀ t : Fin grid0.N, _)
theorem idx0_22 : ∀ t : Fin cfg0.N, win0_22.index t (0 : Fin 2) = 0 ∧ win0_22.index t (1 : Fin 2) = 0 :=
  (by decide +kernel : ∀ t : Fin grid0.N, _)
theorem idx0_23 : ∀ t : Fin cfg0.N, win0_23.index t (0 : Fin 2) = 0 ∧ win0_23.index t (1 : Fin 2) = 0 :=
  (by decide +kernel : ∀ t : Fin grid0.N, _)
theorem idx0_24 : ∀ t : Fin cfg0.N, win0_24.index t (0 : Fin 2) = 0 ∧ win0_24.index t (1 : Fin 2) = 0 :=
  (by decide +kernel : ∀ t : Fin grid0.N, _)
theorem idx0_25 : ∀ t : Fin cfg0.N, win0_25.index t (0 : Fin 2) = 0 ∧ win0_25.index t (1 : Fin 2) = 0 :=
  (by decide +kernel : ∀ t : Fin grid0.N, _)

/-! ## A block of an array -/

theorem read_0 (t : Fin cfg0.N) (A : S262144x63.Idx → EReal) (p : Fin 4096) (n : Fin 262144) (hn : n.val = t.val * 4096 + p.val) :
    rowOf (((cfg0.win 0).blk t).view.read (Elt Ideal) A : S4096x63.Idx → EReal) p = rowOf A n := by
  funext k
  obtain ⟨e0, e1⟩ := idxS_0 t
  show A (((cfg0.win 0).blk t).view.emb (ix2 p k)) = A (ix2 n k)
  refine congrArg A (funext fun a => Fin.ext ?_)
  match a with
  | ⟨0, _⟩ => show win0_0.index t (0 : Fin 2) * 4096 + 1 * p.val = n.val; rw [e0, hn]; omega
  | ⟨1, _⟩ => show win0_0.index t (1 : Fin 2) * 63 + 1 * k.val = k.val; rw [e1]; omega

theorem read_1 (t : Fin cfg0.N) (A : S262144x27.Idx → EReal) (p : Fin 4096) (n : Fin 262144) (hn : n.val = t.val * 4096 + p.val) :
    rowOf (((cfg0.win 1).blk t).view.read (Elt Ideal) A : S4096x27.Idx → EReal) p = rowOf A n := by
  funext k
  obtain ⟨e0, e1⟩ := idxS_1 t
  show A (((cfg0.win 1).blk t).view.emb (ix2 p k)) = A (ix2 n k)
  refine congrArg A (funext fun a => Fin.ext ?_)
  match a with
  | ⟨0, _⟩ => show win0_1.index t (0 : Fin 2) * 4096 + 1 * p.val = n.val; rw [e0, hn]; omega
  | ⟨1, _⟩ => show win0_1.index t (1 : Fin 2) * 27 + 1 * k.val = k.val; rw [e1]; omega

theorem read_2 (t : Fin cfg0.N) (A : S63x256.Idx → EReal) :
    (((cfg0.win 2).blk t).view.read (Elt Ideal) A : S63x256.Idx → EReal) = A := by
  funext y
  obtain ⟨e0, e1⟩ := idx0_2 t
  show A (((cfg0.win 2).blk t).view.emb y) = A y
  refine congrArg A (funext fun a => Fin.ext ?_)
  match a with
  | ⟨0, _⟩ => show win0_2.index t (0 : Fin 2) * 63 + 1 * (y 0).val = (y 0).val; rw [e0]; omega
  | ⟨1, _⟩ => show win0_2.index t (1 : Fin 2) * 256 + 1 * (y 1).val = (y 1).val; rw [e1]; omega
theorem read_3 (t : Fin cfg0.N) (A : S1x256.Idx → EReal) :
    (((cfg0.win 3).blk t).view.read (Elt Ideal) A : S1x256.Idx → EReal) = A := by
  funext y
  obtain ⟨e0, e1⟩ := idx0_3 t
  show A (((cfg0.win 3).blk t).view.emb y) = A y
  refine congrArg A (funext fun a => Fin.ext ?_)
  match a with
  | ⟨0, _⟩ => show win0_3.index t (0 : Fin 2) * 1 + 1 * (y 0).val = (y 0).val; rw [e0]; omega
  | ⟨1, _⟩ => show win0_3.index t (1 : Fin 2) * 256 + 1 * (y 1).val = (y 1).val; rw [e1]; omega
theorem read_4 (t : Fin cfg0.N) (A : S256x256.Idx → EReal) :
    (((cfg0.win 4).blk t).view.read (Elt Ideal) A : S256x256.Idx → EReal) = A := by
  funext y
  obtain ⟨e0, e1⟩ := idx0_4 t
  show A (((cfg0.win 4).blk t).view.emb y) = A y
  refine congrArg A (funext fun a => Fin.ext ?_)
  match a with
  | ⟨0, _⟩ => show win0_4.index t (0 : Fin 2) * 256 + 1 * (y 0).val = (y 0).val; rw [e0]; omega
  | ⟨1, _⟩ => show win0_4.index t (1 : Fin 2) * 256 + 1 * (y 1).val = (y 1).val; rw [e1]; omega
theorem read_5 (t : Fin cfg0.N) (A : S1x256.Idx → EReal) :
    (((cfg0.win 5).blk t).view.read (Elt Ideal) A : S1x256.Idx → EReal) = A := by
  funext y
  obtain ⟨e0, e1⟩ := idx0_5 t
  show A (((cfg0.win 5).blk t).view.emb y) = A y
  refine congrArg A (funext fun a => Fin.ext ?_)
  match a with
  | ⟨0, _⟩ => show win0_5.index t (0 : Fin 2) * 1 + 1 * (y 0).val = (y 0).val; rw [e0]; omega
  | ⟨1, _⟩ => show win0_5.index t (1 : Fin 2) * 256 + 1 * (y 1).val = (y 1).val; rw [e1]; omega
theorem read_6 (t : Fin cfg0.N) (A : S256x256.Idx → EReal) :
    (((cfg0.win 6).blk t).view.read (Elt Ideal) A : S256x256.Idx → EReal) = A := by
  funext y
  obtain ⟨e0, e1⟩ := idx0_6 t
  show A (((cfg0.win 6).blk t).view.emb y) = A y
  refine congrArg A (funext fun a => Fin.ext ?_)
  match a with
  | ⟨0, _⟩ => show win0_6.index t (0 : Fin 2) * 256 + 1 * (y 0).val = (y 0).val; rw [e0]; omega
  | ⟨1, _⟩ => show win0_6.index t (1 : Fin 2) * 256 + 1 * (y 1).val = (y 1).val; rw [e1]; omega
theorem read_7 (t : Fin cfg0.N) (A : S1x256.Idx → EReal) :
    (((cfg0.win 7).blk t).view.read (Elt Ideal) A : S1x256.Idx → EReal) = A := by
  funext y
  obtain ⟨e0, e1⟩ := idx0_7 t
  show A (((cfg0.win 7).blk t).view.emb y) = A y
  refine congrArg A (funext fun a => Fin.ext ?_)
  match a with
  | ⟨0, _⟩ => show win0_7.index t (0 : Fin 2) * 1 + 1 * (y 0).val = (y 0).val; rw [e0]; omega
  | ⟨1, _⟩ => show win0_7.index t (1 : Fin 2) * 256 + 1 * (y 1).val = (y 1).val; rw [e1]; omega
theorem read_8 (t : Fin cfg0.N) (A : S256x256.Idx → EReal) :
    (((cfg0.win 8).blk t).view.read (Elt Ideal) A : S256x256.Idx → EReal) = A := by
  funext y
  obtain ⟨e0, e1⟩ := idx0_8 t
  show A (((cfg0.win 8).blk t).view.emb y) = A y
  refine congrArg A (funext fun a => Fin.ext ?_)
  match a with
  | ⟨0, _⟩ => show win0_8.index t (0 : Fin 2) * 256 + 1 * (y 0).val = (y 0).val; rw [e0]; omega
  | ⟨1, _⟩ => show win0_8.index t (1 : Fin 2) * 256 + 1 * (y 1).val = (y 1).val; rw [e1]; omega
theorem read_9 (t : Fin cfg0.N) (A : S1x256.Idx → EReal) :
    (((cfg0.win 9).blk t).view.read (Elt Ideal) A : S1x256.Idx → EReal) = A := by
  funext y
  obtain ⟨e0, e1⟩ := idx0_9 t
  show A (((cfg0.win 9).blk t).view.emb y) = A y
  refine congrArg A (funext fun a => Fin.ext ?_)
  match a with
  | ⟨0, _⟩ => show win0_9.index t (0 : Fin 2) * 1 + 1 * (y 0).val = (y 0).val; rw [e0]; omega
  | ⟨1, _⟩ => show win0_9.index t (1 : Fin 2) * 256 + 1 * (y 1).val = (y 1).val; rw [e1]; omega
theorem read_10 (t : Fin cfg0.N) (A : S256x256.Idx → EReal) :
    (((cfg0.win 10).blk t).view.read (Elt Ideal) A : S256x256.Idx → EReal) = A := by
  funext y
  obtain ⟨e0, e1⟩ := idx0_10 t
  show A (((cfg0.win 10).blk t).view.emb y) = A y
  refine congrArg A (funext fun a => Fin.ext ?_)
  match a with
  | ⟨0, _⟩ => show win0_10.index t (0 : Fin 2) * 256 + 1 * (y 0).val = (y 0).val; rw [e0]; omega
  | ⟨1, _⟩ => show win0_10.index t (1 : Fin 2) * 256 + 1 * (y 1).val = (y 1).val; rw [e1]; omega
theorem read_11 (t : Fin cfg0.N) (A : S1x256.Idx → EReal) :
    (((cfg0.win 11).blk t).view.read (Elt Ideal) A : S1x256.Idx → EReal) = A := by
  funext y
  obtain ⟨e0, e1⟩ := idx0_11 t
  show A (((cfg0.win 11).blk t).view.emb y) = A y
  refine congrArg A (funext fun a => Fin.ext ?_)
  match a with
  | ⟨0, _⟩ => show win0_11.index t (0 : Fin 2) * 1 + 1 * (y 0).val = (y 0).val; rw [e0]; omega
  | ⟨1, _⟩ => show win0_11.index t (1 : Fin 2) * 256 + 1 * (y 1).val = (y 1).val; rw [e1]; omega
theorem read_12 (t : Fin cfg0.N) (A : S63x256.Idx → EReal) :
    (((cfg0.win 12).blk t).view.read (Elt Ideal) A : S63x256.Idx → EReal) = A := by
  funext y
  obtain ⟨e0, e1⟩ := idx0_12 t
  show A (((cfg0.win 12).blk t).view.emb y) = A y
  refine congrArg A (funext fun a => Fin.ext ?_)
  match a with
  | ⟨0, _⟩ => show win0_12.index t (0 : Fin 2) * 63 + 1 * (y 0).val = (y 0).val; rw [e0]; omega
  | ⟨1, _⟩ => show win0_12.index t (1 : Fin 2) * 256 + 1 * (y 1).val = (y 1).val; rw [e1]; omega
theorem read_13 (t : Fin cfg0.N) (A : S256x256.Idx → EReal) :
    (((cfg0.win 13).blk t).view.read (Elt Ideal) A : S256x256.Idx → EReal) = A := by
  funext y
  obtain ⟨e0, e1⟩ := idx0_13 t
  show A (((cfg0.win 13).blk t).view.emb y) = A y
  refine congrArg A (funext fun a => Fin.ext ?_)
  match a with
  | ⟨0, _⟩ => show win0_13.index t (0 : Fin 2) * 256 + 1 * (y 0).val = (y 0).val; rw [e0]; omega
  | ⟨1, _⟩ => show win0_13.index t (1 : Fin 2) * 256 + 1 * (y 1).val = (y 1).val; rw [e1]; omega
theorem read_14 (t : Fin cfg0.N) (A : S1x256.Idx → EReal) :
    (((cfg0.win 14).blk t).view.read (Elt Ideal) A : S1x256.Idx → EReal) = A := by
  funext y
  obtain ⟨e0, e1⟩ := idx0_14 t
  show A (((cfg0.win 14).blk t).view.emb y) = A y
  refine congrArg A (funext fun a => Fin.ext ?_)
  match a with
  | ⟨0, _⟩ => show win0_14.index t (0 : Fin 2) * 1 + 1 * (y 0).val = (y 0).val; rw [e0]; omega
  | ⟨1, _⟩ => show win0_14.index t (1 : Fin 2) * 256 + 1 * (y 1).val = (y 1).val; rw [e1]; omega
theorem read_15 (t : Fin cfg0.N) (A : S256x256.Idx → EReal) :
    (((cfg0.win 15).blk t).view.read (Elt Ideal) A : S256x256.Idx → EReal) = A := by
  funext y
  obtain ⟨e0, e1⟩ := idx0_15 t
  show A (((cfg0.win 15).blk t).view.emb y) = A y
  refine congrArg A (funext fun a => Fin.ext ?_)
  match a with
  | ⟨0, _⟩ => show win0_15.index t (0 : Fin 2) * 256 + 1 * (y 0).val = (y 0).val; rw [e0]; omega
  | ⟨1, _⟩ => show win0_15.index t (1 : Fin 2) * 256 + 1 * (y 1).val = (y 1).val; rw [e1]; omega
theorem read_16 (t : Fin cfg0.N) (A : S1x256.Idx → EReal) :
    (((cfg0.win 16).blk t).view.read (Elt Ideal) A : S1x256.Idx → EReal) = A := by
  funext y
  obtain ⟨e0, e1⟩ := idx0_16 t
  show A (((cfg0.win 16).blk t).view.emb y) = A y
  refine congrArg A (funext fun a => Fin.ext ?_)
  match a with
  | ⟨0, _⟩ => show win0_16.index t (0 : Fin 2) * 1 + 1 * (y 0).val = (y 0).val; rw [e0]; omega
  | ⟨1, _⟩ => show win0_16.index t (1 : Fin 2) * 256 + 1 * (y 1).val = (y 1).val; rw [e1]; omega
theorem read_17 (t : Fin cfg0.N) (A : S256x256.Idx → EReal) :
    (((cfg0.win 17).blk t).view.read (Elt Ideal) A : S256x256.Idx → EReal) = A := by
  funext y
  obtain ⟨e0, e1⟩ := idx0_17 t
  show A (((cfg0.win 17).blk t).view.emb y) = A y
  refine congrArg A (funext fun a => Fin.ext ?_)
  match a with
  | ⟨0, _⟩ => show win0_17.index t (0 : Fin 2) * 256 + 1 * (y 0).val = (y 0).val; rw [e0]; omega
  | ⟨1, _⟩ => show win0_17.index t (1 : Fin 2) * 256 + 1 * (y 1).val = (y 1).val; rw [e1]; omega
theorem read_18 (t : Fin cfg0.N) (A : S1x256.Idx → EReal) :
    (((cfg0.win 18).blk t).view.read (Elt Ideal) A : S1x256.Idx → EReal) = A := by
  funext y
  obtain ⟨e0, e1⟩ := idx0_18 t
  show A (((cfg0.win 18).blk t).view.emb y) = A y
  refine congrArg A (funext fun a => Fin.ext ?_)
  match a with
  | ⟨0, _⟩ => show win0_18.index t (0 : Fin 2) * 1 + 1 * (y 0).val = (y 0).val; rw [e0]; omega
  | ⟨1, _⟩ => show win0_18.index t (1 : Fin 2) * 256 + 1 * (y 1).val = (y 1).val; rw [e1]; omega
theorem read_19 (t : Fin cfg0.N) (A : S256x128.Idx → EReal) :
    (((cfg0.win 19).blk t).view.read (Elt Ideal) A : S256x128.Idx → EReal) = A := by
  funext y
  obtain ⟨e0, e1⟩ := idx0_19 t
  show A (((cfg0.win 19).blk t).view.emb y) = A y
  refine congrArg A (funext fun a => Fin.ext ?_)
  match a with
  | ⟨0, _⟩ => show win0_19.index t (0 : Fin 2) * 256 + 1 * (y 0).val = (y 0).val; rw [e0]; omega
  | ⟨1, _⟩ => show win0_19.index t (1 : Fin 2) * 128 + 1 * (y 1).val = (y 1).val; rw [e1]; omega
theorem read_20 (t : Fin cfg0.N) (A : S27x128.Idx → EReal) :
    (((cfg0.win 20).blk t).view.read (Elt Ideal) A : S27x128.Idx → EReal) = A := by
  funext y
  obtain ⟨e0, e1⟩ := idx0_20 t
  show A (((cfg0.win 20).blk t).view.emb y) = A y
  refine congrArg A (funext fun a => Fin.ext ?_)
  match a with
  | ⟨0, _⟩ => show win0_20.index t (0 : Fin 2) * 27 + 1 * (y 0).val = (y 0).val; rw [e0]; omega
  | ⟨1, _⟩ => show win0_20.index t (1 : Fin 2) * 128 + 1 * (y 1).val = (y 1).val; rw [e1]; omega
theorem read_21 (t : Fin cfg0.N) (A : S1x128.Idx → EReal) :
    (((cfg0.win 21).blk t).view.read (Elt Ideal) A : S1x128.Idx → EReal) = A := by
  funext y
  obtain ⟨e0, e1⟩ := idx0_21 t
  show A (((cfg0.win 21).blk t).view.emb y) = A y
  refine congrArg A (funext fun a => Fin.ext ?_)
  match a with
  | ⟨0, _⟩ => show win0_21.index t (0 : Fin 2) * 1 + 1 * (y 0).val = (y 0).val; rw [e0]; omega
  | ⟨1, _⟩ => show win0_21.index t (1 : Fin 2) * 128 + 1 * (y 1).val = (y 1).val; rw [e1]; omega
theorem read_22 (t : Fin cfg0.N) (A : S256x384.Idx → EReal) :
    (((cfg0.win 22).blk t).view.read (Elt Ideal) A : S256x384.Idx → EReal) = A := by
  funext y
  obtain ⟨e0, e1⟩ := idx0_22 t
  show A (((cfg0.win 22).blk t).view.emb y) = A y
  refine congrArg A (funext fun a => Fin.ext ?_)
  match a with
  | ⟨0, _⟩ => show win0_22.index t (0 : Fin 2) * 256 + 1 * (y 0).val = (y 0).val; rw [e0]; omega
  | ⟨1, _⟩ => show win0_22.index t (1 : Fin 2) * 384 + 1 * (y 1).val = (y 1).val; rw [e1]; omega
theorem read_23 (t : Fin cfg0.N) (A : S1x384.Idx → EReal) :
    (((cfg0.win 23).blk t).view.read (Elt Ideal) A : S1x384.Idx → EReal) = A := by
  funext y
  obtain ⟨e0, e1⟩ := idx0_23 t
  show A (((cfg0.win 23).blk t).view.emb y) = A y
  refine congrArg A (funext fun a => Fin.ext ?_)
  match a with
  | ⟨0, _⟩ => show win0_23.index t (0 : Fin 2) * 1 + 1 * (y 0).val = (y 0).val; rw [e0]; omega
  | ⟨1, _⟩ => show win0_23.index t (1 : Fin 2) * 384 + 1 * (y 1).val = (y 1).val; rw [e1]; omega
theorem read_24 (t : Fin cfg0.N) (A : S128x3.Idx → EReal) :
    (((cfg0.win 24).blk t).view.read (Elt Ideal) A : S128x3.Idx → EReal) = A := by
  funext y
  obtain ⟨e0, e1⟩ := idx0_24 t
  show A (((cfg0.win 24).blk t).view.emb y) = A y
  refine congrArg A (funext fun a => Fin.ext ?_)
  match a with
  | ⟨0, _⟩ => show win0_24.index t (0 : Fin 2) * 128 + 1 * (y 0).val = (y 0).val; rw [e0]; omega
  | ⟨1, _⟩ => show win0_24.index t (1 : Fin 2) * 3 + 1 * (y 1).val = (y 1).val; rw [e1]; omega
theorem read_25 (t : Fin cfg0.N) (A : S1x3.Idx → EReal) :
    (((cfg0.win 25).blk t).view.read (Elt Ideal) A : S1x3.Idx → EReal) = A := by
  funext y
  obtain ⟨e0, e1⟩ := idx0_25 t
  show A (((cfg0.win 25).blk t).view.emb y) = A y
  refine congrArg A (funext fun a => Fin.ext ?_)
  match a with
  | ⟨0, _⟩ => show win0_25.index t (0 : Fin 2) * 1 + 1 * (y 0).val = (y 0).val; rw [e0]; omega
  | ⟨1, _⟩ => show win0_25.index t (1 : Fin 2) * 3 + 1 * (y 1).val = (y 1).val; rw [e1]; omega

/-- Where element `(p, q)` of the result's block `t` sits in the result array. -/
theorem emb_26 (t : Fin cfg0.N) (p : Fin 4096) (q : Fin 4) (n : Fin 262144) (hn : n.val = t.val * 4096 + p.val) :
    ((cfg0.win 26).blk t).view.emb (ix2 p q) = ix2 n q := by
  obtain ⟨e0, e1⟩ := idxS_26 t
  refine funext fun a => Fin.ext ?_
  match a with
  | ⟨0, _⟩ => show win0_26.index t (0 : Fin 2) * 4096 + 1 * p.val = n.val; rw [e0, hn]; omega
  | ⟨1, _⟩ => show win0_26.index t (1 : Fin 2) * 4 + 1 * q.val = q.val; rw [e1]; omega

/-- An index of the result is in point `t`'s block iff its row is among the block's 4096 rows. -/
theorem mem_blk (t : Fin cfg0.N) (i : S262144x4.Idx) :
    i ∈ ((cfg0.win 26).blk t).view.set ↔ ∀ a : Fin 2, win0_26.index t a * S4096x4.size a ≤ (i a).val ∧ (i a).val < win0_26.index t a * S4096x4.size a + S4096x4.size a := by
  show i ∈ ((View.whole main_v74).slice (win0_26.rect t)).set ↔ _
  rw [View.set_slice_whole, Rect.mem_set_unit]
  exact Iff.rfl

/-- Row `r` is covered by point `r / 4096`. -/
theorem cover (i : S262144x4.Idx) : ∃ t : Fin cfg0.N, (cfg0.win 26).flush t = true ∧ i ∈ ((cfg0.win 26).blk t).view.set := by
  have h0 : (i 0).val < 262144 := (i 0).isLt
  have h1 : (i 1).val < 4 := (i 1).isLt
  let t : Fin cfg0.N := ⟨(i 0).val / 4096, Nat.lt_of_lt_of_eq (by omega : (i 0).val / 4096 < 64) N_0.symm⟩
  have htv : t.val = (i 0).val / 4096 := rfl
  obtain ⟨e0, e1⟩ := idxS_26 t
  refine ⟨t, flush0_26 t, ?_⟩
  rw [mem_blk]
  intro a
  match a with
  | ⟨0, _⟩ => show win0_26.index t (0 : Fin 2) * 4096 ≤ (i 0).val ∧ (i 0).val < win0_26.index t (0 : Fin 2) * 4096 + 4096; rw [e0, htv]; omega
  | ⟨1, _⟩ => show win0_26.index t (1 : Fin 2) * 4 ≤ (i 1).val ∧ (i 1).val < win0_26.index t (1 : Fin 2) * 4 + 4; rw [e1]; omega

end Cert.KernelIdeal.Arr

end
-- ==== Proof.IdealArray.lean ====
/-
  From tiles to the whole result array.

  What the body stores at tile `t` is rows `4096 t …` of ONE function of the call's arrays — the split arrangement of
  the network applied to each row — and since the 64 tiles cover all rows, the result array ends holding that function.
-/
import proofs.«140130_j7078106103925_2_alg».proof.Proof.IdealRun
import proofs.«140130_j7078106103925_2_alg».proof.Proof.IdealTile
import proofs.«140130_j7078106103925_2_alg».proof.Proof.IdealBlocks

set_option maxRecDepth 16384

noncomputable section

namespace Cert.KernelIdeal.Arr

open Cert.KernelIdeal Cert.KernelIdeal.Gen Cert.KernelIdeal.Frm Cert.KernelIdeal.Rows
open Idealize.ShloMosaic Idealize.ShloMosaic.TcCoe Idealize.ShloMosaic.ValueIdx Idealize.SL.Sem Cert.RowNet Cert.TileRows
open Idealize.ShloMosaic.Pipeline (Dat Cfg Window)

variable (m : (ℓ : Loc nD τ sig) → Buf (Elt Ideal) ℓ) (ρ : Dev nD → PrngReg)

/-- The call's result as one function of its 26 input arrays as the call finds them: each row through the split
    arrangement of the network. -/
def resultV (c : Dev nD) : S262144x4.Idx → EReal := fun i =>
  splitRow (rowOf (V m c main_v40) (i 0)) (rowOf (V m c main_v41) (i 0)) (matOf (V m c main_v50)) (vecOf (V m c main_v57)) (matOf (V m c main_v51)) (vecOf (V m c main_v58)) (matOf (V m c main_v52)) (vecOf (V m c main_v59)) (matOf (V m c main_v53)) (vecOf (V m c main_v60)) (matOf (V m c main_v54)) (vecOf (V m c main_v61)) (matOf (V m c main_v64)) (matOf (V m c main_v65)) (vecOf (V m c main_v66)) (matOf (V m c main_v55)) (vecOf (V m c main_v62)) (matOf (V m c main_v56)) (vecOf (V m c main_v63)) (matOf (V m c main_v67)) (matOf (V m c main_v68)) (vecOf (V m c main_v69)) (matOf (V m c main_v70)) (vecOf (V m c main_v71)) (matOf (V m c main_v72)) (vecOf (V m c main_v73)) (i 1)

set_option maxHeartbeats 2000000 in
/-- Point `t` writes back rows `4096 t …` of that function. -/
theorem flushed_eq (c : Dev nD) (t : Fin cfg0.N) :
    (dats m 0 c).flushed 26 t = ((cfg0.win 26).blk t).view.read (Elt Ideal) (resultV m c) := by
  show (cfg0.win 26).cut (grid0.coords t) ((dats m 0 c).after 26 t) = _
  rw [after0_26]
  funext j
  obtain ⟨p, q, rfl⟩ : ∃ (p : Fin 4096) (q : Fin 4), j = ix2 p q := ⟨j 0, j 1, eq_ix2 j⟩
  have ht : t.val < 64 := Nat.lt_of_lt_of_eq t.isLt N_0
  let n : Fin 262144 := ⟨t.val * 4096 + p.val, by have := p.isLt; omega⟩
  have hn : n.val = t.val * 4096 + p.val := rfl
  have r0 : rowOf (iblk m c 0 t : S4096x63.Idx → EReal) p = rowOf (V m c main_v40 : S262144x63.Idx → EReal) n := read_0 t (V m c main_v40) p n hn
  have r1 : rowOf (iblk m c 1 t : S4096x27.Idx → EReal) p = rowOf (V m c main_v41 : S262144x27.Idx → EReal) n := read_1 t (V m c main_v41) p n hn
  have r2 : (iblk m c 2 t : S63x256.Idx → EReal) = V m c main_v50 := read_2 t (V m c main_v50)
  have r3 : (iblk m c 3 t : S1x256.Idx → EReal) = V m c main_v57 := read_3 t (V m c main_v57)
  have r4 : (iblk m c 4 t : S256x256.Idx → EReal) = V m c main_v51 := read_4 t (V m c main_v51)
  have r5 : (iblk m c 5 t : S1x256.Idx → EReal) = V m c main_v58 := read_5 t (V m c main_v58)
  have r6 : (iblk m c 6 t : S256x256.Idx → EReal) = V m c main_v52 := read_6 t (V m c main_v52)
  have r7 : (iblk m c 7 t : S1x256.Idx → EReal) = V m c main_v59 := read_7 t (V m c main_v59)
  have r8 : (iblk m c 8 t : S256x256.Idx → EReal) = V m c main_v53 := read_8 t (V m c main_v53)
  have r9 : (iblk m c 9 t : S1x256.Idx → EReal) = V m c main_v60 := read_9 t (V m c main_v60)
  have r10 : (iblk m c 10 t : S256x256.Idx → EReal) = V m c main_v54 := read_10 t (V m c main_v54)
  have r11 : (iblk m c 11 t : S1x256.Idx → EReal) = V m c main_v61 := read_11 t (V m c main_v61)
  have r12 : (iblk m c 12 t : S63x256.Idx → EReal) = V m c main_v64 := read_12 t (V m c main_v64)
  have r13 : (iblk m c 13 t : S256x256.Idx → EReal) = V m c main_v65 := read_13 t (V m c main_v65)
  have r14 : (iblk m c 14 t : S1x256.Idx → EReal) = V m c main_v66 := read_14 t (V m c main_v66)
  have r15 : (iblk m c 15 t : S256x256.Idx → EReal) = V m c main_v55 := read_15 t (V m c main_v55)
  have r16 : (iblk m c 16 t : S1x256.Idx → EReal) = V m c main_v62 := read_16 t (V m c main_v62)
  have r17 : (iblk m c 17 t : S256x256.Idx → EReal) = V m c main_v56 := read_17 t (V m c main_v56)
  have r18 : (iblk m c 18 t : S1x256.Idx → EReal) = V m c main_v63 := read_18 t (V m c main_v63)
  have r19 : (iblk m c 19 t : S256x128.Idx → EReal) = V m c main_v67 := read_19 t (V m c main_v67)
  have r20 : (iblk m c 20 t : S27x128.Idx → EReal) = V m c main_v68 := read_20 t (V m c main_v68)
  have r21 : (iblk m c 21 t : S1x128.Idx → EReal) = V m c main_v69 := read_21 t (V m c main_v69)
  have r22 : (iblk m c 22 t : S256x384.Idx → EReal) = V m c main_v70 := read_22 t (V m c main_v70)
  have r23 : (iblk m c 23 t : S1x384.Idx → EReal) = V m c main_v71 := read_23 t (V m c main_v71)
  have r24 : (iblk m c 24 t : S128x3.Idx → EReal) = V m c main_v72 := read_24 t (V m c main_v72)
  have r25 : (iblk m c 25 t : S1x3.Idx → EReal) = V m c main_v73 := read_25 t (V m c main_v73)
  show tileOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (ix2 p q) = resultV m c (((cfg0.win 26).blk t).view.emb (ix2 p q))
  refine (tileOut_rows (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) p q).trans ?_
  rw [emb_26 t p q n hn]
  unfold resultV
  rw [r0, r1, r2, r3, r4, r5, r6, r7, r8, r9, r10, r11, r12, r13, r14, r15, r16, r17, r18, r19, r20, r21, r22, r23, r24, r25]

/-- The result array after the run. -/
theorem final (c : Dev nD) : (dats m 0 c).arrAt 26 cfg0.N = resultV m c :=
  (dats m 0 c).arrAt_eq_of_cover 26 (resultV m c) (fun t _ => flushed_eq m c t) (cover)

end Cert.KernelIdeal.Arr

end
-- ==== Proof.IdealValue.lean ====
/-
  The tiled program's result.

  After the call the program re-lays the 262144 × 4 result array to rays × samples × 4. The call's result array is
  none of the buffers the re-laying writes, so the program's result is the re-laying of the function the 64 tiles
  assemble.
-/
import proofs.«140130_j7078106103925_2_alg».proof.Proof.IdealArray

set_option maxRecDepth 16384

noncomputable section

namespace Cert.KernelIdeal.Arr

open Cert.KernelIdeal Cert.KernelIdeal.Gen Cert.KernelIdeal.Frm Cert.KernelIdeal.Rows
open Idealize.ShloMosaic Idealize.ShloMosaic.TcCoe Idealize.ShloMosaic.ValueIdx Idealize.SL.Sem Idealize.ShloMosaic.StableHlo Cert.RowNet Cert.TileRows
open Idealize.ShloMosaic.Pipeline (Dat Cfg Window)

variable (m : (ℓ : Loc nD τ sig) → Buf (Elt Ideal) ℓ) (ρ : Dev nD → PrngReg)

/-- The program's result buffer after the re-laying: the result array, re-laid. -/
theorem tail_result (c : Dev nD) :
    Pipeline.afterTail₀ cfgs (dats m) 0 (V0 m) [hostOps1] c main_v75
      = shapeCast S4096x64x4 (resultV m c) shapeCasts_S262144x4_S4096x64x4 := by
  unfold Pipeline.afterTail₀
  show StableHlo.after hostOps1 _ (Proc.devRef .tc main_v75) = _
  after_results
  have hX := (Pipeline.withArrays_arr spec0 launch0.win.arr_inj c (V0 m c) (fun w => (dats m 0 c).arrAt w cfg0.N) 26).trans (final m c)
  funext i
  show shapeCast S4096x64x4 (Pipeline.withArrays spec0 c (V0 m c) (fun w => (dats m 0 c).arrAt w cfg0.N) (Proc.devRef .tc (Pipeline.arrRef spec0 26))) shapeCasts_S262144x4_S4096x64x4 i = _
  rw [hX]

set_option backward.isDefEq.respectTransparency.types false in
/-- The tiled program runs to its end with its result at the re-laid `resultV` and its arguments unchanged. -/
theorem run : θ_run defs (onTc (τ := τ) (main (F := Ideal))) ⟨m, fun _ => 0, ρ⟩ (fun r => ∀ c : Dev nD,
      r.2.mem ((c.tc : Thread nD τ).loc main_v75) = shapeCast S4096x64x4 (resultV m c) shapeCasts_S262144x4_S4096x64x4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun _ h c => ⟨((h c).2 main_v75 (Pipeline.mem_restRefs_of main_v75 (by decide) (by decide))).trans (tail_result m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c),
    ((h c).2 main_arg15 (Pipeline.mem_restRefs_of main_arg15 (by decide) (by decide))).trans (W_main_arg15 m (dats m) c),
    ((h c).2 main_arg16 (Pipeline.mem_restRefs_of main_arg16 (by decide) (by decide))).trans (W_main_arg16 m (dats m) c),
    ((h c).2 main_arg17 (Pipeline.mem_restRefs_of main_arg17 (by decide) (by decide))).trans (W_main_arg17 m (dats m) c),
    ((h c).2 main_arg18 (Pipeline.mem_restRefs_of main_arg18 (by decide) (by decide))).trans (W_main_arg18 m (dats m) c),
    ((h c).2 main_arg19 (Pipeline.mem_restRefs_of main_arg19 (by decide) (by decide))).trans (W_main_arg19 m (dats m) c),
    ((h c).2 main_arg20 (Pipeline.mem_restRefs_of main_arg20 (by decide) (by decide))).trans (W_main_arg20 m (dats m) c),
    ((h c).2 main_arg21 (Pipeline.mem_restRefs_of main_arg21 (by decide) (by decide))).trans (W_main_arg21 m (dats m) c),
    ((h c).2 main_arg22 (Pipeline.mem_restRefs_of main_arg22 (by decide) (by decide))).trans (W_main_arg22 m (dats m) c),
    ((h c).2 main_arg23 (Pipeline.mem_restRefs_of main_arg23 (by decide) (by decide))).trans (W_main_arg23 m (dats m) c),
    ((h c).2 main_arg24 (Pipeline.mem_restRefs_of main_arg24 (by decide) (by decide))).trans (W_main_arg24 m (dats m) c),
    ((h c).2 main_arg25 (Pipeline.mem_restRefs_of main_arg25 (by decide) (by decide))).trans (W_main_arg25 m (dats m) c)⟩) (run_main m ρ)

end Cert.KernelIdeal.Arr

end
-- ==== Proof.GlueA.lean ====
/-
  What the tiled call finds in its 26 input arrays, as functions of the program's arguments: the host operations
  before the call, composed. The two streamed inputs are the positional embeddings, rounded; the resident operands are
  the weights rounded (two of them cut at a row first, two heads joined first) and the biases as one-row matrices.
-/
import proofs.«140130_j7078106103925_2_alg».proof.Proof.Gen.KernelIdeal.Launch
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo

variable {F : FTy → Type} [FloatOps F]

/-- The positional embedding of the sample points, re-laid to one row per sample: each point beside the sines and
    cosines of its coordinates at ten doubling frequencies (63 entries). -/
def embedPts (x0 : (⟨S4096x64x3, .f32⟩ : BufTy).Contents (Elt F)) : (⟨S262144x63, .f32⟩ : BufTy).Contents (Elt F) :=
  (shapeCast S262144x63 (((fun a b => concatenate S4096x64x63 2 [⟨S4096x64x3, a⟩, ⟨S4096x64x60, b⟩] concatenates_S4096x64x3_S4096x64x60_S4096x64x63_d2) : (⟨S4096x64x3, .f32⟩ : BufTy).Contents (Elt F) → (⟨S4096x64x60, .f32⟩ : BufTy).Contents (Elt F) → (⟨S4096x64x63, .f32⟩ : BufTy).Contents (Elt F)) x0 (shapeCast S4096x64x60 (((fun a b => concatenate S4096x64x10x2x3 3 [⟨S4096x64x10x1x3, a⟩, ⟨S4096x64x10x1x3, b⟩] concatenates_S4096x64x10x1x3_S4096x64x10x1x3_S4096x64x10x2x3_d3) : (⟨S4096x64x10x1x3, .f32⟩ : BufTy).Contents (Elt F) → (⟨S4096x64x10x1x3, .f32⟩ : BufTy).Contents (Elt F) → (⟨S4096x64x10x2x3, .f32⟩ : BufTy).Contents (Elt F)) ((broadcastInDim S4096x64x10x1x3 ![0, 1, 2, 4] bcast_S4096x64x10x3_S4096x64x10x1x3_0_1_2_4 : (⟨S4096x64x10x3, .f32⟩ : BufTy).Contents (Elt F) → (⟨S4096x64x10x1x3, .f32⟩ : BufTy).Contents (Elt F)) ((Host.sin : (⟨S4096x64x10x3, .f32⟩ : BufTy).Contents (Elt F) → (⟨S4096x64x10x3, .f32⟩ : BufTy).Contents (Elt F)) ((mulf : (⟨S4096x64x10x3, .f32⟩ : BufTy).Contents (Elt F) → (⟨S4096x64x10x3, .f32⟩ : BufTy).Contents (Elt F) → (⟨S4096x64x10x3, .f32⟩ : BufTy).Contents (Elt F)) ((broadcastInDim S4096x64x10x3 ![0, 1, 2, 3] bcast_S4096x64x1x3_S4096x64x10x3_0_1_2_3 : (⟨S4096x64x1x3, .f32⟩ : BufTy).Contents (Elt F) → (⟨S4096x64x10x3, .f32⟩ : BufTy).Contents (Elt F)) ((broadcastInDim S4096x64x1x3 ![0, 1, 3] bcast_S4096x64x3_S4096x64x1x3_0_1_3 : (⟨S4096x64x3, .f32⟩ : BufTy).Contents (Elt F) → (⟨S4096x64x1x3, .f32⟩ : BufTy).Contents (Elt F)) x0)) ((broadcastInDim S4096x64x10x3 ![0, 1, 2, 3] bcast_S1x1x10x1_S4096x64x10x3_0_1_2_3 : (⟨S1x1x10x1, .f32⟩ : BufTy).Contents (Elt F) → (⟨S4096x64x10x3, .f32⟩ : BufTy).Contents (Elt F)) ((broadcastInDim S1x1x10x1 ![2, 3] bcast_S10x1_S1x1x10x1_2_3 : (⟨S10x1, .f32⟩ : BufTy).Contents (Elt F) → (⟨S1x1x10x1, .f32⟩ : BufTy).Contents (Elt F)) ((broadcastInDim S10x1 ![0] bcast_S10_S10x1_0 : (⟨S10, .f32⟩ : BufTy).Contents (Elt F) → (⟨S10x1, .f32⟩ : BufTy).Contents (Elt F)) ((Host.powf : (⟨S10, .f32⟩ : BufTy).Contents (Elt F) → (⟨S10, .f32⟩ : BufTy).Contents (Elt F) → (⟨S10, .f32⟩ : BufTy).Contents (Elt F)) ((broadcastInDim S10 ![] bcast_S_S10 : (⟨S_, .f32⟩ : BufTy).Contents (Elt F) → (⟨S10, .f32⟩ : BufTy).Contents (Elt F)) ((constant S_ .f32 0x40000000#32))) ((sitofp .f32 : (⟨S10, .i32⟩ : BufTy).Contents (Elt F) → (⟨S10, .f32⟩ : BufTy).Contents (Elt F)) ((iotaInDim S10 32 0)))))))))) ((broadcastInDim S4096x64x10x1x3 ![0, 1, 2, 4] bcast_S4096x64x10x3_S4096x64x10x1x3_0_1_2_4 : (⟨S4096x64x10x3, .f32⟩ : BufTy).Contents (Elt F) → (⟨S4096x64x10x1x3, .f32⟩ : BufTy).Contents (Elt F)) ((Host.cos : (⟨S4096x64x10x3, .f32⟩ : BufTy).Contents (Elt F) → (⟨S4096x64x10x3, .f32⟩ : BufTy).Contents (Elt F)) ((mulf : (⟨S4096x64x10x3, .f32⟩ : BufTy).Contents (Elt F) → (⟨S4096x64x10x3, .f32⟩ : BufTy).Contents (Elt F) → (⟨S4096x64x10x3, .f32⟩ : BufTy).Contents (Elt F)) ((broadcastInDim S4096x64x10x3 ![0, 1, 2, 3] bcast_S4096x64x1x3_S4096x64x10x3_0_1_2_3 : (⟨S4096x64x1x3, .f32⟩ : BufTy).Contents (Elt F) → (⟨S4096x64x10x3, .f32⟩ : BufTy).Contents (Elt F)) ((broadcastInDim S4096x64x1x3 ![0, 1, 3] bcast_S4096x64x3_S4096x64x1x3_0_1_3 : (⟨S4096x64x3, .f32⟩ : BufTy).Contents (Elt F) → (⟨S4096x64x1x3, .f32⟩ : BufTy).Contents (Elt F)) x0)) ((broadcastInDim S4096x64x10x3 ![0, 1, 2, 3] bcast_S1x1x10x1_S4096x64x10x3_0_1_2_3 : (⟨S1x1x10x1, .f32⟩ : BufTy).Contents (Elt F) → (⟨S4096x64x10x3, .f32⟩ : BufTy).Contents (Elt F)) ((broadcastInDim S1x1x10x1 ![2, 3] bcast_S10x1_S1x1x10x1_2_3 : (⟨S10x1, .f32⟩ : BufTy).Contents (Elt F) → (⟨S1x1x10x1, .f32⟩ : BufTy).Contents (Elt F)) ((broadcastInDim S10x1 ![0] bcast_S10_S10x1_0 : (⟨S10, .f32⟩ : BufTy).Contents (Elt F) → (⟨S10x1, .f32⟩ : BufTy).Contents (Elt F)) ((Host.powf : (⟨S10, .f32⟩ : BufTy).Contents (Elt F) → (⟨S10, .f32⟩ : BufTy).Contents (Elt F) → (⟨S10, .f32⟩ : BufTy).Contents (Elt F)) ((broadcastInDim S10 ![] bcast_S_S10 : (⟨S_, .f32⟩ : BufTy).Contents (Elt F) → (⟨S10, .f32⟩ : BufTy).Contents (Elt F)) ((constant S_ .f32 0x40000000#32))) ((sitofp .f32 : (⟨S10, .i32⟩ : BufTy).Contents (Elt F) → (⟨S10, .f32⟩ : BufTy).Contents (Elt F)) ((iotaInDim S10 32 0))))))))))) shapeCasts_S4096x64x10x2x3_S4096x64x60)) shapeCasts_S4096x64x63_S262144x63)

/-- The positional embedding of the view directions (four frequencies, 27 entries), repeated for the 64 samples of
    each ray and re-laid to one row per sample. -/
def embedDirs (x1 : (⟨S4096x3, .f32⟩ : BufTy).Contents (Elt F)) : (⟨S262144x27, .f32⟩ : BufTy).Contents (Elt F) :=
  (shapeCast S262144x27 ((broadcastInDim S4096x64x27 ![0, 1, 2] bcast_S4096x1x27_S4096x64x27_0_1_2 : (⟨S4096x1x27, .f32⟩ : BufTy).Contents (Elt F) → (⟨S4096x64x27, .f32⟩ : BufTy).Contents (Elt F)) ((broadcastInDim S4096x1x27 ![0, 2] bcast_S4096x27_S4096x1x27_0_2 : (⟨S4096x27, .f32⟩ : BufTy).Contents (Elt F) → (⟨S4096x1x27, .f32⟩ : BufTy).Contents (Elt F)) (((fun a b => concatenate S4096x27 1 [⟨S4096x3, a⟩, ⟨S4096x24, b⟩] concatenates_S4096x3_S4096x24_S4096x27_d1) : (⟨S4096x3, .f32⟩ : BufTy).Contents (Elt F) → (⟨S4096x24, .f32⟩ : BufTy).Contents (Elt F) → (⟨S4096x27, .f32⟩ : BufTy).Contents (Elt F)) x1 (shapeCast S4096x24 (((fun a b => concatenate S4096x4x2x3 2 [⟨S4096x4x1x3, a⟩, ⟨S4096x4x1x3, b⟩] concatenates_S4096x4x1x3_S4096x4x1x3_S4096x4x2x3_d2) : (⟨S4096x4x1x3, .f32⟩ : BufTy).Contents (Elt F) → (⟨S4096x4x1x3, .f32⟩ : BufTy).Contents (Elt F) → (⟨S4096x4x2x3, .f32⟩ : BufTy).Contents (Elt F)) ((broadcastInDim S4096x4x1x3 ![0, 1, 3] bcast_S4096x4x3_S4096x4x1x3_0_1_3 : (⟨S4096x4x3, .f32⟩ : BufTy).Contents (Elt F) → (⟨S4096x4x1x3, .f32⟩ : BufTy).Contents (Elt F)) ((Host.sin : (⟨S4096x4x3, .f32⟩ : BufTy).Contents (Elt F) → (⟨S4096x4x3, .f32⟩ : BufTy).Contents (Elt F)) ((mulf : (⟨S4096x4x3, .f32⟩ : BufTy).Contents (Elt F) → (⟨S4096x4x3, .f32⟩ : BufTy).Contents (Elt F) → (⟨S4096x4x3, .f32⟩ : BufTy).Contents (Elt F)) ((broadcastInDim S4096x4x3 ![0, 1, 2] bcast_S4096x1x3_S4096x4x3_0_1_2 : (⟨S4096x1x3, .f32⟩ : BufTy).Contents (Elt F) → (⟨S4096x4x3, .f32⟩ : BufTy).Contents (Elt F)) ((broadcastInDim S4096x1x3 ![0, 2] bcast_S4096x3_S4096x1x3_0_2 : (⟨S4096x3, .f32⟩ : BufTy).Contents (Elt F) → (⟨S4096x1x3, .f32⟩ : BufTy).Contents (Elt F)) x1)) ((broadcastInDim S4096x4x3 ![0, 1, 2] bcast_S1x4x1_S4096x4x3_0_1_2 : (⟨S1x4x1, .f32⟩ : BufTy).Contents (Elt F) → (⟨S4096x4x3, .f32⟩ : BufTy).Contents (Elt F)) ((broadcastInDim S1x4x1 ![1, 2] bcast_S4x1_S1x4x1_1_2 : (⟨S4x1, .f32⟩ : BufTy).Contents (Elt F) → (⟨S1x4x1, .f32⟩ : BufTy).Contents (Elt F)) ((broadcastInDim S4x1 ![0] bcast_S4_S4x1_0 : (⟨S4, .f32⟩ : BufTy).Contents (Elt F) → (⟨S4x1, .f32⟩ : BufTy).Contents (Elt F)) ((Host.powf : (⟨S4, .f32⟩ : BufTy).Contents (Elt F) → (⟨S4, .f32⟩ : BufTy).Contents (Elt F) → (⟨S4, .f32⟩ : BufTy).Contents (Elt F)) ((broadcastInDim S4 ![] bcast_S_S4 : (⟨S_, .f32⟩ : BufTy).Contents (Elt F) → (⟨S4, .f32⟩ : BufTy).Contents (Elt F)) ((constant S_ .f32 0x40000000#32))) ((sitofp .f32 : (⟨S4, .i32⟩ : BufTy).Contents (Elt F) → (⟨S4, .f32⟩ : BufTy).Contents (Elt F)) ((iotaInDim S4 32 0)))))))))) ((broadcastInDim S4096x4x1x3 ![0, 1, 3] bcast_S4096x4x3_S4096x4x1x3_0_1_3 : (⟨S4096x4x3, .f32⟩ : BufTy).Contents (Elt F) → (⟨S4096x4x1x3, .f32⟩ : BufTy).Contents (Elt F)) ((Host.cos : (⟨S4096x4x3, .f32⟩ : BufTy).Contents (Elt F) → (⟨S4096x4x3, .f32⟩ : BufTy).Contents (Elt F)) ((mulf : (⟨S4096x4x3, .f32⟩ : BufTy).Contents (Elt F) → (⟨S4096x4x3, .f32⟩ : BufTy).Contents (Elt F) → (⟨S4096x4x3, .f32⟩ : BufTy).Contents (Elt F)) ((broadcastInDim S4096x4x3 ![0, 1, 2] bcast_S4096x1x3_S4096x4x3_0_1_2 : (⟨S4096x1x3, .f32⟩ : BufTy).Contents (Elt F) → (⟨S4096x4x3, .f32⟩ : BufTy).Contents (Elt F)) ((broadcastInDim S4096x1x3 ![0, 2] bcast_S4096x3_S4096x1x3_0_2 : (⟨S4096x3, .f32⟩ : BufTy).Contents (Elt F) → (⟨S4096x1x3, .f32⟩ : BufTy).Contents (Elt F)) x1)) ((broadcastInDim S4096x4x3 ![0, 1, 2] bcast_S1x4x1_S4096x4x3_0_1_2 : (⟨S1x4x1, .f32⟩ : BufTy).Contents (Elt F) → (⟨S4096x4x3, .f32⟩ : BufTy).Contents (Elt F)) ((broadcastInDim S1x4x1 ![1, 2] bcast_S4x1_S1x4x1_1_2 : (⟨S4x1, .f32⟩ : BufTy).Contents (Elt F) → (⟨S1x4x1, .f32⟩ : BufTy).Contents (Elt F)) ((broadcastInDim S4x1 ![0] bcast_S4_S4x1_0 : (⟨S4, .f32⟩ : BufTy).Contents (Elt F) → (⟨S4x1, .f32⟩ : BufTy).Contents (Elt F)) ((Host.powf : (⟨S4, .f32⟩ : BufTy).Contents (Elt F) → (⟨S4, .f32⟩ : BufTy).Contents (Elt F) → (⟨S4, .f32⟩ : BufTy).Contents (Elt F)) ((broadcastInDim S4 ![] bcast_S_S4 : (⟨S_, .f32⟩ : BufTy).Contents (Elt F) → (⟨S4, .f32⟩ : BufTy).Contents (Elt F)) ((constant S_ .f32 0x40000000#32))) ((sitofp .f32 : (⟨S4, .i32⟩ : BufTy).Contents (Elt F) → (⟨S4, .f32⟩ : BufTy).Contents (Elt F)) ((iotaInDim S4 32 0))))))))))) shapeCasts_S4096x4x2x3_S4096x24)))) shapeCasts_S4096x64x27_S262144x27)

variable (m : (ℓ : Loc nD τ sig) → Buf (Elt F) ℓ)

set_option maxHeartbeats 4000000 in
theorem V_0 (c : Dev nD) : (StableHlo.after hostOps0 (fun b => m (c, b)) (Proc.devRef .tc main_v40) : (⟨S262144x63, .bf16⟩ : BufTy).Contents (Elt F))
    = (((truncf .bf16 · bitsLt_bf16_f32) : (⟨S262144x63, .f32⟩ : BufTy).Contents (Elt F) → (⟨S262144x63, .bf16⟩ : BufTy).Contents (Elt F)) (embedPts (m ((c : Thread nD τ).loc main_arg0)))) := by
  show StableHlo.after hostOps0 (fun b => m (c, b)) (Proc.devRef .tc main_v40) = _
  after_results_simp <;> rfl

set_option maxHeartbeats 4000000 in
theorem V_1 (c : Dev nD) : (StableHlo.after hostOps0 (fun b => m (c, b)) (Proc.devRef .tc main_v41) : (⟨S262144x27, .bf16⟩ : BufTy).Contents (Elt F))
    = (((truncf .bf16 · bitsLt_bf16_f32) : (⟨S262144x27, .f32⟩ : BufTy).Contents (Elt F) → (⟨S262144x27, .bf16⟩ : BufTy).Contents (Elt F)) (embedDirs (m ((c : Thread nD τ).loc main_arg1)))) := by
  show StableHlo.after hostOps0 (fun b => m (c, b)) (Proc.devRef .tc main_v41) = _
  after_results_simp <;> rfl

set_option maxHeartbeats 4000000 in
theorem V_2 (c : Dev nD) : (StableHlo.after hostOps0 (fun b => m (c, b)) (Proc.devRef .tc main_v50) : (⟨S63x256, .bf16⟩ : BufTy).Contents (Elt F))
    = (((truncf .bf16 · bitsLt_bf16_f32) : (⟨S63x256, .f32⟩ : BufTy).Contents (Elt F) → (⟨S63x256, .bf16⟩ : BufTy).Contents (Elt F)) (m ((c : Thread nD τ).loc main_arg2))) := by
  show StableHlo.after hostOps0 (fun b => m (c, b)) (Proc.devRef .tc main_v50) = _
  after_results_simp <;> rfl

set_option maxHeartbeats 4000000 in
theorem V_3 (c : Dev nD) : (StableHlo.after hostOps0 (fun b => m (c, b)) (Proc.devRef .tc main_v57) : (⟨S1x256, .f32⟩ : BufTy).Contents (Elt F))
    = (shapeCast S1x256 (m ((c : Thread nD τ).loc main_arg3)) shapeCasts_S256_S1x256) := by
  show StableHlo.after hostOps0 (fun b => m (c, b)) (Proc.devRef .tc main_v57) = _
  after_results_simp <;> rfl

set_option maxHeartbeats 4000000 in
theorem V_4 (c : Dev nD) : (StableHlo.after hostOps0 (fun b => m (c, b)) (Proc.devRef .tc main_v51) : (⟨S256x256, .bf16⟩ : BufTy).Contents (Elt F))
    = (((truncf .bf16 · bitsLt_bf16_f32) : (⟨S256x256, .f32⟩ : BufTy).Contents (Elt F) → (⟨S256x256, .bf16⟩ : BufTy).Contents (Elt F)) (m ((c : Thread nD τ).loc main_arg4))) := by
  show StableHlo.after hostOps0 (fun b => m (c, b)) (Proc.devRef .tc main_v51) = _
  after_results_simp <;> rfl

set_option maxHeartbeats 4000000 in
theorem V_5 (c : Dev nD) : (StableHlo.after hostOps0 (fun b => m (c, b)) (Proc.devRef .tc main_v58) : (⟨S1x256, .f32⟩ : BufTy).Contents (Elt F))
    = (shapeCast S1x256 (m ((c : Thread nD τ).loc main_arg5)) shapeCasts_S256_S1x256) := by
  show StableHlo.after hostOps0 (fun b => m (c, b)) (Proc.devRef .tc main_v58) = _
  after_results_simp <;> rfl

end Cert.KernelIdeal.Glue

end
-- ==== Proof.GlueB.lean ====
/-
  What the tiled call finds in its 26 input arrays, as functions of the program's arguments: the host operations
  before the call, composed. The two streamed inputs are the positional embeddings, rounded; the resident operands are
  the weights rounded (two of them cut at a row first, two heads joined first) and the biases as one-row matrices.
-/
import proofs.«140130_j7078106103925_2_alg».proof.Proof.GlueA
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ)

set_option maxHeartbeats 4000000 in
theorem V_6 (c : Dev nD) : (StableHlo.after hostOps0 (fun b => m (c, b)) (Proc.devRef .tc main_v52) : (⟨S256x256, .bf16⟩ : BufTy).Contents (Elt F))
    = (((truncf .bf16 · bitsLt_bf16_f32) : (⟨S256x256, .f32⟩ : BufTy).Contents (Elt F) → (⟨S256x256, .bf16⟩ : BufTy).Contents (Elt F)) (m ((c : Thread nD τ).loc main_arg6))) := by
  show StableHlo.after hostOps0 (fun b => m (c, b)) (Proc.devRef .tc main_v52) = _
  after_results_simp <;> rfl

set_option maxHeartbeats 4000000 in
theorem V_7 (c : Dev nD) : (StableHlo.after hostOps0 (fun b => m (c, b)) (Proc.devRef .tc main_v59) : (⟨S1x256, .f32⟩ : BufTy).Contents (Elt F))
    = (shapeCast S1x256 (m ((c : Thread nD τ).loc main_arg7)) shapeCasts_S256_S1x256) := by
  show StableHlo.after hostOps0 (fun b => m (c, b)) (Proc.devRef .tc main_v59) = _
  after_results_simp <;> rfl

set_option maxHeartbeats 4000000 in
theorem V_8 (c : Dev nD) : (StableHlo.after hostOps0 (fun b => m (c, b)) (Proc.devRef .tc main_v53) : (⟨S256x256, .bf16⟩ : BufTy).Contents (Elt F))
    = (((truncf .bf16 · bitsLt_bf16_f32) : (⟨S256x256, .f32⟩ : BufTy).Contents (Elt F) → (⟨S256x256, .bf16⟩ : BufTy).Contents (Elt F)) (m ((c : Thread nD τ).loc main_arg8))) := by
  show StableHlo.after hostOps0 (fun b => m (c, b)) (Proc.devRef .tc main_v53) = _
  after_results_simp <;> rfl

set_option maxHeartbeats 4000000 in
theorem V_9 (c : Dev nD) : (StableHlo.after hostOps0 (fun b => m (c, b)) (Proc.devRef .tc main_v60) : (⟨S1x256, .f32⟩ : BufTy).Contents (Elt F))
    = (shapeCast S1x256 (m ((c : Thread nD τ).loc main_arg9)) shapeCasts_S256_S1x256) := by
  show StableHlo.after hostOps0 (fun b => m (c, b)) (Proc.devRef .tc main_v60) = _
  after_results_simp <;> rfl

set_option maxHeartbeats 4000000 in
theorem V_10 (c : Dev nD) : (StableHlo.after hostOps0 (fun b => m (c, b)) (Proc.devRef .tc main_v54) : (⟨S256x256, .bf16⟩ : BufTy).Contents (Elt F))
    = (((truncf .bf16 · bitsLt_bf16_f32) : (⟨S256x256, .f32⟩ : BufTy).Contents (Elt F) → (⟨S256x256, .bf16⟩ : BufTy).Contents (Elt F)) (m ((c : Thread nD τ).loc main_arg10))) := by
  show StableHlo.after hostOps0 (fun b => m (c, b)) (Proc.devRef .tc main_v54) = _
  after_results_simp <;> rfl

set_option maxHeartbeats 4000000 in
theorem V_11 (c : Dev nD) : (StableHlo.after hostOps0 (fun b => m (c, b)) (Proc.devRef .tc main_v61) : (⟨S1x256, .f32⟩ : BufTy).Contents (Elt F))
    = (shapeCast S1x256 (m ((c : Thread nD τ).loc main_arg11)) shapeCasts_S256_S1x256) := by
  show StableHlo.after hostOps0 (fun b => m (c, b)) (Proc.devRef .tc main_v61) = _
  after_results_simp <;> rfl

set_option maxHeartbeats 4000000 in
theorem V_12 (c : Dev nD) : (StableHlo.after hostOps0 (fun b => m (c, b)) (Proc.devRef .tc main_v64) : (⟨S63x256, .bf16⟩ : BufTy).Contents (Elt F))
    = (((truncf .bf16 · bitsLt_bf16_f32) : (⟨S63x256, .f32⟩ : BufTy).Contents (Elt F) → (⟨S63x256, .bf16⟩ : BufTy).Contents (Elt F)) (((extractStridedSlice S63x256 ![0, 0] · slices_S319x256_S63x256_0_0) : (⟨S319x256, .f32⟩ : BufTy).Contents (Elt F) → (⟨S63x256, .f32⟩ : BufTy).Contents (Elt F)) (m ((c : Thread nD τ).loc main_arg12)))) := by
  show StableHlo.after hostOps0 (fun b => m (c, b)) (Proc.devRef .tc main_v64) = _
  after_results_simp <;> rfl

set_option maxHeartbeats 4000000 in
theorem V_13 (c : Dev nD) : (StableHlo.after hostOps0 (fun b => m (c, b)) (Proc.devRef .tc main_v65) : (⟨S256x256, .bf16⟩ : BufTy).Contents (Elt F))
    = (((truncf .bf16 · bitsLt_bf16_f32) : (⟨S256x256, .f32⟩ : BufTy).Contents (Elt F) → (⟨S256x256, .bf16⟩ : BufTy).Contents (Elt F)) (((extractStridedSlice S256x256 ![63, 0] · slices_S319x256_S256x256_63_0) : (⟨S319x256, .f32⟩ : BufTy).Contents (Elt F) → (⟨S256x256, .f32⟩ : BufTy).Contents (Elt F)) (m ((c : Thread nD τ).loc main_arg12)))) := by
  show StableHlo.after hostOps0 (fun b => m (c, b)) (Proc.devRef .tc main_v65) = _
  after_results_simp <;> rfl

set_option maxHeartbeats 4000000 in
theorem V_14 (c : Dev nD) : (StableHlo.after hostOps0 (fun b => m (c, b)) (Proc.devRef .tc main_v66) : (⟨S1x256, .f32⟩ : BufTy).Contents (Elt F))
    = (shapeCast S1x256 (m ((c : Thread nD τ).loc main_arg13)) shapeCasts_S256_S1x256) := by
  show StableHlo.after hostOps0 (fun b => m (c, b)) (Proc.devRef .tc main_v66) = _
  after_results_simp <;> rfl

set_option maxHeartbeats 4000000 in
theorem V_15 (c : Dev nD) : (StableHlo.after hostOps0 (fun b => m (c, b)) (Proc.devRef .tc main_v55) : (⟨S256x256, .bf16⟩ : BufTy).Contents (Elt F))
    = (((truncf .bf16 · bitsLt_bf16_f32) : (⟨S256x256, .f32⟩ : BufTy).Contents (Elt F) → (⟨S256x256, .bf16⟩ : BufTy).Contents (Elt F)) (m ((c : Thread nD τ).loc main_arg14))) := by
  show StableHlo.after hostOps0 (fun b => m (c, b)) (Proc.devRef .tc main_v55) = _
  after_results_simp <;> rfl

end Cert.KernelIdeal.Glue

end
-- ==== Proof.GlueC.lean ====
/-
  What the tiled call finds in its 26 input arrays, as functions of the program's arguments: the host operations
  before the call, composed. The two streamed inputs are the positional embeddings, rounded; the resident operands are
  the weights rounded (two of them cut at a row first, two heads joined first) and the biases as one-row matrices.
-/
import proofs.«140130_j7078106103925_2_alg».proof.Proof.GlueA
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ)

set_option maxHeartbeats 4000000 in
theorem V_16 (c : Dev nD) : (StableHlo.after hostOps0 (fun b => m (c, b)) (Proc.devRef .tc main_v62) : (⟨S1x256, .f32⟩ : BufTy).Contents (Elt F))
    = (shapeCast S1x256 (m ((c : Thread nD τ).loc main_arg15)) shapeCasts_S256_S1x256) := by
  show StableHlo.after hostOps0 (fun b => m (c, b)) (Proc.devRef .tc main_v62) = _
  after_results_simp <;> rfl

set_option maxHeartbeats 4000000 in
theorem V_17 (c : Dev nD) : (StableHlo.after hostOps0 (fun b => m (c, b)) (Proc.devRef .tc main_v56) : (⟨S256x256, .bf16⟩ : BufTy).Contents (Elt F))
    = (((truncf .bf16 · bitsLt_bf16_f32) : (⟨S256x256, .f32⟩ : BufTy).Contents (Elt F) → (⟨S256x256, .bf16⟩ : BufTy).Contents (Elt F)) (m ((c : Thread nD τ).loc main_arg16))) := by
  show StableHlo.after hostOps0 (fun b => m (c, b)) (Proc.devRef .tc main_v56) = _
  after_results_simp <;> rfl

set_option maxHeartbeats 4000000 in
theorem V_18 (c : Dev nD) : (StableHlo.after hostOps0 (fun b => m (c, b)) (Proc.devRef .tc main_v63) : (⟨S1x256, .f32⟩ : BufTy).Contents (Elt F))
    = (shapeCast S1x256 (m ((c : Thread nD τ).loc main_arg17)) shapeCasts_S256_S1x256) := by
  show StableHlo.after hostOps0 (fun b => m (c, b)) (Proc.devRef .tc main_v63) = _
  after_results_simp <;> rfl

set_option maxHeartbeats 4000000 in
theorem V_19 (c : Dev nD) : (StableHlo.after hostOps0 (fun b => m (c, b)) (Proc.devRef .tc main_v67) : (⟨S256x128, .bf16⟩ : BufTy).Contents (Elt F))
    = (((truncf .bf16 · bitsLt_bf16_f32) : (⟨S256x128, .f32⟩ : BufTy).Contents (Elt F) → (⟨S256x128, .bf16⟩ : BufTy).Contents (Elt F)) (((extractStridedSlice S256x128 ![0, 0] · slices_S283x128_S256x128_0_0) : (⟨S283x128, .f32⟩ : BufTy).Contents (Elt F) → (⟨S256x128, .f32⟩ : BufTy).Contents (Elt F)) (m ((c : Thread nD τ).loc main_arg18)))) := by
  show StableHlo.after hostOps0 (fun b => m (c, b)) (Proc.devRef .tc main_v67) = _
  after_results_simp <;> rfl

set_option maxHeartbeats 4000000 in
theorem V_20 (c : Dev nD) : (StableHlo.after hostOps0 (fun b => m (c, b)) (Proc.devRef .tc main_v68) : (⟨S27x128, .bf16⟩ : BufTy).Contents (Elt F))
    = (((truncf .bf16 · bitsLt_bf16_f32) : (⟨S27x128, .f32⟩ : BufTy).Contents (Elt F) → (⟨S27x128, .bf16⟩ : BufTy).Contents (Elt F)) (((extractStridedSlice S27x128 ![256, 0] · slices_S283x128_S27x128_256_0) : (⟨S283x128, .f32⟩ : BufTy).Contents (Elt F) → (⟨S27x128, .f32⟩ : BufTy).Contents (Elt F)) (m ((c : Thread nD τ).loc main_arg18)))) := by
  show StableHlo.after hostOps0 (fun b => m (c, b)) (Proc.devRef .tc main_v68) = _
  after_results_simp <;> rfl

set_option maxHeartbeats 4000000 in
theorem V_21 (c : Dev nD) : (StableHlo.after hostOps0 (fun b => m (c, b)) (Proc.devRef .tc main_v69) : (⟨S1x128, .f32⟩ : BufTy).Contents (Elt F))
    = (shapeCast S1x128 (m ((c : Thread nD τ).loc main_arg19)) shapeCasts_S128_S1x128) := by
  show StableHlo.after hostOps0 (fun b => m (c, b)) (Proc.devRef .tc main_v69) = _
  after_results_simp <;> rfl

set_option maxHeartbeats 4000000 in
theorem V_22 (c : Dev nD) : (StableHlo.after hostOps0 (fun b => m (c, b)) (Proc.devRef .tc main_v70) : (⟨S256x384, .bf16⟩ : BufTy).Contents (Elt F))
    = (((truncf .bf16 · bitsLt_bf16_f32) : (⟨S256x384, .f32⟩ : BufTy).Contents (Elt F) → (⟨S256x384, .bf16⟩ : BufTy).Contents (Elt F)) (concatenate S256x384 1 [⟨S256x256, (m ((c : Thread nD τ).loc main_arg20))⟩, ⟨S256x1, (m ((c : Thread nD τ).loc main_arg22))⟩, ⟨S256x127, ((broadcastInDim S256x127 ![] bcast_S_S256x127 : (⟨S_, .f32⟩ : BufTy).Contents (Elt F) → (⟨S256x127, .f32⟩ : BufTy).Contents (Elt F)) ((constant S_ .f32 0x00000000#32)))⟩] concatenates_S256x256_S256x1_S256x127_S256x384_d1)) := by
  show StableHlo.after hostOps0 (fun b => m (c, b)) (Proc.devRef .tc main_v70) = _
  after_results_simp <;> rfl

set_option maxHeartbeats 4000000 in
theorem V_23 (c : Dev nD) : (StableHlo.after hostOps0 (fun b => m (c, b)) (Proc.devRef .tc main_v71) : (⟨S1x384, .f32⟩ : BufTy).Contents (Elt F))
    = (shapeCast S1x384 (concatenate S384 0 [⟨S256, (m ((c : Thread nD τ).loc main_arg21))⟩, ⟨S1, (m ((c : Thread nD τ).loc main_arg23))⟩, ⟨S127, ((broadcastInDim S127 ![] bcast_S_S127 : (⟨S_, .f32⟩ : BufTy).Contents (Elt F) → (⟨S127, .f32⟩ : BufTy).Contents (Elt F)) ((constant S_ .f32 0x00000000#32)))⟩] concatenates_S256_S1_S127_S384_d0) shapeCasts_S384_S1x384) := by
  show StableHlo.after hostOps0 (fun b => m (c, b)) (Proc.devRef .tc main_v71) = _
  after_results_simp <;> rfl

set_option maxHeartbeats 4000000 in
theorem V_24 (c : Dev nD) : (StableHlo.after hostOps0 (fun b => m (c, b)) (Proc.devRef .tc main_v72) : (⟨S128x3, .bf16⟩ : BufTy).Contents (Elt F))
    = (((truncf .bf16 · bitsLt_bf16_f32) : (⟨S128x3, .f32⟩ : BufTy).Contents (Elt F) → (⟨S128x3, .bf16⟩ : BufTy).Contents (Elt F)) (m ((c : Thread nD τ).loc main_arg24))) := by
  show StableHlo.after hostOps0 (fun b => m (c, b)) (Proc.devRef .tc main_v72) = _
  after_results_simp <;> rfl

set_option maxHeartbeats 4000000 in
theorem V_25 (c : Dev nD) : (StableHlo.after hostOps0 (fun b => m (c, b)) (Proc.devRef .tc main_v73) : (⟨S1x3, .f32⟩ : BufTy).Contents (Elt F))
    = (shapeCast S1x3 (m ((c : Thread nD τ).loc main_arg25)) shapeCasts_S3_S1x3) := by
  show StableHlo.after hostOps0 (fun b => m (c, b)) (Proc.devRef .tc main_v73) = _
  after_results_simp <;> rfl

end Cert.KernelIdeal.Glue

end
-- ==== Proof.GlueIdx.lean ====
/-
  The host's preparation of the weights, read at an index.

  Before the tiled call the host cuts the sixth layer's 319 × 256 matrix into its first 63 rows and its last 256, cuts
  the colour layer's 283 × 128 matrix into its first 256 rows and its last 27, sets the feature head's 256 × 256
  matrix, the density head's 256 × 1 column and 127 columns of zeros side by side (and the two heads' biases and 127
  zeros end to end), and turns every bias vector into a one-row matrix. Each lemma reads one of these at an index.
-/
import proofs.«140130_j7078106103925_2_alg».proof.Proof.Gen.KernelIdeal
import Idealize.ShloMosaic.Lib.ValueLayout
import Idealize.ShloMosaic.Lib.Pipeline.Value
import Idealize.ShloMosaic.PureOps.Ideal

noncomputable section

namespace Cert.KernelIdeal.Glue

open Cert.KernelIdeal Cert.KernelIdeal.Gen Idealize.ShloMosaic Idealize.ShloMosaic.ValueIdx

/-- Rows 0–62 of the sixth layer's matrix. -/
theorem w5_top (a : S319x256.Idx → EReal) (k : Fin 63) (q : Fin 256) :
    extractStridedSlice S63x256 ![0, 0] a slices_S319x256_S63x256_0_0 (ix2 k q) = a (ix2 (Fin.castAdd 256 k) q) :=
  slice2_axis0_apply 0 a slices_S319x256_S63x256_0_0 k q (Fin.castAdd 256 k) (by show k.val = 0 + k.val; omega)

/-- Rows 63–318 of the sixth layer's matrix. -/
theorem w5_bot (a : S319x256.Idx → EReal) (k : Fin 256) (q : Fin 256) :
    extractStridedSlice S256x256 ![63, 0] a slices_S319x256_S256x256_63_0 (ix2 k q) = a (ix2 (Fin.natAdd 63 k) q) :=
  slice2_axis0_apply 63 a slices_S319x256_S256x256_63_0 k q (Fin.natAdd 63 k) rfl

/-- Rows 0–255 of the colour layer's matrix. -/
theorem vw_top (a : S283x128.Idx → EReal) (k : Fin 256) (q : Fin 128) :
    extractStridedSlice S256x128 ![0, 0] a slices_S283x128_S256x128_0_0 (ix2 k q) = a (ix2 (Fin.castAdd 27 k) q) :=
  slice2_axis0_apply 0 a slices_S283x128_S256x128_0_0 k q (Fin.castAdd 27 k) (by show k.val = 0 + k.val; omega)

/-- Rows 256–282 of the colour layer's matrix. -/
theorem vw_bot (a : S283x128.Idx → EReal) (k : Fin 27) (q : Fin 128) :
    extractStridedSlice S27x128 ![256, 0] a slices_S283x128_S27x128_256_0 (ix2 k q) = a (ix2 (Fin.natAdd 256 k) q) :=
  slice2_axis0_apply 256 a slices_S283x128_S27x128_256_0 k q (Fin.natAdd 256 k) rfl

/-- Columns 0–255 of the joint head's matrix are the feature head's. -/
theorem fa_feat (a : S256x256.Idx → EReal) (b : S256x1.Idx → EReal) (z : S256x127.Idx → EReal) (k : Fin 256) (q : Fin 256) :
    concatenate S256x384 1 [⟨S256x256, a⟩, ⟨S256x1, b⟩, ⟨S256x127, z⟩] concatenates_S256x256_S256x1_S256x127_S256x384_d1
      (ix2 k (⟨0 + q.val, by omega⟩ : Fin 384)) = a (ix2 k q) :=
  concatenate_apply_piece (t := S256x384) (1 : Fin 2) ([⟨S256x256, a⟩, ⟨S256x1, b⟩, ⟨S256x127, z⟩] : List ((s : Shape) × (s.Idx → EReal))) concatenates_S256x256_S256x1_S256x127_S256x384_d1 (ix2 k (⟨0 + q.val, by omega⟩ : Fin 384)) 0 (by show (0 : Nat) < 3; omega) S256x256 a rfl rfl 0 rfl (ix2 k q)
    (fun b hb => by match b with | ⟨0, _⟩ => rfl | ⟨1, _⟩ => exact absurd rfl hb) (by show 0 + q.val = 0 + q.val; rfl)

/-- Column 256 of the joint head's matrix is the density head's. -/
theorem fa_alpha (a : S256x256.Idx → EReal) (b : S256x1.Idx → EReal) (z : S256x127.Idx → EReal) (k : Fin 256) (j : Fin 1) :
    concatenate S256x384 1 [⟨S256x256, a⟩, ⟨S256x1, b⟩, ⟨S256x127, z⟩] concatenates_S256x256_S256x1_S256x127_S256x384_d1
      (ix2 k (⟨256 + j.val, by omega⟩ : Fin 384)) = b (ix2 k j) :=
  concatenate_apply_piece (t := S256x384) (1 : Fin 2) ([⟨S256x256, a⟩, ⟨S256x1, b⟩, ⟨S256x127, z⟩] : List ((s : Shape) × (s.Idx → EReal))) concatenates_S256x256_S256x1_S256x127_S256x384_d1 (ix2 k (⟨256 + j.val, by omega⟩ : Fin 384)) 1 (by show (1 : Nat) < 3; omega) S256x1 b rfl rfl 256 rfl (ix2 k j)
    (fun b hb => by match b with | ⟨0, _⟩ => rfl | ⟨1, _⟩ => exact absurd rfl hb) (by show 256 + j.val = 256 + j.val; rfl)

/-- Entries 0–255 of the joint head's bias are the feature head's. -/
theorem fb_feat (a : S256.Idx → EReal) (b : S1.Idx → EReal) (z : S127.Idx → EReal) (q : Fin 256) :
    shapeCast S1x384 (concatenate S384 0 [⟨S256, a⟩, ⟨S1, b⟩, ⟨S127, z⟩] concatenates_S256_S1_S127_S384_d0) shapeCasts_S384_S1x384
      (ix2 (0 : Fin 1) (⟨0 + q.val, by omega⟩ : Fin 384)) = a (ix1 q) := by
  rw [shapeCast_a_1a_apply]
  exact concatenate_apply_piece (t := S384) (0 : Fin 1) ([⟨S256, a⟩, ⟨S1, b⟩, ⟨S127, z⟩] : List ((s : Shape) × (s.Idx → EReal))) concatenates_S256_S1_S127_S384_d0 (ix1 (⟨0 + q.val, by omega⟩ : Fin 384)) 0 (by show (0 : Nat) < 3; omega) S256 a rfl rfl 0 rfl (ix1 q)
    (fun b hb => by match b with | ⟨0, _⟩ => exact absurd rfl hb) (by show 0 + q.val = 0 + q.val; rfl)

/-- Entry 256 of the joint head's bias is the density head's. -/
theorem fb_alpha (a : S256.Idx → EReal) (b : S1.Idx → EReal) (z : S127.Idx → EReal) (j : Fin 1) :
    shapeCast S1x384 (concatenate S384 0 [⟨S256, a⟩, ⟨S1, b⟩, ⟨S127, z⟩] concatenates_S256_S1_S127_S384_d0) shapeCasts_S384_S1x384
      (ix2 (0 : Fin 1) (⟨256 + j.val, by omega⟩ : Fin 384)) = b (ix1 j) := by
  rw [shapeCast_a_1a_apply]
  exact concatenate_apply_piece (t := S384) (0 : Fin 1) ([⟨S256, a⟩, ⟨S1, b⟩, ⟨S127, z⟩] : List ((s : Shape) × (s.Idx → EReal))) concatenates_S256_S1_S127_S384_d0 (ix1 (⟨256 + j.val, by omega⟩ : Fin 384)) 1 (by show (1 : Nat) < 3; omega) S1 b rfl rfl 256 rfl (ix1 j)
    (fun b hb => by match b with | ⟨0, _⟩ => exact absurd rfl hb) (by show 256 + j.val = 256 + j.val; rfl)

/-- The same two facts for the joint bias before it is made a one-row matrix. -/
theorem fb_feat1 (a : S256.Idx → EReal) (b : S1.Idx → EReal) (z : S127.Idx → EReal) (q : Fin 256) :
    concatenate S384 0 [⟨S256, a⟩, ⟨S1, b⟩, ⟨S127, z⟩] concatenates_S256_S1_S127_S384_d0 (ix1 (⟨0 + q.val, by omega⟩ : Fin 384)) = a (ix1 q) :=
  concatenate_apply_piece (t := S384) (0 : Fin 1) ([⟨S256, a⟩, ⟨S1, b⟩, ⟨S127, z⟩] : List ((s : Shape) × (s.Idx → EReal))) concatenates_S256_S1_S127_S384_d0 (ix1 (⟨0 + q.val, by omega⟩ : Fin 384)) 0 (by show (0 : Nat) < 3; omega) S256 a rfl rfl 0 rfl (ix1 q)
    (fun b hb => by match b with | ⟨0, _⟩ => exact absurd rfl hb) (by show 0 + q.val = 0 + q.val; rfl)

theorem fb_alpha1 (a : S256.Idx → EReal) (b : S1.Idx → EReal) (z : S127.Idx → EReal) (j : Fin 1) :
    concatenate S384 0 [⟨S256, a⟩, ⟨S1, b⟩, ⟨S127, z⟩] concatenates_S256_S1_S127_S384_d0 (ix1 (⟨256 + j.val, by omega⟩ : Fin 384)) = b (ix1 j) :=
  concatenate_apply_piece (t := S384) (0 : Fin 1) ([⟨S256, a⟩, ⟨S1, b⟩, ⟨S127, z⟩] : List ((s : Shape) × (s.Idx → EReal))) concatenates_S256_S1_S127_S384_d0 (ix1 (⟨256 + j.val, by omega⟩ : Fin 384)) 1 (by show (1 : Nat) < 3; omega) S1 b rfl rfl 256 rfl (ix1 j)
    (fun b hb => by match b with | ⟨0, _⟩ => exact absurd rfl hb) (by show 256 + j.val = 256 + j.val; rfl)

end Cert.KernelIdeal.Glue

end
-- ==== Proof.LibHostRows.lean ====
/-
  Reading a host array of rows, operation by operation, at the extended reals: the host's product, its bias spread over
  the rows (a vector made a one-row matrix, then repeated), and its rectifier against a repeated zero constant. Each
  lemma takes the rows of the operand and returns the rows of the result, for arbitrary extents.
-/
import proofs.«140130_j7078106103925_2_alg».proof.Proof.LibPlainDot
import Idealize.ShloMosaic.Lib.Pipeline.Value

noncomputable section

namespace Cert.HostRows

open Idealize.ShloMosaic Idealize.ShloMosaic.ValueIdx

variable {M K N : Nat}

/-- The host's plain product: row `p` of the result is row `p` of the left operand times the matrix. -/
theorem dot_rows {φ₁ φ₂ : FTy} (d : DotDims ⟨2, ![M, K]⟩ ⟨2, ![K, N]⟩ ⟨2, ![M, N]⟩) (hd : Cert.PlainDot.IsPlain d)
    (prec : Option ContractPrecision) (X : FVec Ideal ⟨2, ![M, K]⟩ φ₁) (w : FVec Ideal ⟨2, ![K, N]⟩ φ₂)
    (xr : Fin M → Fin K → EReal) (hX : ∀ p k, X (ix2 p k) = xr p k) :
    ∀ p q, Host.dotGeneral d prec X w (ix2 p q) = ∑ k : Fin K, xr p k * w (ix2 k q) := fun p q => by
  refine (Ideal.dotGeneral_apply d prec .single X w (ix2 p q)).trans ?_
  refine (Cert.PlainDot.sum_contr d hd X w p q).trans ?_
  exact Finset.sum_congr rfl fun k _ => by rw [hX p k]

/-- Adding a bias vector, made a one-row matrix and repeated over the rows. -/
theorem bias_rows (Y : FVec Ideal ⟨2, ![M, N]⟩ .f32) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (yr : Fin M → Fin N → EReal) (hY : ∀ p q, Y (ix2 p q) = yr p q) :
    ∀ p q, addf Y (broadcastInDim ⟨2, ![M, N]⟩ ![0, 1] h2 (broadcastInDim ⟨2, ![1, N]⟩ ![1] h1 b)) (ix2 p q) = yr p q + b (ix1 q) := fun p q => by
  rw [addf_apply, hY p q]
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]

/-- The rectifier against the zero constant repeated over the array. -/
theorem relu_rows (Y : FVec Ideal ⟨2, ![M, N]⟩ .f32) (h0 : (⟨0, ![]⟩ : Shape).BroadcastsInDim ⟨2, ![M, N]⟩ ![])
    (yr : Fin M → Fin N → EReal) (hY : ∀ p q, Y (ix2 p q) = yr p q) :
    ∀ p q, maximumf Y (broadcastInDim ⟨2, ![M, N]⟩ ![] h0 (constant (F := Ideal) ⟨0, ![]⟩ .f32 0x00000000#32)) (ix2 p q) = max (yr p q) 0 := fun p q => by
  rw [maximumf_apply, hY p q, broadcastInDim_apply ![] h0 _ (ix2 p q) ix0 (fun a => a.elim0), constant_apply, Ideal.ofBits_zero_f32]

end Cert.HostRows

end
-- ==== Proof.RefRows.lean ====
/-
  The plain program on one row.

  The plain program applies, to the whole 262144-row array of embedded points at once, eight dense layers with a
  rectifier after each — the sixth on the embedded points set beside the fifth hidden array —, the density head and
  the feature head, the colour layer on the features set beside the embedded view directions, and the colour head;
  and sets colours beside density. Every one of these acts on a row at a time, so row `n` of its result (before the
  final re-laying to rays × samples) is the plain arrangement of the network applied to row `n` of the two embeddings.
-/
import proofs.«140130_j7078106103925_2_alg».proof.Proof.RefOps
import proofs.«140130_j7078106103925_2_alg».proof.Proof.LibHostRows
import proofs.«140130_j7078106103925_2_alg».proof.Proof.LibTileRows
import proofs.«140130_j7078106103925_2_alg».proof.Proof.RowNet

noncomputable section

namespace Cert.ReferenceIdeal.Rows

open Cert.ReferenceIdeal Cert.ReferenceIdeal.Gen Cert.ReferenceIdeal.HandRun
open Idealize.ShloMosaic Idealize.ShloMosaic.ValueIdx Cert.RowNet Cert.HostRows Cert.TileRows

set_option maxHeartbeats 2000000 in
theorem ref_rows (ep : (⟨S262144x63, .f32⟩ : BufTy).Contents (Elt Ideal)) (ev : (⟨S262144x27, .f32⟩ : BufTy).Contents (Elt Ideal)) (x2 : (⟨S63x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S319x256, .f32⟩ : BufTy).Contents (Elt Ideal)) (x13 : (⟨S256, .f32⟩ : BufTy).Contents (Elt Ideal)) (x14 : (⟨S256x256, .f32⟩ : BufTy).Contents (Elt Ideal)) (x15 : (⟨S256, .f32⟩ : BufTy).Contents (Elt Ideal)) (x16 : (⟨S256x256, .f32⟩ : BufTy).Contents (Elt Ideal)) (x17 : (⟨S256, .f32⟩ : BufTy).Contents (Elt Ideal)) (x18 : (⟨S283x128, .f32⟩ : BufTy).Contents (Elt Ideal)) (x19 : (⟨S128, .f32⟩ : BufTy).Contents (Elt Ideal)) (x20 : (⟨S256x256, .f32⟩ : BufTy).Contents (Elt Ideal)) (x21 : (⟨S256, .f32⟩ : BufTy).Contents (Elt Ideal)) (x22 : (⟨S256x1, .f32⟩ : BufTy).Contents (Elt Ideal)) (x23 : (⟨S1, .f32⟩ : BufTy).Contents (Elt Ideal)) (x24 : (⟨S128x3, .f32⟩ : BufTy).Contents (Elt Ideal)) (x25 : (⟨S3, .f32⟩ : BufTy).Contents (Elt Ideal)) :
    ∀ (n : Fin 262144) (j : Fin 4), netArray (F := Ideal) ep ev x2 x3 x4 x5 x6 x7 x8 x9 x10 x11 x12 x13 x14 x15 x16 x17 x18 x19 x20 x21 x22 x23 x24 x25 (ix2 n j)
      = plainRow (rowOf ep n) (rowOf ev n) (matOf x2) (vec1 x3) (matOf x4) (vec1 x5) (matOf x6) (vec1 x7) (matOf x8) (vec1 x9) (matOf x10) (vec1 x11) (matOf x12) (vec1 x13) (matOf x14) (vec1 x15) (matOf x16) (vec1 x17) (matOf x18) (vec1 x19) (matOf x20) (vec1 x21) (matOf x22) (vec1 x23) (matOf x24) (vec1 x25) j := by
  have a1 := dot_rows (φ₁ := .f32) (φ₂ := .f32) dot_S262144x63_S63x256_S262144x256_1_0_0_1_n_n ⟨rfl, rfl, rfl, rfl, rfl, rfl⟩ none ep x2 _ (fun _ _ => rfl)
  have a2 := Cert.HostRows.bias_rows _ x3 bcast_S256_S1x256_1 bcast_S1x256_S262144x256_0_1 _ a1
  have a3 := Cert.HostRows.relu_rows _ bcast_S_S262144x256 _ a2
  have b1 := dot_rows (φ₁ := .f32) (φ₂ := .f32) dot_S262144x256_S256x256_S262144x256_1_0_0_1_n_n ⟨rfl, rfl, rfl, rfl, rfl, rfl⟩ none _ x4 _ a3
  have b2 := Cert.HostRows.bias_rows _ x5 bcast_S256_S1x256_1 bcast_S1x256_S262144x256_0_1 _ b1
  have b3 := Cert.HostRows.relu_rows _ bcast_S_S262144x256 _ b2
  have c1 := dot_rows (φ₁ := .f32) (φ₂ := .f32) dot_S262144x256_S256x256_S262144x256_1_0_0_1_n_n ⟨rfl, rfl, rfl, rfl, rfl, rfl⟩ none _ x6 _ b3
  have c2 := Cert.HostRows.bias_rows _ x7 bcast_S256_S1x256_1 bcast_S1x256_S262144x256_0_1 _ c1
  have c3 := Cert.HostRows.relu_rows _ bcast_S_S262144x256 _ c2
  have d1 := dot_rows (φ₁ := .f32) (φ₂ := .f32) dot_S262144x256_S256x256_S262144x256_1_0_0_1_n_n ⟨rfl, rfl, rfl, rfl, rfl, rfl⟩ none _ x8 _ c3
  have d2 := Cert.HostRows.bias_rows _ x9 bcast_S256_S1x256_1 bcast_S1x256_S262144x256_0_1 _ d1
  have d3 := Cert.HostRows.relu_rows _ bcast_S_S262144x256 _ d2
  have e1 := dot_rows (φ₁ := .f32) (φ₂ := .f32) dot_S262144x256_S256x256_S262144x256_1_0_0_1_n_n ⟨rfl, rfl, rfl, rfl, rfl, rfl⟩ none _ x10 _ d3
  have e2 := Cert.HostRows.bias_rows _ x11 bcast_S256_S1x256_1 bcast_S1x256_S262144x256_0_1 _ e1
  have e3 := Cert.HostRows.relu_rows _ bcast_S_S262144x256 _ e2
  have f0 := Cert.TileRows.concat_rows (A := 63) (B := 256) (C := 319) rfl ep _ concatenates_S262144x63_S262144x256_S262144x319_d1 _ _ (fun _ _ => rfl) e3
  have f1 := dot_rows (φ₁ := .f32) (φ₂ := .f32) dot_S262144x319_S319x256_S262144x256_1_0_0_1_n_n ⟨rfl, rfl, rfl, rfl, rfl, rfl⟩ none _ x12 _ f0
  have f2 := Cert.HostRows.bias_rows _ x13 bcast_S256_S1x256_1 bcast_S1x256_S262144x256_0_1 _ f1
  have f3 := Cert.HostRows.relu_rows _ bcast_S_S262144x256 _ f2
  have g1 := dot_rows (φ₁ := .f32) (φ₂ := .f32) dot_S262144x256_S256x256_S262144x256_1_0_0_1_n_n ⟨rfl, rfl, rfl, rfl, rfl, rfl⟩ none _ x14 _ f3
  have g2 := Cert.HostRows.bias_rows _ x15 bcast_S256_S1x256_1 bcast_S1x256_S262144x256_0_1 _ g1
  have g3 := Cert.HostRows.relu_rows _ bcast_S_S262144x256 _ g2
  have h1 := dot_rows (φ₁ := .f32) (φ₂ := .f32) dot_S262144x256_S256x256_S262144x256_1_0_0_1_n_n ⟨rfl, rfl, rfl, rfl, rfl, rfl⟩ none _ x16 _ g3
  have h2 := Cert.HostRows.bias_rows _ x17 bcast_S256_S1x256_1 bcast_S1x256_S262144x256_0_1 _ h1
  have h3 := Cert.HostRows.relu_rows _ bcast_S_S262144x256 _ h2
  have al1 := dot_rows (φ₁ := .f32) (φ₂ := .f32) dot_S262144x256_S256x1_S262144x1_1_0_0_1_n_n ⟨rfl, rfl, rfl, rfl, rfl, rfl⟩ none _ x22 _ h3
  have al2 := Cert.HostRows.bias_rows _ x23 bcast_S1_S1x1_1 bcast_S1x1_S262144x1_0_1 _ al1
  have ft1 := dot_rows (φ₁ := .f32) (φ₂ := .f32) dot_S262144x256_S256x256_S262144x256_1_0_0_1_n_n ⟨rfl, rfl, rfl, rfl, rfl, rfl⟩ none _ x20 _ h3
  have ft2 := Cert.HostRows.bias_rows _ x21 bcast_S256_S1x256_1 bcast_S1x256_S262144x256_0_1 _ ft1
  have v0 := Cert.TileRows.concat_rows (A := 256) (B := 27) (C := 283) rfl _ ev concatenates_S262144x256_S262144x27_S262144x283_d1 _ _ ft2 (fun _ _ => rfl)
  have v1 := dot_rows (φ₁ := .f32) (φ₂ := .f32) dot_S262144x283_S283x128_S262144x128_1_0_0_1_n_n ⟨rfl, rfl, rfl, rfl, rfl, rfl⟩ none _ x18 _ v0
  have v2 := Cert.HostRows.bias_rows _ x19 bcast_S128_S1x128_1 bcast_S1x128_S262144x128_0_1 _ v1
  have v3 := Cert.HostRows.relu_rows _ bcast_S_S262144x128 _ v2
  have r1 := dot_rows (φ₁ := .f32) (φ₂ := .f32) dot_S262144x128_S128x3_S262144x3_1_0_0_1_n_n ⟨rfl, rfl, rfl, rfl, rfl, rfl⟩ none _ x24 _ v3
  have r2 := Cert.HostRows.bias_rows _ x25 bcast_S3_S1x3_1 bcast_S1x3_S262144x3_0_1 _ r1
  have o := Cert.TileRows.concat_rows (A := 3) (B := 1) (C := 4) rfl _ _ concatenates_S262144x3_S262144x1_S262144x4_d1 _ _ r2 al2
  exact o

end Cert.ReferenceIdeal.Rows

end
-- ==== Proof.RefA.lean ====
/-
  The plain program's first stretch: after the 42 embedding operations the two embedding buffers hold the embeddings of
  the arguments, and no argument has been written.
-/
import proofs.«140130_j7078106103925_2_alg».proof.Proof.RefOps

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
theorem A_pts (V : Valuation τ sig (Elt F)) :
    (after (opsA (F := F)) V (Proc.devRef .tc main_v18) : (⟨S262144x63, .f32⟩ : BufTy).Contents (Elt F))
      = embedPts (V (Proc.devRef .tc main_arg0)) := by
  unfold embedPts
  after_results_simp <;> rfl

set_option maxHeartbeats 4000000 in
theorem A_dirs (V : Valuation τ sig (Elt F)) :
    (after (opsA (F := F)) V (Proc.devRef .tc main_v39) : (⟨S262144x27, .f32⟩ : BufTy).Contents (Elt F))
      = embedDirs (V (Proc.devRef .tc main_arg1)) := by
  unfold embedDirs
  after_results_simp <;> rfl

theorem A_arg_2 (V : Valuation τ sig (Elt F)) : after (opsA (F := F)) V (Proc.devRef .tc main_arg2) = V (Proc.devRef .tc main_arg2) :=
  after_of_forall_not_mem (b := Proc.devRef .tc main_arg2) _ _ (List.forall_iff_forall_mem.mp (by
    simp only [opsA, List.Forall, nullary_writes, unary_writes, binary_writes, reshape_writes, Finset.mem_singleton]
    repeat' apply And.intro
    all_goals exact devRef_ne_of_ne (by decide)))

theorem A_arg_3 (V : Valuation τ sig (Elt F)) : after (opsA (F := F)) V (Proc.devRef .tc main_arg3) = V (Proc.devRef .tc main_arg3) :=
  after_of_forall_not_mem (b := Proc.devRef .tc main_arg3) _ _ (List.forall_iff_forall_mem.mp (by
    simp only [opsA, List.Forall, nullary_writes, unary_writes, binary_writes, reshape_writes, Finset.mem_singleton]
    repeat' apply And.intro
    all_goals exact devRef_ne_of_ne (by decide)))

theorem A_arg_4 (V : Valuation τ sig (Elt F)) : after (opsA (F := F)) V (Proc.devRef .tc main_arg4) = V (Proc.devRef .tc main_arg4) :=
  after_of_forall_not_mem (b := Proc.devRef .tc main_arg4) _ _ (List.forall_iff_forall_mem.mp (by
    simp only [opsA, List.Forall, nullary_writes, unary_writes, binary_writes, reshape_writes, Finset.mem_singleton]
    repeat' apply And.intro
    all_goals exact devRef_ne_of_ne (by decide)))

theorem A_arg_5 (V : Valuation τ sig (Elt F)) : after (opsA (F := F)) V (Proc.devRef .tc main_arg5) = V (Proc.devRef .tc main_arg5) :=
  after_of_forall_not_mem (b := Proc.devRef .tc main_arg5) _ _ (List.forall_iff_forall_mem.mp (by
    simp only [opsA, List.Forall, nullary_writes, unary_writes, binary_writes, reshape_writes, Finset.mem_singleton]
    repeat' apply And.intro
    all_goals exact devRef_ne_of_ne (by decide)))

theorem A_arg_6 (V : Valuation τ sig (Elt F)) : after (opsA (F := F)) V (Proc.devRef .tc main_arg6) = V (Proc.devRef .tc main_arg6) :=
  after_of_forall_not_mem (b := Proc.devRef .tc main_arg6) _ _ (List.forall_iff_forall_mem.mp (by
    simp only [opsA, List.Forall, nullary_writes, unary_writes, binary_writes, reshape_writes, Finset.mem_singleton]
    repeat' apply And.intro
    all_goals exact devRef_ne_of_ne (by decide)))

theorem A_arg_7 (V : Valuation τ sig (Elt F)) : after (opsA (F := F)) V (Proc.devRef .tc main_arg7) = V (Proc.devRef .tc main_arg7) :=
  after_of_forall_not_mem (b := Proc.devRef .tc main_arg7) _ _ (List.forall_iff_forall_mem.mp (by
    simp only [opsA, List.Forall, nullary_writes, unary_writes, binary_writes, reshape_writes, Finset.mem_singleton]
    repeat' apply And.intro
    all_goals exact devRef_ne_of_ne (by decide)))

theorem A_arg_8 (V : Valuation τ sig (Elt F)) : after (opsA (F := F)) V (Proc.devRef .tc main_arg8) = V (Proc.devRef .tc main_arg8) :=
  after_of_forall_not_mem (b := Proc.devRef .tc main_arg8) _ _ (List.forall_iff_forall_mem.mp (by
    simp only [opsA, List.Forall, nullary_writes, unary_writes, binary_writes, reshape_writes, Finset.mem_singleton]
    repeat' apply And.intro
    all_goals exact devRef_ne_of_ne (by decide)))

theorem A_arg_9 (V : Valuation τ sig (Elt F)) : after (opsA (F := F)) V (Proc.devRef .tc main_arg9) = V (Proc.devRef .tc main_arg9) :=
  after_of_forall_not_mem (b := Proc.devRef .tc main_arg9) _ _ (List.forall_iff_forall_mem.mp (by
    simp only [opsA, List.Forall, nullary_writes, unary_writes, binary_writes, reshape_writes, Finset.mem_singleton]
    repeat' apply And.intro
    all_goals exact devRef_ne_of_ne (by decide)))

theorem A_arg_10 (V : Valuation τ sig (Elt F)) : after (opsA (F := F)) V (Proc.devRef .tc main_arg10) = V (Proc.devRef .tc main_arg10) :=
  after_of_forall_not_mem (b := Proc.devRef .tc main_arg10) _ _ (List.forall_iff_forall_mem.mp (by
    simp only [opsA, List.Forall, nullary_writes, unary_writes, binary_writes, reshape_writes, Finset.mem_singleton]
    repeat' apply And.intro
    all_goals exact devRef_ne_of_ne (by decide)))

theorem A_arg_11 (V : Valuation τ sig (Elt F)) : after (opsA (F := F)) V (Proc.devRef .tc main_arg11) = V (Proc.devRef .tc main_arg11) :=
  after_of_forall_not_mem (b := Proc.devRef .tc main_arg11) _ _ (List.forall_iff_forall_mem.mp (by
    simp only [opsA, List.Forall, nullary_writes, unary_writes, binary_writes, reshape_writes, Finset.mem_singleton]
    repeat' apply And.intro
    all_goals exact devRef_ne_of_ne (by decide)))

theorem A_arg_12 (V : Valuation τ sig (Elt F)) : after (opsA (F := F)) V (Proc.devRef .tc main_arg12) = V (Proc.devRef .tc main_arg12) :=
  after_of_forall_not_mem (b := Proc.devRef .tc main_arg12) _ _ (List.forall_iff_forall_mem.mp (by
    simp only [opsA, List.Forall, nullary_writes, unary_writes, binary_writes, reshape_writes, Finset.mem_singleton]
    repeat' apply And.intro
    all_goals exact devRef_ne_of_ne (by decide)))

theorem A_arg_13 (V : Valuation τ sig (Elt F)) : after (opsA (F := F)) V (Proc.devRef .tc main_arg13) = V (Proc.devRef .tc main_arg13) :=
  after_of_forall_not_mem (b := Proc.devRef .tc main_arg13) _ _ (List.forall_iff_forall_mem.mp (by
    simp only [opsA, List.Forall, nullary_writes, unary_writes, binary_writes, reshape_writes, Finset.mem_singleton]
    repeat' apply And.intro
    all_goals exact devRef_ne_of_ne (by decide)))

theorem A_arg_14 (V : Valuation τ sig (Elt F)) : after (opsA (F := F)) V (Proc.devRef .tc main_arg14) = V (Proc.devRef .tc main_arg14) :=
  after_of_forall_not_mem (b := Proc.devRef .tc main_arg14) _ _ (List.forall_iff_forall_mem.mp (by
    simp only [opsA, List.Forall, nullary_writes, unary_writes, binary_writes, reshape_writes, Finset.mem_singleton]
    repeat' apply And.intro
    all_goals exact devRef_ne_of_ne (by decide)))

theorem A_arg_15 (V : Valuation τ sig (Elt F)) : after (opsA (F := F)) V (Proc.devRef .tc main_arg15) = V (Proc.devRef .tc main_arg15) :=
  after_of_forall_not_mem (b := Proc.devRef .tc main_arg15) _ _ (List.forall_iff_forall_mem.mp (by
    simp only [opsA, List.Forall, nullary_writes, unary_writes, binary_writes, reshape_writes, Finset.mem_singleton]
    repeat' apply And.intro
    all_goals exact devRef_ne_of_ne (by decide)))

theorem A_arg_16 (V : Valuation τ sig (Elt F)) : after (opsA (F := F)) V (Proc.devRef .tc main_arg16) = V (Proc.devRef .tc main_arg16) :=
  after_of_forall_not_mem (b := Proc.devRef .tc main_arg16) _ _ (List.forall_iff_forall_mem.mp (by
    simp only [opsA, List.Forall, nullary_writes, unary_writes, binary_writes, reshape_writes, Finset.mem_singleton]
    repeat' apply And.intro
    all_goals exact devRef_ne_of_ne (by decide)))

theorem A_arg_17 (V : Valuation τ sig (Elt F)) : after (opsA (F := F)) V (Proc.devRef .tc main_arg17) = V (Proc.devRef .tc main_arg17) :=
  after_of_forall_not_mem (b := Proc.devRef .tc main_arg17) _ _ (List.forall_iff_forall_mem.mp (by
    simp only [opsA, List.Forall, nullary_writes, unary_writes, binary_writes, reshape_writes, Finset.mem_singleton]
    repeat' apply And.intro
    all_goals exact devRef_ne_of_ne (by decide)))

theorem A_arg_18 (V : Valuation τ sig (Elt F)) : after (opsA (F := F)) V (Proc.devRef .tc main_arg18) = V (Proc.devRef .tc main_arg18) :=
  after_of_forall_not_mem (b := Proc.devRef .tc main_arg18) _ _ (List.forall_iff_forall_mem.mp (by
    simp only [opsA, List.Forall, nullary_writes, unary_writes, binary_writes, reshape_writes, Finset.mem_singleton]
    repeat' apply And.intro
    all_goals exact devRef_ne_of_ne (by decide)))

theorem A_arg_19 (V : Valuation τ sig (Elt F)) : after (opsA (F := F)) V (Proc.devRef .tc main_arg19) = V (Proc.devRef .tc main_arg19) :=
  after_of_forall_not_mem (b := Proc.devRef .tc main_arg19) _ _ (List.forall_iff_forall_mem.mp (by
    simp only [opsA, List.Forall, nullary_writes, unary_writes, binary_writes, reshape_writes, Finset.mem_singleton]
    repeat' apply And.intro
    all_goals exact devRef_ne_of_ne (by decide)))

theorem A_arg_20 (V : Valuation τ sig (Elt F)) : after (opsA (F := F)) V (Proc.devRef .tc main_arg20) = V (Proc.devRef .tc main_arg20) :=
  after_of_forall_not_mem (b := Proc.devRef .tc main_arg20) _ _ (List.forall_iff_forall_mem.mp (by
    simp only [opsA, List.Forall, nullary_writes, unary_writes, binary_writes, reshape_writes, Finset.mem_singleton]
    repeat' apply And.intro
    all_goals exact devRef_ne_of_ne (by decide)))

theorem A_arg_21 (V : Valuation τ sig (Elt F)) : after (opsA (F := F)) V (Proc.devRef .tc main_arg21) = V (Proc.devRef .tc main_arg21) :=
  after_of_forall_not_mem (b := Proc.devRef .tc main_arg21) _ _ (List.forall_iff_forall_mem.mp (by
    simp only [opsA, List.Forall, nullary_writes, unary_writes, binary_writes, reshape_writes, Finset.mem_singleton]
    repeat' apply And.intro
    all_goals exact devRef_ne_of_ne (by decide)))

theorem A_arg_22 (V : Valuation τ sig (Elt F)) : after (opsA (F := F)) V (Proc.devRef .tc main_arg22) = V (Proc.devRef .tc main_arg22) :=
  after_of_forall_not_mem (b := Proc.devRef .tc main_arg22) _ _ (List.forall_iff_forall_mem.mp (by
    simp only [opsA, List.Forall, nullary_writes, unary_writes, binary_writes, reshape_writes, Finset.mem_singleton]
    repeat' apply And.intro
    all_goals exact devRef_ne_of_ne (by decide)))

theorem A_arg_23 (V : Valuation τ sig (Elt F)) : after (opsA (F := F)) V (Proc.devRef .tc main_arg23) = V (Proc.devRef .tc main_arg23) :=
  after_of_forall_not_mem (b := Proc.devRef .tc main_arg23) _ _ (List.forall_iff_forall_mem.mp (by
    simp only [opsA, List.Forall, nullary_writes, unary_writes, binary_writes, reshape_writes, Finset.mem_singleton]
    repeat' apply And.intro
    all_goals exact devRef_ne_of_ne (by decide)))

theorem A_arg_24 (V : Valuation τ sig (Elt F)) : after (opsA (F := F)) V (Proc.devRef .tc main_arg24) = V (Proc.devRef .tc main_arg24) :=
  after_of_forall_not_mem (b := Proc.devRef .tc main_arg24) _ _ (List.forall_iff_forall_mem.mp (by
    simp only [opsA, List.Forall, nullary_writes, unary_writes, binary_writes, reshape_writes, Finset.mem_singleton]
    repeat' apply And.intro
    all_goals exact devRef_ne_of_ne (by decide)))

theorem A_arg_25 (V : Valuation τ sig (Elt F)) : after (opsA (F := F)) V (Proc.devRef .tc main_arg25) = V (Proc.devRef .tc main_arg25) :=
  after_of_forall_not_mem (b := Proc.devRef .tc main_arg25) _ _ (List.forall_iff_forall_mem.mp (by
    simp only [opsA, List.Forall, nullary_writes, unary_writes, binary_writes, reshape_writes, Finset.mem_singleton]
    repeat' apply And.intro
    all_goals exact devRef_ne_of_ne (by decide)))

end Cert.ReferenceIdeal.HandRun

end
-- ==== Proof.RefB.lean ====
/-
  The plain program's second stretch: from any contents `W` of the buffers, after the 79 network operations the result
  buffer holds the re-laid network array of the two embedding buffers and the weight and bias arguments as `W` has them.
-/
import proofs.«140130_j7078106103925_2_alg».proof.Proof.RefOps

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 8000000 in
theorem B_result (W : Valuation τ sig (Elt F)) :
    (after (opsB (F := F)) W (Proc.devRef .tc main_v100) : (⟨S4096x64x4, .f32⟩ : BufTy).Contents (Elt F))
      = shapeCast S4096x64x4 (netArray (W (Proc.devRef .tc main_v18)) (W (Proc.devRef .tc main_v39)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) (W (Proc.devRef .tc main_arg21)) (W (Proc.devRef .tc main_arg22)) (W (Proc.devRef .tc main_arg23)) (W (Proc.devRef .tc main_arg24)) (W (Proc.devRef .tc main_arg25))) shapeCasts_S262144x4_S4096x64x4 := by
  unfold netArray hidden8
  after_results_simp <;> rfl

end Cert.ReferenceIdeal.HandRun

end
-- ==== Proof.RefKept.lean ====
/-
  No operation of the plain program writes an argument: each writes only its own result buffer.
-/
import proofs.«140130_j7078106103925_2_alg».proof.Proof.RefOps

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

theorem kept_0 (V : Valuation τ sig (Elt F)) : after (ops (F := F)) V (Proc.devRef .tc main_arg0) = V (Proc.devRef .tc main_arg0) :=
  after_of_forall_not_mem (b := Proc.devRef .tc main_arg0) _ _ (List.forall_iff_forall_mem.mp (by
    simp only [ops, List.Forall, nullary_writes, unary_writes, binary_writes, reshape_writes, Finset.mem_singleton]
    repeat' apply And.intro
    all_goals exact devRef_ne_of_ne (by decide)))

theorem kept_1 (V : Valuation τ sig (Elt F)) : after (ops (F := F)) V (Proc.devRef .tc main_arg1) = V (Proc.devRef .tc main_arg1) :=
  after_of_forall_not_mem (b := Proc.devRef .tc main_arg1) _ _ (List.forall_iff_forall_mem.mp (by
    simp only [ops, List.Forall, nullary_writes, unary_writes, binary_writes, reshape_writes, Finset.mem_singleton]
    repeat' apply And.intro
    all_goals exact devRef_ne_of_ne (by decide)))

theorem kept_2 (V : Valuation τ sig (Elt F)) : after (ops (F := F)) V (Proc.devRef .tc main_arg2) = V (Proc.devRef .tc main_arg2) :=
  after_of_forall_not_mem (b := Proc.devRef .tc main_arg2) _ _ (List.forall_iff_forall_mem.mp (by
    simp only [ops, List.Forall, nullary_writes, unary_writes, binary_writes, reshape_writes, Finset.mem_singleton]
    repeat' apply And.intro
    all_goals exact devRef_ne_of_ne (by decide)))

theorem kept_3 (V : Valuation τ sig (Elt F)) : after (ops (F := F)) V (Proc.devRef .tc main_arg3) = V (Proc.devRef .tc main_arg3) :=
  after_of_forall_not_mem (b := Proc.devRef .tc main_arg3) _ _ (List.forall_iff_forall_mem.mp (by
    simp only [ops, List.Forall, nullary_writes, unary_writes, binary_writes, reshape_writes, Finset.mem_singleton]
    repeat' apply And.intro
    all_goals exact devRef_ne_of_ne (by decide)))

theorem kept_4 (V : Valuation τ sig (Elt F)) : after (ops (F := F)) V (Proc.devRef .tc main_arg4) = V (Proc.devRef .tc main_arg4) :=
  after_of_forall_not_mem (b := Proc.devRef .tc main_arg4) _ _ (List.forall_iff_forall_mem.mp (by
    simp only [ops, List.Forall, nullary_writes, unary_writes, binary_writes, reshape_writes, Finset.mem_singleton]
    repeat' apply And.intro
    all_goals exact devRef_ne_of_ne (by decide)))

theorem kept_5 (V : Valuation τ sig (Elt F)) : after (ops (F := F)) V (Proc.devRef .tc main_arg5) = V (Proc.devRef .tc main_arg5) :=
  after_of_forall_not_mem (b := Proc.devRef .tc main_arg5) _ _ (List.forall_iff_forall_mem.mp (by
    simp only [ops, List.Forall, nullary_writes, unary_writes, binary_writes, reshape_writes, Finset.mem_singleton]
    repeat' apply And.intro
    all_goals exact devRef_ne_of_ne (by decide)))

theorem kept_6 (V : Valuation τ sig (Elt F)) : after (ops (F := F)) V (Proc.devRef .tc main_arg6) = V (Proc.devRef .tc main_arg6) :=
  after_of_forall_not_mem (b := Proc.devRef .tc main_arg6) _ _ (List.forall_iff_forall_mem.mp (by
    simp only [ops, List.Forall, nullary_writes, unary_writes, binary_writes, reshape_writes, Finset.mem_singleton]
    repeat' apply And.intro
    all_goals exact devRef_ne_of_ne (by decide)))

theorem kept_7 (V : Valuation τ sig (Elt F)) : after (ops (F := F)) V (Proc.devRef .tc main_arg7) = V (Proc.devRef .tc main_arg7) :=
  after_of_forall_not_mem (b := Proc.devRef .tc main_arg7) _ _ (List.forall_iff_forall_mem.mp (by
    simp only [ops, List.Forall, nullary_writes, unary_writes, binary_writes, reshape_writes, Finset.mem_singleton]
    repeat' apply And.intro
    all_goals exact devRef_ne_of_ne (by decide)))

theorem kept_8 (V : Valuation τ sig (Elt F)) : after (ops (F := F)) V (Proc.devRef .tc main_arg8) = V (Proc.devRef .tc main_arg8) :=
  after_of_forall_not_mem (b := Proc.devRef .tc main_arg8) _ _ (List.forall_iff_forall_mem.mp (by
    simp only [ops, List.Forall, nullary_writes, unary_writes, binary_writes, reshape_writes, Finset.mem_singleton]
    repeat' apply And.intro
    all_goals exact devRef_ne_of_ne (by decide)))

theorem kept_9 (V : Valuation τ sig (Elt F)) : after (ops (F := F)) V (Proc.devRef .tc main_arg9) = V (Proc.devRef .tc main_arg9) :=
  after_of_forall_not_mem (b := Proc.devRef .tc main_arg9) _ _ (List.forall_iff_forall_mem.mp (by
    simp only [ops, List.Forall, nullary_writes, unary_writes, binary_writes, reshape_writes, Finset.mem_singleton]
    repeat' apply And.intro
    all_goals exact devRef_ne_of_ne (by decide)))

theorem kept_10 (V : Valuation τ sig (Elt F)) : after (ops (F := F)) V (Proc.devRef .tc main_arg10) = V (Proc.devRef .tc main_arg10) :=
  after_of_forall_not_mem (b := Proc.devRef .tc main_arg10) _ _ (List.forall_iff_forall_mem.mp (by
    simp only [ops, List.Forall, nullary_writes, unary_writes, binary_writes, reshape_writes, Finset.mem_singleton]
    repeat' apply And.intro
    all_goals exact devRef_ne_of_ne (by decide)))

theorem kept_11 (V : Valuation τ sig (Elt F)) : after (ops (F := F)) V (Proc.devRef .tc main_arg11) = V (Proc.devRef .tc main_arg11) :=
  after_of_forall_not_mem (b := Proc.devRef .tc main_arg11) _ _ (List.forall_iff_forall_mem.mp (by
    simp only [ops, List.Forall, nullary_writes, unary_writes, binary_writes, reshape_writes, Finset.mem_singleton]
    repeat' apply And.intro
    all_goals exact devRef_ne_of_ne (by decide)))

theorem kept_12 (V : Valuation τ sig (Elt F)) : after (ops (F := F)) V (Proc.devRef .tc main_arg12) = V (Proc.devRef .tc main_arg12) :=
  after_of_forall_not_mem (b := Proc.devRef .tc main_arg12) _ _ (List.forall_iff_forall_mem.mp (by
    simp only [ops, List.Forall, nullary_writes, unary_writes, binary_writes, reshape_writes, Finset.mem_singleton]
    repeat' apply And.intro
    all_goals exact devRef_ne_of_ne (by decide)))

theorem kept_13 (V : Valuation τ sig (Elt F)) : after (ops (F := F)) V (Proc.devRef .tc main_arg13) = V (Proc.devRef .tc main_arg13) :=
  after_of_forall_not_mem (b := Proc.devRef .tc main_arg13) _ _ (List.forall_iff_forall_mem.mp (by
    simp only [ops, List.Forall, nullary_writes, unary_writes, binary_writes, reshape_writes, Finset.mem_singleton]
    repeat' apply And.intro
    all_goals exact devRef_ne_of_ne (by decide)))

theorem kept_14 (V : Valuation τ sig (Elt F)) : after (ops (F := F)) V (Proc.devRef .tc main_arg14) = V (Proc.devRef .tc main_arg14) :=
  after_of_forall_not_mem (b := Proc.devRef .tc main_arg14) _ _ (List.forall_iff_forall_mem.mp (by
    simp only [ops, List.Forall, nullary_writes, unary_writes, binary_writes, reshape_writes, Finset.mem_singleton]
    repeat' apply And.intro
    all_goals exact devRef_ne_of_ne (by decide)))

theorem kept_15 (V : Valuation τ sig (Elt F)) : after (ops (F := F)) V (Proc.devRef .tc main_arg15) = V (Proc.devRef .tc main_arg15) :=
  after_of_forall_not_mem (b := Proc.devRef .tc main_arg15) _ _ (List.forall_iff_forall_mem.mp (by
    simp only [ops, List.Forall, nullary_writes, unary_writes, binary_writes, reshape_writes, Finset.mem_singleton]
    repeat' apply And.intro
    all_goals exact devRef_ne_of_ne (by decide)))

theorem kept_16 (V : Valuation τ sig (Elt F)) : after (ops (F := F)) V (Proc.devRef .tc main_arg16) = V (Proc.devRef .tc main_arg16) :=
  after_of_forall_not_mem (b := Proc.devRef .tc main_arg16) _ _ (List.forall_iff_forall_mem.mp (by
    simp only [ops, List.Forall, nullary_writes, unary_writes, binary_writes, reshape_writes, Finset.mem_singleton]
    repeat' apply And.intro
    all_goals exact devRef_ne_of_ne (by decide)))

theorem kept_17 (V : Valuation τ sig (Elt F)) : after (ops (F := F)) V (Proc.devRef .tc main_arg17) = V (Proc.devRef .tc main_arg17) :=
  after_of_forall_not_mem (b := Proc.devRef .tc main_arg17) _ _ (List.forall_iff_forall_mem.mp (by
    simp only [ops, List.Forall, nullary_writes, unary_writes, binary_writes, reshape_writes, Finset.mem_singleton]
    repeat' apply And.intro
    all_goals exact devRef_ne_of_ne (by decide)))

theorem kept_18 (V : Valuation τ sig (Elt F)) : after (ops (F := F)) V (Proc.devRef .tc main_arg18) = V (Proc.devRef .tc main_arg18) :=
  after_of_forall_not_mem (b := Proc.devRef .tc main_arg18) _ _ (List.forall_iff_forall_mem.mp (by
    simp only [ops, List.Forall, nullary_writes, unary_writes, binary_writes, reshape_writes, Finset.mem_singleton]
    repeat' apply And.intro
    all_goals exact devRef_ne_of_ne (by decide)))

theorem kept_19 (V : Valuation τ sig (Elt F)) : after (ops (F := F)) V (Proc.devRef .tc main_arg19) = V (Proc.devRef .tc main_arg19) :=
  after_of_forall_not_mem (b := Proc.devRef .tc main_arg19) _ _ (List.forall_iff_forall_mem.mp (by
    simp only [ops, List.Forall, nullary_writes, unary_writes, binary_writes, reshape_writes, Finset.mem_singleton]
    repeat' apply And.intro
    all_goals exact devRef_ne_of_ne (by decide)))

theorem kept_20 (V : Valuation τ sig (Elt F)) : after (ops (F := F)) V (Proc.devRef .tc main_arg20) = V (Proc.devRef .tc main_arg20) :=
  after_of_forall_not_mem (b := Proc.devRef .tc main_arg20) _ _ (List.forall_iff_forall_mem.mp (by
    simp only [ops, List.Forall, nullary_writes, unary_writes, binary_writes, reshape_writes, Finset.mem_singleton]
    repeat' apply And.intro
    all_goals exact devRef_ne_of_ne (by decide)))

theorem kept_21 (V : Valuation τ sig (Elt F)) : after (ops (F := F)) V (Proc.devRef .tc main_arg21) = V (Proc.devRef .tc main_arg21) :=
  after_of_forall_not_mem (b := Proc.devRef .tc main_arg21) _ _ (List.forall_iff_forall_mem.mp (by
    simp only [ops, List.Forall, nullary_writes, unary_writes, binary_writes, reshape_writes, Finset.mem_singleton]
    repeat' apply And.intro
    all_goals exact devRef_ne_of_ne (by decide)))

theorem kept_22 (V : Valuation τ sig (Elt F)) : after (ops (F := F)) V (Proc.devRef .tc main_arg22) = V (Proc.devRef .tc main_arg22) :=
  after_of_forall_not_mem (b := Proc.devRef .tc main_arg22) _ _ (List.forall_iff_forall_mem.mp (by
    simp only [ops, List.Forall, nullary_writes, unary_writes, binary_writes, reshape_writes, Finset.mem_singleton]
    repeat' apply And.intro
    all_goals exact devRef_ne_of_ne (by decide)))

theorem kept_23 (V : Valuation τ sig (Elt F)) : after (ops (F := F)) V (Proc.devRef .tc main_arg23) = V (Proc.devRef .tc main_arg23) :=
  after_of_forall_not_mem (b := Proc.devRef .tc main_arg23) _ _ (List.forall_iff_forall_mem.mp (by
    simp only [ops, List.Forall, nullary_writes, unary_writes, binary_writes, reshape_writes, Finset.mem_singleton]
    repeat' apply And.intro
    all_goals exact devRef_ne_of_ne (by decide)))

theorem kept_24 (V : Valuation τ sig (Elt F)) : after (ops (F := F)) V (Proc.devRef .tc main_arg24) = V (Proc.devRef .tc main_arg24) :=
  after_of_forall_not_mem (b := Proc.devRef .tc main_arg24) _ _ (List.forall_iff_forall_mem.mp (by
    simp only [ops, List.Forall, nullary_writes, unary_writes, binary_writes, reshape_writes, Finset.mem_singleton]
    repeat' apply And.intro
    all_goals exact devRef_ne_of_ne (by decide)))

theorem kept_25 (V : Valuation τ sig (Elt F)) : after (ops (F := F)) V (Proc.devRef .tc main_arg25) = V (Proc.devRef .tc main_arg25) :=
  after_of_forall_not_mem (b := Proc.devRef .tc main_arg25) _ _ (List.forall_iff_forall_mem.mp (by
    simp only [ops, List.Forall, nullary_writes, unary_writes, binary_writes, reshape_writes, Finset.mem_singleton]
    repeat' apply And.intro
    all_goals exact devRef_ne_of_ne (by decide)))

end Cert.ReferenceIdeal.HandRun

end
-- ==== Proof.RefRun.lean ====
/-
  The plain program's run: every weakly fair execution terminates with the result buffer at the re-laid network array of
  the arguments' embeddings, and the arguments unchanged.
-/
import proofs.«140130_j7078106103925_2_alg».proof.Proof.RefA
import proofs.«140130_j7078106103925_2_alg».proof.Proof.RefB
import proofs.«140130_j7078106103925_2_alg».proof.Proof.RefKept

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- After all the operations the result buffer holds the re-laid network array of the arguments. -/
theorem result_eq (m : (ℓ : Loc nD τ sig) → Buf (Elt F) ℓ) (c : Dev nD) :
    after (ops (F := F)) (launchContents m c) (Proc.devRef .tc main_v100)
      = (shapeCast S4096x64x4 (netArray (embedPts (m ((c.tc : Thread nD τ).loc main_arg0))) (embedDirs (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))) shapeCasts_S262144x4_S4096x64x4 : (⟨S4096x64x4, .f32⟩ : BufTy).Contents (Elt F)) := by
  rw [ops_split, after_append, B_result, A_pts, A_dirs, A_arg_2, A_arg_3, A_arg_4, A_arg_5, A_arg_6, A_arg_7, A_arg_8, A_arg_9, A_arg_10, A_arg_11, A_arg_12, A_arg_13, A_arg_14, A_arg_15, A_arg_16, A_arg_17, A_arg_18, A_arg_19, A_arg_20, A_arg_21, A_arg_22, A_arg_23, A_arg_24, A_arg_25]

/-- Every weakly fair execution of the plain program terminates with its result at the re-laid network array of the
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v100) = shapeCast S4096x64x4 (netArray (embedPts (m ((c.tc : Thread nD τ).loc main_arg0))) (embedDirs (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))) shapeCasts_S262144x4_S4096x64x4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c => ⟨(h c main_v100).trans (result_eq m c),
      (h c main_arg0).trans (kept_0 _),
      (h c main_arg1).trans (kept_1 _),
      (h c main_arg2).trans (kept_2 _),
      (h c main_arg3).trans (kept_3 _),
      (h c main_arg4).trans (kept_4 _),
      (h c main_arg5).trans (kept_5 _),
      (h c main_arg6).trans (kept_6 _),
      (h c main_arg7).trans (kept_7 _),
      (h c main_arg8).trans (kept_8 _),
      (h c main_arg9).trans (kept_9 _),
      (h c main_arg10).trans (kept_10 _),
      (h c main_arg11).trans (kept_11 _),
      (h c main_arg12).trans (kept_12 _),
      (h c main_arg13).trans (kept_13 _),
      (h c main_arg14).trans (kept_14 _),
      (h c main_arg15).trans (kept_15 _),
      (h c main_arg16).trans (kept_16 _),
      (h c main_arg17).trans (kept_17 _),
      (h c main_arg18).trans (kept_18 _),
      (h c main_arg19).trans (kept_19 _),
      (h c main_arg20).trans (kept_20 _),
      (h c main_arg21).trans (kept_21 _),
      (h c main_arg22).trans (kept_22 _),
      (h c main_arg23).trans (kept_23 _),
      (h c main_arg24).trans (kept_24 _),
      (h c main_arg25).trans (kept_25 _)⟩)
    (run_seq scopedRefs_eq scopedSems_eq defs main (fun _ => ops) main_eq (fun _ => ops_sub) m ρ)

end Cert.ReferenceIdeal.HandRun

end
-- ==== Proof.Bridge.lean ====
/-
  The two programs compute the same array.

  The tiled program's result is the re-laying of an array whose row `n` is the split arrangement of the network on row
  `n` of the call's inputs; those inputs are the host's preparation of the arguments, on which the split arrangement
  is the plain arrangement on the arguments themselves; and row `n` of the plain program's array (before the same
  re-laying) is the plain arrangement on the same rows. The positional embeddings are computed by the same host
  operations in both programs.
-/
import proofs.«140130_j7078106103925_2_alg».proof.Proof.IdealValue
import proofs.«140130_j7078106103925_2_alg».proof.Proof.GlueB
import proofs.«140130_j7078106103925_2_alg».proof.Proof.GlueC
import proofs.«140130_j7078106103925_2_alg».proof.Proof.GlueIdx
import proofs.«140130_j7078106103925_2_alg».proof.Proof.GlueA
import proofs.«140130_j7078106103925_2_alg».proof.Proof.RefRows
import proofs.«140130_j7078106103925_2_alg».proof.Proof.RefRun

set_option maxRecDepth 16384

noncomputable section

namespace Cert.Proof.Bridge

open Cert.KernelIdeal Cert.KernelIdeal.Gen Cert.KernelIdeal.Frm Cert.KernelIdeal.Arr
open Idealize.ShloMosaic Idealize.ShloMosaic.TcCoe Idealize.ShloMosaic.ValueIdx Idealize.SL.Sem Cert.RowNet Cert.TileRows

variable (m : (ℓ : Loc nD τ sig) → Buf (Elt Ideal) ℓ)

set_option maxHeartbeats 4000000 in
/-- Row `n` of the tiled call's result is the plain arrangement on row `n` of the embedded arguments. -/
theorem resultV_rows (c : Dev nD) (n : Fin 262144) (j : Fin 4) :
    resultV m c (ix2 n j) = plainRow (rowOf (Cert.KernelIdeal.Glue.embedPts (F := Ideal) (m ((c : Thread nD τ).loc main_arg0))) n)
      (rowOf (Cert.KernelIdeal.Glue.embedDirs (F := Ideal) (m ((c : Thread nD τ).loc main_arg1))) n)
      (matOf (m ((c : Thread nD τ).loc main_arg2))) (vec1 (m ((c : Thread nD τ).loc main_arg3))) (matOf (m ((c : Thread nD τ).loc main_arg4))) (vec1 (m ((c : Thread nD τ).loc main_arg5))) (matOf (m ((c : Thread nD τ).loc main_arg6))) (vec1 (m ((c : Thread nD τ).loc main_arg7))) (matOf (m ((c : Thread nD τ).loc main_arg8))) (vec1 (m ((c : Thread nD τ).loc main_arg9))) (matOf (m ((c : Thread nD τ).loc main_arg10))) (vec1 (m ((c : Thread nD τ).loc main_arg11))) (matOf (m ((c : Thread nD τ).loc main_arg12))) (vec1 (m ((c : Thread nD τ).loc main_arg13))) (matOf (m ((c : Thread nD τ).loc main_arg14))) (vec1 (m ((c : Thread nD τ).loc main_arg15))) (matOf (m ((c : Thread nD τ).loc main_arg16))) (vec1 (m ((c : Thread nD τ).loc main_arg17))) (matOf (m ((c : Thread nD τ).loc main_arg18))) (vec1 (m ((c : Thread nD τ).loc main_arg19))) (matOf (m ((c : Thread nD τ).loc main_arg20))) (vec1 (m ((c : Thread nD τ).loc main_arg21))) (matOf (m ((c : Thread nD τ).loc main_arg22))) (vec1 (m ((c : Thread nD τ).loc main_arg23))) (matOf (m ((c : Thread nD τ).loc main_arg24))) (vec1 (m ((c : Thread nD τ).loc main_arg25))) j := by
  have e0 : (V m c main_v40 : (⟨S262144x63, .bf16⟩ : BufTy).Contents (Elt Ideal)) = (truncf (F := Ideal) .bf16 (Cert.KernelIdeal.Glue.embedPts (F := Ideal) (m ((c : Thread nD τ).loc main_arg0))) bitsLt_bf16_f32) := Cert.KernelIdeal.Glue.V_0 m c
  have e1 : (V m c main_v41 : (⟨S262144x27, .bf16⟩ : BufTy).Contents (Elt Ideal)) = (truncf (F := Ideal) .bf16 (Cert.KernelIdeal.Glue.embedDirs (F := Ideal) (m ((c : Thread nD τ).loc main_arg1))) bitsLt_bf16_f32) := Cert.KernelIdeal.Glue.V_1 m c
  have e2 : (V m c main_v50 : (⟨S63x256, .bf16⟩ : BufTy).Contents (Elt Ideal)) = (truncf (F := Ideal) .bf16 (m ((c : Thread nD τ).loc main_arg2)) bitsLt_bf16_f32) := Cert.KernelIdeal.Glue.V_2 m c
  have e3 : (V m c main_v57 : (⟨S1x256, .f32⟩ : BufTy).Contents (Elt Ideal)) = (shapeCast S1x256 (m ((c : Thread nD τ).loc main_arg3)) shapeCasts_S256_S1x256) := Cert.KernelIdeal.Glue.V_3 m c
  have e4 : (V m c main_v51 : (⟨S256x256, .bf16⟩ : BufTy).Contents (Elt Ideal)) = (truncf (F := Ideal) .bf16 (m ((c : Thread nD τ).loc main_arg4)) bitsLt_bf16_f32) := Cert.KernelIdeal.Glue.V_4 m c
  have e5 : (V m c main_v58 : (⟨S1x256, .f32⟩ : BufTy).Contents (Elt Ideal)) = (shapeCast S1x256 (m ((c : Thread nD τ).loc main_arg5)) shapeCasts_S256_S1x256) := Cert.KernelIdeal.Glue.V_5 m c
  have e6 : (V m c main_v52 : (⟨S256x256, .bf16⟩ : BufTy).Contents (Elt Ideal)) = (truncf (F := Ideal) .bf16 (m ((c : Thread nD τ).loc main_arg6)) bitsLt_bf16_f32) := Cert.KernelIdeal.Glue.V_6 m c
  have e7 : (V m c main_v59 : (⟨S1x256, .f32⟩ : BufTy).Contents (Elt Ideal)) = (shapeCast S1x256 (m ((c : Thread nD τ).loc main_arg7)) shapeCasts_S256_S1x256) := Cert.KernelIdeal.Glue.V_7 m c
  have e8 : (V m c main_v53 : (⟨S256x256, .bf16⟩ : BufTy).Contents (Elt Ideal)) = (truncf (F := Ideal) .bf16 (m ((c : Thread nD τ).loc main_arg8)) bitsLt_bf16_f32) := Cert.KernelIdeal.Glue.V_8 m c
  have e9 : (V m c main_v60 : (⟨S1x256, .f32⟩ : BufTy).Contents (Elt Ideal)) = (shapeCast S1x256 (m ((c : Thread nD τ).loc main_arg9)) shapeCasts_S256_S1x256) := Cert.KernelIdeal.Glue.V_9 m c
  have e10 : (V m c main_v54 : (⟨S256x256, .bf16⟩ : BufTy).Contents (Elt Ideal)) = (truncf (F := Ideal) .bf16 (m ((c : Thread nD τ).loc main_arg10)) bitsLt_bf16_f32) := Cert.KernelIdeal.Glue.V_10 m c
  have e11 : (V m c main_v61 : (⟨S1x256, .f32⟩ : BufTy).Contents (Elt Ideal)) = (shapeCast S1x256 (m ((c : Thread nD τ).loc main_arg11)) shapeCasts_S256_S1x256) := Cert.KernelIdeal.Glue.V_11 m c
  have e12 : (V m c main_v64 : (⟨S63x256, .bf16⟩ : BufTy).Contents (Elt Ideal)) = (truncf (F := Ideal) .bf16 (extractStridedSlice S63x256 ![0, 0] (m ((c : Thread nD τ).loc main_arg12)) slices_S319x256_S63x256_0_0) bitsLt_bf16_f32) := Cert.KernelIdeal.Glue.V_12 m c
  have e13 : (V m c main_v65 : (⟨S256x256, .bf16⟩ : BufTy).Contents (Elt Ideal)) = (truncf (F := Ideal) .bf16 (extractStridedSlice S256x256 ![63, 0] (m ((c : Thread nD τ).loc main_arg12)) slices_S319x256_S256x256_63_0) bitsLt_bf16_f32) := Cert.KernelIdeal.Glue.V_13 m c
  have e14 : (V m c main_v66 : (⟨S1x256, .f32⟩ : BufTy).Contents (Elt Ideal)) = (shapeCast S1x256 (m ((c : Thread nD τ).loc main_arg13)) shapeCasts_S256_S1x256) := Cert.KernelIdeal.Glue.V_14 m c
  have e15 : (V m c main_v55 : (⟨S256x256, .bf16⟩ : BufTy).Contents (Elt Ideal)) = (truncf (F := Ideal) .bf16 (m ((c : Thread nD τ).loc main_arg14)) bitsLt_bf16_f32) := Cert.KernelIdeal.Glue.V_15 m c
  have e16 : (V m c main_v62 : (⟨S1x256, .f32⟩ : BufTy).Contents (Elt Ideal)) = (shapeCast S1x256 (m ((c : Thread nD τ).loc main_arg15)) shapeCasts_S256_S1x256) := Cert.KernelIdeal.Glue.V_16 m c
  have e17 : (V m c main_v56 : (⟨S256x256, .bf16⟩ : BufTy).Contents (Elt Ideal)) = (truncf (F := Ideal) .bf16 (m ((c : Thread nD τ).loc main_arg16)) bitsLt_bf16_f32) := Cert.KernelIdeal.Glue.V_17 m c
  have e18 : (V m c main_v63 : (⟨S1x256, .f32⟩ : BufTy).Contents (Elt Ideal)) = (shapeCast S1x256 (m ((c : Thread nD τ).loc main_arg17)) shapeCasts_S256_S1x256) := Cert.KernelIdeal.Glue.V_18 m c
  have e19 : (V m c main_v67 : (⟨S256x128, .bf16⟩ : BufTy).Contents (Elt Ideal)) = (truncf (F := Ideal) .bf16 (extractStridedSlice S256x128 ![0, 0] (m ((c : Thread nD τ).loc main_arg18)) slices_S283x128_S256x128_0_0) bitsLt_bf16_f32) := Cert.KernelIdeal.Glue.V_19 m c
  have e20 : (V m c main_v68 : (⟨S27x128, .bf16⟩ : BufTy).Contents (Elt Ideal)) = (truncf (F := Ideal) .bf16 (extractStridedSlice S27x128 ![256, 0] (m ((c : Thread nD τ).loc main_arg18)) slices_S283x128_S27x128_256_0) bitsLt_bf16_f32) := Cert.KernelIdeal.Glue.V_20 m c
  have e21 : (V m c main_v69 : (⟨S1x128, .f32⟩ : BufTy).Contents (Elt Ideal)) = (shapeCast S1x128 (m ((c : Thread nD τ).loc main_arg19)) shapeCasts_S128_S1x128) := Cert.KernelIdeal.Glue.V_21 m c
  have e22 : (V m c main_v70 : (⟨S256x384, .bf16⟩ : BufTy).Contents (Elt Ideal)) = (truncf (F := Ideal) .bf16 (concatenate S256x384 1 [⟨S256x256, (m ((c : Thread nD τ).loc main_arg20))⟩, ⟨S256x1, (m ((c : Thread nD τ).loc main_arg22))⟩, ⟨S256x127, (broadcastInDim S256x127 ![] bcast_S_S256x127 (constant (F := Ideal) S_ .f32 0x00000000#32))⟩] concatenates_S256x256_S256x1_S256x127_S256x384_d1) bitsLt_bf16_f32) := Cert.KernelIdeal.Glue.V_22 m c
  have e23 : (V m c main_v71 : (⟨S1x384, .f32⟩ : BufTy).Contents (Elt Ideal)) = (shapeCast S1x384 (concatenate S384 0 [⟨S256, (m ((c : Thread nD τ).loc main_arg21))⟩, ⟨S1, (m ((c : Thread nD τ).loc main_arg23))⟩, ⟨S127, (broadcastInDim S127 ![] bcast_S_S127 (constant (F := Ideal) S_ .f32 0x00000000#32))⟩] concatenates_S256_S1_S127_S384_d0) shapeCasts_S384_S1x384) := Cert.KernelIdeal.Glue.V_23 m c
  have e24 : (V m c main_v72 : (⟨S128x3, .bf16⟩ : BufTy).Contents (Elt Ideal)) = (truncf (F := Ideal) .bf16 (m ((c : Thread nD τ).loc main_arg24)) bitsLt_bf16_f32) := Cert.KernelIdeal.Glue.V_24 m c
  have e25 : (V m c main_v73 : (⟨S1x3, .f32⟩ : BufTy).Contents (Elt Ideal)) = (shapeCast S1x3 (m ((c : Thread nD τ).loc main_arg25)) shapeCasts_S3_S1x3) := Cert.KernelIdeal.Glue.V_25 m c
  have r0 : rowOf (V m c main_v40 : (⟨S262144x63, .bf16⟩ : BufTy).Contents (Elt Ideal)) n = rowOf (Cert.KernelIdeal.Glue.embedPts (F := Ideal) (m ((c : Thread nD τ).loc main_arg0))) n := by rw [e0]; first | done | rfl
  have r1 : rowOf (V m c main_v41 : (⟨S262144x27, .bf16⟩ : BufTy).Contents (Elt Ideal)) n = rowOf (Cert.KernelIdeal.Glue.embedDirs (F := Ideal) (m ((c : Thread nD τ).loc main_arg1))) n := by rw [e1]; first | done | rfl
  have w2 : matOf (V m c main_v50 : (⟨S63x256, .bf16⟩ : BufTy).Contents (Elt Ideal)) = matOf (m ((c : Thread nD τ).loc main_arg2)) := by rw [e2]; first | done | rfl
  have w4 : matOf (V m c main_v51 : (⟨S256x256, .bf16⟩ : BufTy).Contents (Elt Ideal)) = matOf (m ((c : Thread nD τ).loc main_arg4)) := by rw [e4]; first | done | rfl
  have w6 : matOf (V m c main_v52 : (⟨S256x256, .bf16⟩ : BufTy).Contents (Elt Ideal)) = matOf (m ((c : Thread nD τ).loc main_arg6)) := by rw [e6]; first | done | rfl
  have w8 : matOf (V m c main_v53 : (⟨S256x256, .bf16⟩ : BufTy).Contents (Elt Ideal)) = matOf (m ((c : Thread nD τ).loc main_arg8)) := by rw [e8]; first | done | rfl
  have w10 : matOf (V m c main_v54 : (⟨S256x256, .bf16⟩ : BufTy).Contents (Elt Ideal)) = matOf (m ((c : Thread nD τ).loc main_arg10)) := by rw [e10]; first | done | rfl
  have w15 : matOf (V m c main_v55 : (⟨S256x256, .bf16⟩ : BufTy).Contents (Elt Ideal)) = matOf (m ((c : Thread nD τ).loc main_arg14)) := by rw [e15]; first | done | rfl
  have w17 : matOf (V m c main_v56 : (⟨S256x256, .bf16⟩ : BufTy).Contents (Elt Ideal)) = matOf (m ((c : Thread nD τ).loc main_arg16)) := by rw [e17]; first | done | rfl
  have w24 : matOf (V m c main_v72 : (⟨S128x3, .bf16⟩ : BufTy).Contents (Elt Ideal)) = matOf (m ((c : Thread nD τ).loc main_arg24)) := by rw [e24]; first | done | rfl
  have b3 : vecOf (V m c main_v57 : (⟨S1x256, .f32⟩ : BufTy).Contents (Elt Ideal)) = vec1 (m ((c : Thread nD τ).loc main_arg3)) := by rw [e3]; exact vecOf_cast _ _
  have b5 : vecOf (V m c main_v58 : (⟨S1x256, .f32⟩ : BufTy).Contents (Elt Ideal)) = vec1 (m ((c : Thread nD τ).loc main_arg5)) := by rw [e5]; exact vecOf_cast _ _
  have b7 : vecOf (V m c main_v59 : (⟨S1x256, .f32⟩ : BufTy).Contents (Elt Ideal)) = vec1 (m ((c : Thread nD τ).loc main_arg7)) := by rw [e7]; exact vecOf_cast _ _
  have b9 : vecOf (V m c main_v60 : (⟨S1x256, .f32⟩ : BufTy).Contents (Elt Ideal)) = vec1 (m ((c : Thread nD τ).loc main_arg9)) := by rw [e9]; exact vecOf_cast _ _
  have b11 : vecOf (V m c main_v61 : (⟨S1x256, .f32⟩ : BufTy).Contents (Elt Ideal)) = vec1 (m ((c : Thread nD τ).loc main_arg11)) := by rw [e11]; exact vecOf_cast _ _
  have b14 : vecOf (V m c main_v66 : (⟨S1x256, .f32⟩ : BufTy).Contents (Elt Ideal)) = vec1 (m ((c : Thread nD τ).loc main_arg13)) := by rw [e14]; exact vecOf_cast _ _
  have b16 : vecOf (V m c main_v62 : (⟨S1x256, .f32⟩ : BufTy).Contents (Elt Ideal)) = vec1 (m ((c : Thread nD τ).loc main_arg15)) := by rw [e16]; exact vecOf_cast _ _
  have b18 : vecOf (V m c main_v63 : (⟨S1x256, .f32⟩ : BufTy).Contents (Elt Ideal)) = vec1 (m ((c : Thread nD τ).loc main_arg17)) := by rw [e18]; exact vecOf_cast _ _
  have b21 : vecOf (V m c main_v69 : (⟨S1x128, .f32⟩ : BufTy).Contents (Elt Ideal)) = vec1 (m ((c : Thread nD τ).loc main_arg19)) := by rw [e21]; exact vecOf_cast _ _
  have b25 : vecOf (V m c main_v73 : (⟨S1x3, .f32⟩ : BufTy).Contents (Elt Ideal)) = vec1 (m ((c : Thread nD τ).loc main_arg25)) := by rw [e25]; exact vecOf_cast _ _
  have h5a : ∀ k q, matOf (V m c main_v64 : (⟨S63x256, .bf16⟩ : BufTy).Contents (Elt Ideal)) k q = matOf (m ((c : Thread nD τ).loc main_arg12)) (Fin.castAdd 256 k) q := by rw [e12]; exact fun k q => Cert.KernelIdeal.Glue.w5_top _ k q
  have h5b : ∀ k q, matOf (V m c main_v65 : (⟨S256x256, .bf16⟩ : BufTy).Contents (Elt Ideal)) k q = matOf (m ((c : Thread nD τ).loc main_arg12)) (Fin.natAdd 63 k) q := by rw [e13]; exact fun k q => Cert.KernelIdeal.Glue.w5_bot _ k q
  have hvt : ∀ k q, matOf (V m c main_v67 : (⟨S256x128, .bf16⟩ : BufTy).Contents (Elt Ideal)) k q = matOf (m ((c : Thread nD τ).loc main_arg18)) (Fin.castAdd 27 k) q := by rw [e19]; exact fun k q => Cert.KernelIdeal.Glue.vw_top _ k q
  have hvb : ∀ k q, matOf (V m c main_v68 : (⟨S27x128, .bf16⟩ : BufTy).Contents (Elt Ideal)) k q = matOf (m ((c : Thread nD τ).loc main_arg18)) (Fin.natAdd 256 k) q := by rw [e20]; exact fun k q => Cert.KernelIdeal.Glue.vw_bot _ k q
  have hfaF : ∀ k (q : Fin 256), matOf (V m c main_v70 : (⟨S256x384, .bf16⟩ : BufTy).Contents (Elt Ideal)) k ⟨0 + q.val, by omega⟩ = matOf (m ((c : Thread nD τ).loc main_arg20)) k q := by rw [e22]; exact fun k q => Cert.KernelIdeal.Glue.fa_feat _ _ _ k q
  have hfaA : ∀ k (j : Fin 1), matOf (V m c main_v70 : (⟨S256x384, .bf16⟩ : BufTy).Contents (Elt Ideal)) k ⟨256 + j.val, by omega⟩ = matOf (m ((c : Thread nD τ).loc main_arg22)) k j := by rw [e22]; exact fun k j => Cert.KernelIdeal.Glue.fa_alpha _ _ _ k j
  have hfbF : ∀ q : Fin 256, vecOf (V m c main_v71 : (⟨S1x384, .f32⟩ : BufTy).Contents (Elt Ideal)) ⟨0 + q.val, by omega⟩ = vec1 (m ((c : Thread nD τ).loc main_arg21)) q := by rw [e23]; exact fun q => Cert.KernelIdeal.Glue.fb_feat _ _ _ q
  have hfbA : ∀ j : Fin 1, vecOf (V m c main_v71 : (⟨S1x384, .f32⟩ : BufTy).Contents (Elt Ideal)) ⟨256 + j.val, by omega⟩ = vec1 (m ((c : Thread nD τ).loc main_arg23)) j := by rw [e23]; exact fun j => Cert.KernelIdeal.Glue.fb_alpha _ _ _ j
  show splitRow (rowOf (V m c main_v40) n) (rowOf (V m c main_v41) n) (matOf (V m c main_v50)) (vecOf (V m c main_v57)) (matOf (V m c main_v51)) (vecOf (V m c main_v58)) (matOf (V m c main_v52)) (vecOf (V m c main_v59)) (matOf (V m c main_v53)) (vecOf (V m c main_v60)) (matOf (V m c main_v54)) (vecOf (V m c main_v61)) (matOf (V m c main_v64)) (matOf (V m c main_v65)) (vecOf (V m c main_v66)) (matOf (V m c main_v55)) (vecOf (V m c main_v62)) (matOf (V m c main_v56)) (vecOf (V m c main_v63)) (matOf (V m c main_v67)) (matOf (V m c main_v68)) (vecOf (V m c main_v69)) (matOf (V m c main_v70)) (vecOf (V m c main_v71)) (matOf (V m c main_v72)) (vecOf (V m c main_v73)) j = _
  rw [r0, r1, w2, w4, w6, w8, w10, w15, w17, w24, b3, b5, b7, b9, b11, b14, b16, b18, b21, b25]
  exact congrFun (split_eq_plain (rowOf (Cert.KernelIdeal.Glue.embedPts (F := Ideal) (m ((c : Thread nD τ).loc main_arg0))) n) (rowOf (Cert.KernelIdeal.Glue.embedDirs (F := Ideal) (m ((c : Thread nD τ).loc main_arg1))) n)
    (matOf (m ((c : Thread nD τ).loc main_arg2))) (vec1 (m ((c : Thread nD τ).loc main_arg3))) (matOf (m ((c : Thread nD τ).loc main_arg4))) (vec1 (m ((c : Thread nD τ).loc main_arg5))) (matOf (m ((c : Thread nD τ).loc main_arg6))) (vec1 (m ((c : Thread nD τ).loc main_arg7))) (matOf (m ((c : Thread nD τ).loc main_arg8))) (vec1 (m ((c : Thread nD τ).loc main_arg9))) (matOf (m ((c : Thread nD τ).loc main_arg10))) (vec1 (m ((c : Thread nD τ).loc main_arg11))) (matOf (m ((c : Thread nD τ).loc main_arg12))) (vec1 (m ((c : Thread nD τ).loc main_arg13))) (matOf (m ((c : Thread nD τ).loc main_arg14))) (vec1 (m ((c : Thread nD τ).loc main_arg15))) (matOf (m ((c : Thread nD τ).loc main_arg16))) (vec1 (m ((c : Thread nD τ).loc main_arg17))) (matOf (m ((c : Thread nD τ).loc main_arg18))) (vec1 (m ((c : Thread nD τ).loc main_arg19))) (matOf (m ((c : Thread nD τ).loc main_arg20))) (vec1 (m ((c : Thread nD τ).loc main_arg21))) (matOf (m ((c : Thread nD τ).loc main_arg22))) (vec1 (m ((c : Thread nD τ).loc main_arg23))) (matOf (m ((c : Thread nD τ).loc main_arg24))) (vec1 (m ((c : Thread nD τ).loc main_arg25)))
    (matOf (V m c main_v64 : (⟨S63x256, .bf16⟩ : BufTy).Contents (Elt Ideal))) (matOf (V m c main_v65 : (⟨S256x256, .bf16⟩ : BufTy).Contents (Elt Ideal))) (matOf (V m c main_v67 : (⟨S256x128, .bf16⟩ : BufTy).Contents (Elt Ideal))) (matOf (V m c main_v68 : (⟨S27x128, .bf16⟩ : BufTy).Contents (Elt Ideal))) (matOf (V m c main_v70 : (⟨S256x384, .bf16⟩ : BufTy).Contents (Elt Ideal))) (vecOf (V m c main_v71 : (⟨S1x384, .f32⟩ : BufTy).Contents (Elt Ideal)))
    h5a h5b hvt hvb hfaF hfaA hfbF hfbA) j

/-- The two programs' embeddings are the same functions of the arguments (the same host operations). -/
theorem embedPts_eq (x0 : (⟨S4096x64x3, .f32⟩ : BufTy).Contents (Elt Ideal)) :
    Cert.ReferenceIdeal.HandRun.embedPts (F := Ideal) x0 = Cert.KernelIdeal.Glue.embedPts (F := Ideal) x0 := rfl
theorem embedDirs_eq (x1 : (⟨S4096x3, .f32⟩ : BufTy).Contents (Elt Ideal)) :
    Cert.ReferenceIdeal.HandRun.embedDirs (F := Ideal) x1 = Cert.KernelIdeal.Glue.embedDirs (F := Ideal) x1 := rfl

set_option maxHeartbeats 4000000 in
/-- The plain program's array, on the tiled program's arguments, is the tiled call's result array. -/
theorem results_eq (c : Dev nD) :
    Cert.ReferenceIdeal.HandRun.netArray (F := Ideal) (Cert.ReferenceIdeal.HandRun.embedPts (m ((c : Thread nD τ).loc main_arg0)))
      (Cert.ReferenceIdeal.HandRun.embedDirs (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) = resultV m c := by
  funext i
  obtain ⟨n, j, rfl⟩ : ∃ (n : Fin 262144) (j : Fin 4), i = ix2 n j := ⟨i 0, i 1, eq_ix2 i⟩
  rw [Cert.ReferenceIdeal.Rows.ref_rows, resultV_rows, embedPts_eq, embedDirs_eq]

end Cert.Proof.Bridge

end
-- ==== Proof.lean ====
/-
  The certificate of the row-tiled network against its plain form.

  The tiled program prepares its weights on the host (rounds them, cuts two matrices at a row, joins two heads),
  runs one call over 64 tiles of 4096 rows, each tile through the whole network with the joined layers computed as
  two products added, and re-lays the result. The plain program runs the same network on all rows at once. At the
  extended reals roundings are the identity and a sum over joined rows is the sum of the two parts' sums, so the two
  results are equal entry by entry; no step distributes or cancels, so the finiteness of the inputs is not used.
  Both tiled programs (the word-level one and its idealization) run to their end and leave their arguments unchanged
  because every host operation writes only its own result and the call writes only its result array; the plain
  program because it is host operations only. The idealization rewrote nothing, so it preserves trivially.
-/
import proofs.«140130_j7078106103925_2_alg».proof.Defs
import proofs.«140130_j7078106103925_2_alg».proof.Proof.Gen.Kernel
import proofs.«140130_j7078106103925_2_alg».proof.Proof.Gen.KernelIdeal
import proofs.«140130_j7078106103925_2_alg».proof.Proof.Gen.ReferenceIdeal
import proofs.«140130_j7078106103925_2_alg».proof.Proof.Gen.Pre_finite_inputs
import proofs.«140130_j7078106103925_2_alg».proof.Proof.BitsRun
import proofs.«140130_j7078106103925_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frm.frame (F := Bits) m ρ

theorem frame_ki : Cert.frame_KernelIdeal := fun m ρ _ => Cert.KernelIdeal.Frm.frame (F := Ideal) m ρ

theorem frame_ri : Cert.frame_ReferenceIdeal := fun m ρ _ =>
  (θ_run Cert.ReferenceIdeal.defs _ _).mono (fun _ h c => (h c).2) (Cert.ReferenceIdeal.HandRun.run (F := Ideal) m ρ)

theorem preserves : Cert.preserves_Kernel_KernelIdeal := trivial

set_option maxHeartbeats 4000000 in
theorem algebraic : Cert.algebraic_KernelIdeal_ReferenceIdeal := by
  intro m ρ m' ρ' _ hagree
  refine ⟨fun c => shapeCast Cert.KernelIdeal.S4096x64x4 (Cert.KernelIdeal.Arr.resultV m c) _,
    Cert.KernelIdeal.Arr.run m ρ, ?_⟩
  refine (θ_run Cert.ReferenceIdeal.defs _ _).mono (fun _ h c => ⟨(h c).1.trans ?_, (h c).2⟩)
    (Cert.ReferenceIdeal.HandRun.run (F := Ideal) m' ρ')
  have h0 := (hagree c).1
  have h1 := (hagree c).2.1
  have h2 := (hagree c).2.2.1
  have h3 := (hagree c).2.2.2.1
  have h4 := (hagree c).2.2.2.2.1
  have h5 := (hagree c).2.2.2.2.2.1
  have h6 := (hagree c).2.2.2.2.2.2.1
  have h7 := (hagree c).2.2.2.2.2.2.2.1
  have h8 := (hagree c).2.2.2.2.2.2.2.2.1
  have h9 := (hagree c).2.2.2.2.2.2.2.2.2.1
  have h10 := (hagree c).2.2.2.2.2.2.2.2.2.2.1
  have h11 := (hagree c).2.2.2.2.2.2.2.2.2.2.2.1
  have h12 := (hagree c).2.2.2.2.2.2.2.2.2.2.2.2.1
  have h13 := (hagree c).2.2.2.2.2.2.2.2.2.2.2.2.2.1
  have h14 := (hagree c).2.2.2.2.2.2.2.2.2.2.2.2.2.2.1
  have h15 := (hagree c).2.2.2.2.2.2.2.2.2.2.2.2.2.2.2.1
  have h16 := (hagree c).2.2.2.2.2.2.2.2.2.2.2.2.2.2.2.2.1
  have h17 := (hagree c).2.2.2.2.2.2.2.2.2.2.2.2.2.2.2.2.2.1
  have h18 := (hagree c).2.2.2.2.2.2.2.2.2.2.2.2.2.2.2.2.2.2.1
  have h19 := (hagree c).2.2.2.2.2.2.2.2.2.2.2.2.2.2.2.2.2.2.2.1
  have h20 := (hagree c).2.2.2.2.2.2.2.2.2.2.2.2.2.2.2.2.2.2.2.2.1
  have h21 := (hagree c).2.2.2.2.2.2.2.2.2.2.2.2.2.2.2.2.2.2.2.2.2.1
  have h22 := (hagree c).2.2.2.2.2.2.2.2.2.2.2.2.2.2.2.2.2.2.2.2.2.2.1
  have h23 := (hagree c).2.2.2.2.2.2.2.2.2.2.2.2.2.2.2.2.2.2.2.2.2.2.2.1
  have h24 := (hagree c).2.2.2.2.2.2.2.2.2.2.2.2.2.2.2.2.2.2.2.2.2.2.2.2.1
  have h25 := (hagree c).2.2.2.2.2.2.2.2.2.2.2.2.2.2.2.2.2.2.2.2.2.2.2.2.2
  rw [h0, h1, h2, h3, h4, h5, h6, h7, h8, h9, h10, h11, h12, h13, h14, h15, h16, h17, h18, h19, h20, h21, h22, h23, h24, h25]
  rw [Bridge.results_eq m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
